-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4 : S_.BroadcastsInDim S4 (![] : Fin 0 → Fin S4.rank)
  reducesTo_S4_S_d0 : S4.ReducesTo [0] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S4x32 : S_.BroadcastsInDim S4x32 (![] : Fin 0 → Fin S4x32.rank)
  reducesTo_S4x32_S_d0_1 : S4x32.ReducesTo [0, 1] S_
  bcast_S_S32x4 : S_.BroadcastsInDim S32x4 (![] : Fin 0 → Fin S32x4.rank)
  reducesTo_S32x4_S_d0_1 : S32x4.ReducesTo [0, 1] S_

variable [Facts]

def fn_part4 {F : FTy → Type} [FloatOps F] (main_arg15 : FVec F S4 .f32) (main_v63 : IVec S_ 1) (main_v67 : IVec S_ 1) : IVec S_ 1 :=
  let main_v68 : IVec S_ 1 := andi main_v63 main_v67
  let main_v69 : FVec F S4 .f32 := Host.absf main_arg15
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  main_v73

def fn_part3 {F : FTy → Type} [FloatOps F] (main_arg12 : FVec F S32x32 .f32) (main_arg13 : FVec F S32 .f32) (main_arg14 : FVec F S32x4 .f32) (main_arg15 : FVec F S4 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x4 .f32 := Host.absf main_arg14
  let main_cst_24 : FVec F S_ .f32 := constant S_ .f32 0x7F800000#32
  let main_v65 : FVec F S32x4 .f32 := broadcastInDim S32x4 ![] bcast_S_S32x4 main_cst_24
  let main_v66 : IVec S32x4 1 := cmpf .olt main_v64 main_v65
  let main_c_25 : IVec S_ 1 := constantI S_ 1 1#1
  let main_v67 : IVec S_ 1 := (fun x v => Host.reduce IntOp.andi x v reducesTo_S32x4_S_d0_1 h_S_) main_v66 main_c_25
  fn_part4 (F := F) main_arg15 main_v63 main_v67

def fn_part2 {F : FTy → Type} [FloatOps F] (main_arg8 : FVec F S32x2 .f32) (main_arg9 : FVec F S2 .f32) (main_arg10 : FVec F S4x32 .f32) (main_arg11 : FVec F S32 .f32) (main_arg12 : FVec F S32x32 .f32) (main_arg13 : FVec F S32 .f32) (main_arg14 : FVec F S32x4 .f32) (main_arg15 : FVec F S4 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S4x32 .f32 := Host.absf main_arg10
  let main_cst_16 : FVec F S_ .f32 := constant S_ .f32 0x7F800000#32
  let main_v45 : FVec F S4x32 .f32 := broadcastInDim S4x32 ![] bcast_S_S4x32 main_cst_16
  let main_v46 : IVec S4x32 1 := cmpf .olt main_v44 main_v45
  let main_c_17 : IVec S_ 1 := constantI S_ 1 1#1
  let main_v47 : IVec S_ 1 := (fun x v => Host.reduce IntOp.andi x v reducesTo_S4x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_v48 main_v49 main_v50

def fn_part1 {F : FTy → Type} [FloatOps F] (main_arg5 : FVec F S32 .f32) (main_arg6 : FVec F S32x32 .f32) (main_arg7 : FVec F S32 .f32) (main_arg8 : FVec F S32x2 .f32) (main_arg9 : FVec F S2 .f32) (main_arg10 : FVec F S4x32 .f32) (main_arg11 : FVec F S32 .f32) (main_arg12 : FVec F S32x32 .f32) (main_arg13 : FVec F S32 .f32) (main_arg14 : FVec F S32x4 .f32) (main_arg15 : FVec F S4 .f32) (main_v13 : IVec S_ 1) (main_v16 : IVec S8x32 1) : IVec S_ 1 :=
  let main_c_5 : IVec S_ 1 := constantI S_ 1 1#1
  let main_v17 : IVec S_ 1 := (fun x v => Host.reduce IntOp.andi x v reducesTo_S8x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x4 .f32) (main_arg1 : IVec S2x3200000 32) (main_arg2 : FVec F S4 .f32) (main_arg3 : FVec F S4 .f32) (main_arg4 : FVec F S8x32 .f32) (main_arg5 : FVec F S32 .f32) (main_arg6 : FVec F S32x32 .f32) (main_arg7 : FVec F S32 .f32) (main_arg8 : FVec F S32x2 .f32) (main_arg9 : FVec F S2 .f32) (main_arg10 : FVec F S4x32 .f32) (main_arg11 : FVec F S32 .f32) (main_arg12 : FVec F S32x32 .f32) (main_arg13 : FVec F S32 .f32) (main_arg14 : FVec F S32x4 .f32) (main_arg15 : FVec F S4 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S8x32 .f32 := Host.absf main_arg4
  let main_cst_4 : FVec F S_ .f32 := constant S_ .f32 0x7F800000#32
  let main_v15 : FVec F S8x32 .f32 := broadcastInDim S8x32 ![] bcast_S_S8x32 main_cst_4
  let main_v16 : IVec S8x32 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x4 : Shape := ⟨2, ![100000, 4]⟩
abbrev S2x3200000 : Shape := ⟨2, ![2, 3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S_ : Shape := ⟨0, ![]⟩
abbrev S1x4 : Shape := ⟨2, ![1, 4]⟩
abbrev S1x3200000 : Shape := ⟨2, ![1, 3200000]⟩
abbrev S3200000 : Shape := ⟨1, ![3200000]⟩
abbrev S3200000x1 : Shape := ⟨2, ![3200000, 1]⟩
abbrev S3200000x4 : Shape := ⟨2, ![3200000, 4]⟩
abbrev S1x32 : Shape := ⟨2, ![1, 32]⟩
abbrev S1x2 : Shape := ⟨2, ![1, 2]⟩
abbrev S3200000x2 : Shape := ⟨2, ![3200000, 2]⟩
abbrev S10000x4 : Shape := ⟨2, ![10000, 4]⟩
abbrev S10000x2 : Shape := ⟨2, ![10000, 2]⟩
abbrev S10000x8 : Shape := ⟨2, ![10000, 8]⟩
abbrev S10000x32 : Shape := ⟨2, ![10000, 32]⟩
abbrev S100000x2 : Shape := ⟨2, ![100000, 2]⟩
abbrev S100000 : Shape := ⟨1, ![100000]⟩
abbrev S100000x1 : Shape := ⟨2, ![100000, 1]⟩

abbrev nBuf : Space → Nat
  | .hbm => 140
  | .vmem => 24
  | .smem => 0
  | _ => 0

abbrev hbmTy0_0 (i : Nat) : BufTy := match i % 128 with
  | 0 => ⟨S100000x4, .f32⟩
  | 1 => ⟨S2x3200000, .i32⟩
  | 2 => ⟨S4, .f32⟩
  | 3 => ⟨S4, .f32⟩
  | 4 => ⟨S8x32, .f32⟩
  | 5 => ⟨S32, .f32⟩
  | 6 => ⟨S32x32, .f32⟩
  | 7 => ⟨S32, .f32⟩
  | 8 => ⟨S32x2, .f32⟩
  | 9 => ⟨S2, .f32⟩
  | 10 => ⟨S4x32, .f32⟩
  | 11 => ⟨S32, .f32⟩
  | 12 => ⟨S32x32, .f32⟩
  | 13 => ⟨S32, .f32⟩
  | 14 => ⟨S32x4, .f32⟩
  | 15 => ⟨S4, .f32⟩
  | 16 => ⟨S_, .f32⟩
  | 17 => ⟨S4, .f32⟩
  | 18 => ⟨S_, .f32⟩
  | 19 => ⟨S4, .f32⟩
  | 20 => ⟨S4, .f32⟩
  | 21 => ⟨S_, .i32⟩
  | 22 => ⟨S_, .f32⟩
  | 23 => ⟨S4, .f32⟩
  | 24 => ⟨S1x4, .f32⟩
  | 25 => ⟨S_, .f32⟩
  | 26 => ⟨S1x4, .f32⟩
  | 27 => ⟨S1x4, .f32⟩
  | 28 => ⟨S100000x4, .f32⟩
  | 29 => ⟨S100000x4, .f32⟩
  | 30 => ⟨S100000x4, .f32⟩
  | 31 => ⟨S_, .f32⟩
  | 32 => ⟨S_, .f32⟩
  | 33 => ⟨S_, .f32⟩
  | 34 => ⟨S_, .f32⟩
  | 35 => ⟨S4, .f32⟩
  | 36 => ⟨S4, .f32⟩
  | 37 => ⟨S4, .f32⟩
  | 38 => ⟨S_, .f32⟩
  | 39 => ⟨S_, .i1⟩
  | 40 => ⟨S_, .f32⟩
  | 41 => ⟨S_, .f32⟩
  | 42 => ⟨S4, .f32⟩
  | 43 => ⟨S4, .f32⟩
  | 44 => ⟨S1x4, .f32⟩
  | 45 => ⟨S100000x4, .f32⟩
  | 46 => ⟨S100000x4, .f32⟩
  | 47 => ⟨S_, .f32⟩
  | 48 => ⟨S4, .f32⟩
  | 49 => ⟨S4, .f32⟩
  | 50 => ⟨S4, .f32⟩
  | 51 => ⟨S1x4, .f32⟩
  | 52 => ⟨S100000x4, .f32⟩
  | 53 => ⟨S100000x4, .f32⟩
  | 54 => ⟨S1x4, .f32⟩
  | 55 => ⟨S100000x4, .f32⟩
  | 56 => ⟨S100000x4, .f32⟩
  | 57 => ⟨S1x4, .f32⟩
  | 58 => ⟨S100000x4, .f32⟩
  | 59 => ⟨S100000x4, .f32⟩
  | 60 => ⟨S1x3200000, .i32⟩
  | 61 => ⟨S3200000, .i32⟩
  | 62 => ⟨S1x3200000, .i32⟩
  | 63 => ⟨S3200000, .i32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x4, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x4, .f32⟩
  | 82 => ⟨S1x32, .f32⟩
  | 83 => ⟨S1x32, .f32⟩
  | 84 => ⟨S1x2, .f32⟩
  | 85 => ⟨S3200000x2, .f32⟩
  | 86 => ⟨S_, .f32⟩
  | 87 => ⟨S100000x2, .f32⟩
  | 88 => ⟨S3200000x1, .i32⟩
  | 89 => ⟨S100000x2, .f32⟩
  | 90 => ⟨S_, .f32⟩
  | 91 => ⟨S3200000, .f32⟩
  | 92 => ⟨S_, .f32⟩
  | 93 => ⟨S100000, .f32⟩
  | 94 => ⟨S3200000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x2, .f32⟩
  | 101 => ⟨S100000x2, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x2, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000x2, .f32⟩
  | 120 => ⟨S1x32, .f32⟩
  | 121 => ⟨S1x32, .f32⟩
  | 122 => ⟨S1x4, .f32⟩
  | 123 => ⟨S3200000x4, .f32⟩
  | 124 => ⟨S_, .f32⟩
  | 125 => ⟨S100000x4, .f32⟩
  | 126 => ⟨S3200000x1, .i32⟩
  | 127 => ⟨S100000x4, .f32⟩
  | _ => ⟨S100000x4, .f32⟩

abbrev hbmTy0_1 (i : Nat) : BufTy := match i % 128 with
  | 0 => ⟨S_, .f32⟩
  | 1 => ⟨S3200000, .f32⟩
  | 2 => ⟨S_, .f32⟩
  | 3 => ⟨S100000, .f32⟩
  | 4 => ⟨S3200000x1, .i32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x4, .f32⟩
  | 11 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S10000x4, .f32⟩
  | .local _ .vmem, ⟨3, _⟩ => ⟨S10000x4, .f32⟩
  | .local _ .vmem, ⟨4, _⟩ => ⟨S8x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S32x2, .f32⟩
  | .local _ .vmem, ⟨9, _⟩ => ⟨S1x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S10000x2, .f32⟩
  | .local _ .vmem, ⟨14, _⟩ => ⟨S10000x2, .f32⟩
  | .local _ .vmem, ⟨15, _⟩ => ⟨S10000x2, .f32⟩
  | .local _ .vmem, ⟨16, _⟩ => ⟨S4x32, .f32⟩
  | .local _ .vmem, ⟨17, _⟩ => ⟨S1x32, .f32⟩
  | .local _ .vmem, ⟨18, _⟩ => ⟨S32x32, .f32⟩
  | .local _ .vmem, ⟨19, _⟩ => ⟨S1x32, .f32⟩
  | .local _ .vmem, ⟨20, _⟩ => ⟨S32x4, .f32⟩
  | .local _ .vmem, ⟨21, _⟩ => ⟨S1x4, .f32⟩
  | .local _ .vmem, ⟨22, _⟩ => ⟨S10000x4, .f32⟩
  | .local _ .vmem, ⟨23, _⟩ => ⟨S10000x4, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_2 : Ref sig .tc := ⟨.hbm, 64, rfl⟩
abbrev main_v23 : Ref sig .tc := ⟨.hbm, 65, rfl⟩
abbrev main_v24 : Ref sig .tc := ⟨.hbm, 66, rfl⟩
abbrev main_c_3 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c_4 : Ref sig .tc := ⟨.hbm, 73, rfl⟩
abbrev main_v30 : Ref sig .tc := ⟨.hbm, 74, rfl⟩
abbrev main_v31 : Ref sig .tc := ⟨.hbm, 75, rfl⟩
abbrev main_c_5 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_6 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_7 : Ref sig .tc := ⟨.hbm, 90, rfl⟩
abbrev main_v44 : Ref sig .tc := ⟨.hbm, 91, rfl⟩
abbrev main_cst_8 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_9 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_c_10 : Ref sig .tc := ⟨.hbm, 102, rfl⟩
abbrev main_v53 : Ref sig .tc := ⟨.hbm, 103, rfl⟩
abbrev main_v54 : Ref sig .tc := ⟨.hbm, 104, rfl⟩
abbrev main_c_11 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_c_12 : Ref sig .tc := ⟨.hbm, 111, rfl⟩
abbrev main_v60 : Ref sig .tc := ⟨.hbm, 112, rfl⟩
abbrev main_v61 : Ref sig .tc := ⟨.hbm, 113, rfl⟩
abbrev main_c_13 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_14 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_15 : Ref sig .tc := ⟨.hbm, 128, rfl⟩
abbrev main_v74 : Ref sig .tc := ⟨.hbm, 129, rfl⟩
abbrev main_cst_16 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_17 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x4 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S100000x4_0_1 : S1x4.BroadcastsInDim S100000x4 (![0, 1] : Fin 2 → Fin S100000x4.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S32_S1x32 : S32.ShapeCasts S1x32
  shapeCasts_S2_S1x2 : S2.ShapeCasts S1x2
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  concatenates_S10000x4_S10000x4_S10000x8_d1 : Shape.Concatenates [S10000x4, S10000x4] S10000x8 1
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  shapeCasts_S4_S1x4 : S4.ShapeCasts S1x4
  shapeCasts_S10000x2_S10000x2 : S10000x2.ShapeCasts S10000x2
  concatenates_S10000x2_S10000x2_S10000x4_d1 : Shape.Concatenates [S10000x2, S10000x2] S10000x4 1
  inb_S4x32_S4x32_0_0 : ∀ a, (![0, 0] : Fin 2 → Nat) a + S4x32.size a ≤ S4x32.size a
  h_S4x32 : 0 < S4x32.numel
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S10000x8_S8x32_S10000x32_1_0_0_1_n_n_wf : DotDims.WF S10000x8 S8x32 S10000x32 [1] [0] [0] [1] [] []
  dot_S10000x32_S32x32_S10000x32_1_0_0_1_n_n_wf : DotDims.WF S10000x32 S32x32 S10000x32 [1] [0] [0] [1] [] []
  dot_S10000x32_S32x2_S10000x2_1_0_0_1_n_n_wf : DotDims.WF S10000x32 S32x2 S10000x2 [1] [0] [0] [1] [] []
  scatter_S100000x2_S3200000x1_S3200000x2_1_0_0_1_wf : ScatterDims.WF S100000x2 S3200000x1 S3200000x2 [1] [0] [0] 1
  scatter_S100000_S3200000x1_S3200000_n_0_0_1_wf : ScatterDims.WF S100000 S3200000x1 S3200000 [] [0] [0] 1
  gather_S100000x2_S3200000x1_S3200000x2_1_0_n_n_0_1_12_wf : GatherDims.WF S100000x2 S3200000x1 S3200000x2 [1] [0] [] [0] [] 1 ![1, 2]
  dot_S10000x4_S4x32_S10000x32_1_0_0_1_n_n_wf : DotDims.WF S10000x4 S4x32 S10000x32 [1] [0] [0] [1] [] []
  dot_S10000x32_S32x4_S10000x4_1_0_0_1_n_n_wf : DotDims.WF S10000x32 S32x4 S10000x4 [1] [0] [0] [1] [] []
  scatter_S100000x4_S3200000x1_S3200000x4_1_0_0_1_wf : ScatterDims.WF S100000x4 S3200000x1 S3200000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S3200000x4.size a
  hwx0_0 : ∀ i : grid0.Coords, EltTy.bits .f32 = 32 ∨ (Rect.block (s := S3200000x4) S10000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S3200000x4.size a
  hwx0_1 : ∀ i : grid0.Coords, EltTy.bits .f32 = 32 ∨ (Rect.block (s := S3200000x4) S10000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x2.size a ≤ S32x2.size a
  hwx0_6 : ∀ i : grid0.Coords, EltTy.bits .f32 = 32 ∨ (Rect.block (s := S32x2) S32x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x2.size a ≤ S3200000x2.size a
  hwx0_8 : ∀ i : grid0.Coords, EltTy.bits .f32 = 32 ∨ (Rect.block (s := S3200000x2) S10000x2.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x2.size a ≤ S3200000x2.size a
  hwx1_0 : ∀ i : grid1.Coords, EltTy.bits .f32 = 32 ∨ (Rect.block (s := S3200000x2) S10000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x2.size a ≤ S3200000x2.size a
  hwx1_1 : ∀ i : grid1.Coords, EltTy.bits .f32 = 32 ∨ (Rect.block (s := S3200000x2) S10000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x32.size a ≤ S4x32.size a
  hwx1_2 : ∀ i : grid1.Coords, EltTy.bits .f32 = 32 ∨ (Rect.block (s := S4x32) S4x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x4.size a ≤ S32x4.size a
  hwx1_6 : ∀ i : grid1.Coords, EltTy.bits .f32 = 32 ∨ (Rect.block (s := S32x4) S32x4.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4.size a ≤ S1x4.size a
  hwx1_7 : ∀ i : grid1.Coords, EltTy.bits .f32 = 32 ∨ (Rect.block (s := S1x4) S1x4.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x4.size a ≤ S3200000x4.size a
  hwx1_8 : ∀ i : grid1.Coords, EltTy.bits .f32 = 32 ∨ (Rect.block (s := S3200000x4) S10000x4.size (cc1_transform_8 i) (hinb1_8 i)).WholeWords (EltTy.packing .f32)

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S10000x8_S8x32_S10000x32_1_0_0_1_n_n : DotDims S10000x8 S8x32 S10000x32 where
  lhsContracting := [1]
  rhsContracting := [0]
  lhsNonContracting := [0]
  rhsNonContracting := [1]
  lhsBatch := []
  rhsBatch := []
  wf := dot_S10000x8_S8x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S10000x4_S4x32_S10000x32_1_0_0_1_n_n : DotDims S10000x4 S4x32 S10000x32 where
  lhsContracting := [1]
  rhsContracting := [0]
  lhsNonContracting := [0]
  rhsNonContracting := [1]
  lhsBatch := []
  rhsBatch := []
  wf := dot_S10000x4_S4x32_S10000x32_1_0_0_1_n_n_wf
def dot_S10000x32_S32x4_S10000x4_1_0_0_1_n_n : DotDims S10000x32 S32x4 S10000x4 where
  lhsContracting := [1]
  rhsContracting := [0]
  lhsNonContracting := [0]
  rhsNonContracting := [1]
  lhsBatch := []
  rhsBatch := []
  wf := dot_S10000x32_S32x4_S10000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

abbrev win0_0 : Pipeline.Window sig grid0 :=
  Pipeline.Window.ofSpec (Memref.whole main_v29) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S10000x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v59) S10000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S10000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S4x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S32x4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v69) S1x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S10000x4.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S_ : Shape := ⟨0, ![]⟩
abbrev S1x4 : Shape := ⟨2, ![1, 4]⟩
abbrev S1x3200000 : Shape := ⟨2, ![1, 3200000]⟩
abbrev S3200000 : Shape := ⟨1, ![3200000]⟩
abbrev S3200000x1 : Shape := ⟨2, ![3200000, 1]⟩
abbrev S3200000x4 : Shape := ⟨2, ![3200000, 4]⟩
abbrev S3200000x8 : Shape := ⟨2, ![3200000, 8]⟩
abbrev S3200000x32 : Shape := ⟨2, ![3200000, 32]⟩
abbrev S1x32 : Shape := ⟨2, ![1, 32]⟩
abbrev S3200000x2 : Shape := ⟨2, ![3200000, 2]⟩
abbrev S1x2 : Shape := ⟨2, ![1, 2]⟩
abbrev S100000x2 : Shape := ⟨2, ![100000, 2]⟩
abbrev S100000 : Shape := ⟨1, ![100000]⟩
abbrev S100000x1 : Shape := ⟨2, ![100000, 1]⟩

abbrev nBuf : Space → Nat
  | .hbm => 175
  | .vmem => 0
  | .smem => 0
  | _ => 0

abbrev hbmTy0_0 (i : Nat) : BufTy := match i % 128 with
  | 0 => ⟨S100000x4, .f32⟩
  | 1 => ⟨S2x3200000, .i32⟩
  | 2 => ⟨S4, .f32⟩
  | 3 => ⟨S4, .f32⟩
  | 4 => ⟨S8x32, .f32⟩
  | 5 => ⟨S32, .f32⟩
  | 6 => ⟨S32x32, .f32⟩
  | 7 => ⟨S32, .f32⟩
  | 8 => ⟨S32x2, .f32⟩
  | 9 => ⟨S2, .f32⟩
  | 10 => ⟨S4x32, .f32⟩
  | 11 => ⟨S32, .f32⟩
  | 12 => ⟨S32x32, .f32⟩
  | 13 => ⟨S32, .f32⟩
  | 14 => ⟨S32x4, .f32⟩
  | 15 => ⟨S4, .f32⟩
  | 16 => ⟨S_, .f32⟩
  | 17 => ⟨S4, .f32⟩
  | 18 => ⟨S_, .f32⟩
  | 19 => ⟨S4, .f32⟩
  | 20 => ⟨S4, .f32⟩
  | 21 => ⟨S_, .i32⟩
  | 22 => ⟨S_, .f32⟩
  | 23 => ⟨S4, .f32⟩
  | 24 => ⟨S1x4, .f32⟩
  | 25 => ⟨S_, .f32⟩
  | 26 => ⟨S1x4, .f32⟩
  | 27 => ⟨S1x4, .f32⟩
  | 28 => ⟨S100000x4, .f32⟩
  | 29 => ⟨S100000x4, .f32⟩
  | 30 => ⟨S100000x4, .f32⟩
  | 31 => ⟨S_, .f32⟩
  | 32 => ⟨S_, .f32⟩
  | 33 => ⟨S_, .f32⟩
  | 34 => ⟨S_, .f32⟩
  | 35 => ⟨S4, .f32⟩
  | 36 => ⟨S4, .f32⟩
  | 37 => ⟨S4, .f32⟩
  | 38 => ⟨S_, .f32⟩
  | 39 => ⟨S_, .i1⟩
  | 40 => ⟨S_, .f32⟩
  | 41 => ⟨S_, .f32⟩
  | 42 => ⟨S4, .f32⟩
  | 43 => ⟨S4, .f32⟩
  | 44 => ⟨S1x4, .f32⟩
  | 45 => ⟨S100000x4, .f32⟩
  | 46 => ⟨S100000x4, .f32⟩
  | 47 => ⟨S_, .f32⟩
  | 48 => ⟨S4, .f32⟩
  | 49 => ⟨S4, .f32⟩
  | 50 => ⟨S4, .f32⟩
  | 51 => ⟨S1x4, .f32⟩
  | 52 => ⟨S100000x4, .f32⟩
  | 53 => ⟨S100000x4, .f32⟩
  | 54 => ⟨S1x4, .f32⟩
  | 55 => ⟨S100000x4, .f32⟩
  | 56 => ⟨S100000x4, .f32⟩
  | 57 => ⟨S1x4, .f32⟩
  | 58 => ⟨S100000x4, .f32⟩
  | 59 => ⟨S100000x4, .f32⟩
  | 60 => ⟨S1x3200000, .i32⟩
  | 61 => ⟨S3200000, .i32⟩
  | 62 => ⟨S1x3200000, .i32⟩
  | 63 => ⟨S3200000, .i32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x4, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x4, .f32⟩
  | 82 => ⟨S3200000x4, .f32⟩
  | 83 => ⟨S3200000x8, .f32⟩
  | 84 => ⟨S3200000x32, .f32⟩
  | 85 => ⟨S1x32, .f32⟩
  | 86 => ⟨S3200000x32, .f32⟩
  | 87 => ⟨S3200000x32, .f32⟩
  | 88 => ⟨S_, .f32⟩
  | 89 => ⟨S3200000x32, .f32⟩
  | 90 => ⟨S3200000x32, .f32⟩
  | 91 => ⟨S3200000x32, .f32⟩
  | 92 => ⟨S1x32, .f32⟩
  | 93 => ⟨S3200000x32, .f32⟩
  | 94 => ⟨S3200000x32, .f32⟩
  | 95 => ⟨S_, .f32⟩
  | 96 => ⟨S3200000x32, .f32⟩
  | 97 => ⟨S3200000x32, .f32⟩
  | 98 => ⟨S3200000x2, .f32⟩
  | 99 => ⟨S1x2, .f32⟩
  | 100 => ⟨S3200000x2, .f32⟩
  | 101 => ⟨S3200000x2, .f32⟩
  | 102 => ⟨S_, .f32⟩
  | 103 => ⟨S3200000x2, .f32⟩
  | 104 => ⟨S3200000x2, .f32⟩
  | 105 => ⟨S_, .f32⟩
  | 106 => ⟨S100000x2, .f32⟩
  | 107 => ⟨S3200000x1, .i32⟩
  | 108 => ⟨S100000x2, .f32⟩
  | 109 => ⟨S_, .f32⟩
  | 110 => ⟨S3200000, .f32⟩
  | 111 => ⟨S_, .f32⟩
  | 112 => ⟨S100000, .f32⟩
  | 113 => ⟨S3200000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x2, .f32⟩
  | 120 => ⟨S100000x2, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x4, .f32⟩

abbrev hbmTy0_1 (i : Nat) : BufTy := match i % 128 with
  | 0 => ⟨S3200000x1, .i32⟩
  | 1 => ⟨S3200000x2, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S3200000x2, .f32⟩
  | 11 => ⟨S3200000x2, .f32⟩
  | 12 => ⟨S3200000x4, .f32⟩
  | 13 => ⟨S3200000x32, .f32⟩
  | 14 => ⟨S1x32, .f32⟩
  | 15 => ⟨S3200000x32, .f32⟩
  | 16 => ⟨S3200000x32, .f32⟩
  | 17 => ⟨S_, .f32⟩
  | 18 => ⟨S3200000x32, .f32⟩
  | 19 => ⟨S3200000x32, .f32⟩
  | 20 => ⟨S3200000x32, .f32⟩
  | 21 => ⟨S1x32, .f32⟩
  | 22 => ⟨S3200000x32, .f32⟩
  | 23 => ⟨S3200000x32, .f32⟩
  | 24 => ⟨S_, .f32⟩
  | 25 => ⟨S3200000x32, .f32⟩
  | 26 => ⟨S3200000x32, .f32⟩
  | 27 => ⟨S3200000x4, .f32⟩
  | 28 => ⟨S1x4, .f32⟩
  | 29 => ⟨S3200000x4, .f32⟩
  | 30 => ⟨S3200000x4, .f32⟩
  | 31 => ⟨S_, .f32⟩
  | 32 => ⟨S100000x4, .f32⟩
  | 33 => ⟨S3200000x1, .i32⟩
  | 34 => ⟨S100000x4, .f32⟩
  | 35 => ⟨S_, .f32⟩
  | 36 => ⟨S3200000, .f32⟩
  | 37 => ⟨S_, .f32⟩
  | 38 => ⟨S100000, .f32⟩
  | 39 => ⟨S3200000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x4, .f32⟩
  | 46 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_2 : Ref sig .tc := ⟨.hbm, 64, rfl⟩
abbrev main_v23 : Ref sig .tc := ⟨.hbm, 65, rfl⟩
abbrev main_v24 : Ref sig .tc := ⟨.hbm, 66, rfl⟩
abbrev main_c_3 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c_4 : Ref sig .tc := ⟨.hbm, 73, rfl⟩
abbrev main_v30 : Ref sig .tc := ⟨.hbm, 74, rfl⟩
abbrev main_v31 : Ref sig .tc := ⟨.hbm, 75, rfl⟩
abbrev main_c_5 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_call1_cst : Ref sig .tc := ⟨.hbm, 88, rfl⟩
abbrev main_call1_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_call2_cst : Ref sig .tc := ⟨.hbm, 95, rfl⟩
abbrev main_call2_v0 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_call3_cst : Ref sig .tc := ⟨.hbm, 102, rfl⟩
abbrev main_call3_v0 : Ref sig .tc := ⟨.hbm, 103, rfl⟩
abbrev main_v53 : Ref sig .tc := ⟨.hbm, 104, rfl⟩
abbrev main_cst_6 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_7 : Ref sig .tc := ⟨.hbm, 109, rfl⟩
abbrev main_v57 : Ref sig .tc := ⟨.hbm, 110, rfl⟩
abbrev main_cst_8 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_9 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_10 : Ref sig .tc := ⟨.hbm, 121, rfl⟩
abbrev main_v66 : Ref sig .tc := ⟨.hbm, 122, rfl⟩
abbrev main_v67 : Ref sig .tc := ⟨.hbm, 123, rfl⟩
abbrev main_c_11 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_12 : Ref sig .tc := ⟨.hbm, 130, rfl⟩
abbrev main_v73 : Ref sig .tc := ⟨.hbm, 131, rfl⟩
abbrev main_v74 : Ref sig .tc := ⟨.hbm, 132, rfl⟩
abbrev main_c_13 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_call4_cst : Ref sig .tc := ⟨.hbm, 145, rfl⟩
abbrev main_call4_v0 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_call5_cst : Ref sig .tc := ⟨.hbm, 152, rfl⟩
abbrev main_call5_v0 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_14 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_cst_15 : Ref sig .tc := ⟨.hbm, 163, rfl⟩
abbrev main_v99 : Ref sig .tc := ⟨.hbm, 164, rfl⟩
abbrev main_cst_16 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_cst_17 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩

abbrev nD : Nat := 1
abbrev τ : Topo := Topo.v7x

variable {F : FTy → Type} [FloatOps F]

class Facts₀ : Prop where
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S100000x4_0_1 : S1x4.BroadcastsInDim S100000x4 (![0, 1] : Fin 2 → Fin S100000x4.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x4_S3200000x4_S3200000x8_d1 : Shape.Concatenates [S3200000x4, S3200000x4] S3200000x8 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S2_S1x2_1 : S2.BroadcastsInDim S1x2 (![1] : Fin 1 → Fin S1x2.rank)
  bcast_S1x2_S3200000x2_0_1 : S1x2.BroadcastsInDim S3200000x2 (![0, 1] : Fin 2 → Fin S3200000x2.rank)
  bcast_S_S3200000x2 : S_.BroadcastsInDim S3200000x2 (![] : Fin 0 → Fin S3200000x2.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  concatenates_S3200000x2_S3200000x2_S3200000x4_d1 : Shape.Concatenates [S3200000x2, S3200000x2] S3200000x4 1
  bcast_S1x4_S3200000x4_0_1 : S1x4.BroadcastsInDim S3200000x4 (![0, 1] : Fin 2 → Fin S3200000x4.rank)
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S3200000x8_S8x32_S3200000x32_1_0_0_1_n_n_wf : DotDims.WF S3200000x8 S8x32 S3200000x32 [1] [0] [0] [1] [] []
  dot_S3200000x32_S32x32_S3200000x32_1_0_0_1_n_n_wf : DotDims.WF S3200000x32 S32x32 S3200000x32 [1] [0] [0] [1] [] []
  dot_S3200000x32_S32x2_S3200000x2_1_0_0_1_n_n_wf : DotDims.WF S3200000x32 S32x2 S3200000x2 [1] [0] [0] [1] [] []
  scatter_S100000x2_S3200000x1_S3200000x2_1_0_0_1_wf : ScatterDims.WF S100000x2 S3200000x1 S3200000x2 [1] [0] [0] 1
  scatter_S100000_S3200000x1_S3200000_n_0_0_1_wf : ScatterDims.WF S100000 S3200000x1 S3200000 [] [0] [0] 1
  gather_S100000x2_S3200000x1_S3200000x2_1_0_n_n_0_1_12_wf : GatherDims.WF S100000x2 S3200000x1 S3200000x2 [1] [0] [] [0] [] 1 ![1, 2]
  dot_S3200000x4_S4x32_S3200000x32_1_0_0_1_n_n_wf : DotDims.WF S3200000x4 S4x32 S3200000x32 [1] [0] [0] [1] [] []
  dot_S3200000x32_S32x4_S3200000x4_1_0_0_1_n_n_wf : DotDims.WF S3200000x32 S32x4 S3200000x4 [1] [0] [0] [1] [] []
  scatter_S100000x4_S3200000x1_S3200000x4_1_0_0_1_wf : ScatterDims.WF S100000x4 S3200000x1 S3200000x4 [1] [0] [0] 1

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S3200000x8_S8x32_S3200000x32_1_0_0_1_n_n : DotDims S3200000x8 S8x32 S3200000x32 where
  lhsContracting := [1]
  rhsContracting := [0]
  lhsNonContracting := [0]
  rhsNonContracting := [1]
  lhsBatch := []
  rhsBatch := []
  wf := dot_S3200000x8_S8x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x2_S3200000x2_1_0_0_1_n_n : DotDims S3200000x32 S32x2 S3200000x2 where
  lhsContracting := [1]
  rhsContracting := [0]
  lhsNonContracting := [0]
  rhsNonContracting := [1]
  lhsBatch := []
  rhsBatch := []
  wf := dot_S3200000x32_S32x2_S3200000x2_1_0_0_1_n_n_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S3200000x4_S4x32_S3200000x32_1_0_0_1_n_n : DotDims S3200000x4 S4x32 S3200000x32 where
  lhsContracting := [1]
  rhsContracting := [0]
  lhsNonContracting := [0]
  rhsNonContracting := [1]
  lhsBatch := []
  rhsBatch := []
  wf := dot_S3200000x4_S4x32_S3200000x32_1_0_0_1_n_n_wf
def dot_S3200000x32_S32x4_S3200000x4_1_0_0_1_n_n : DotDims S3200000x32 S32x4 S3200000x4 where
  lhsContracting := [1]
  rhsContracting := [0]
  lhsNonContracting := [0]
  rhsNonContracting := [1]
  lhsBatch := []
  rhsBatch := []
  wf := dot_S3200000x32_S32x4_S3200000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

class Facts : Prop extends Facts₀ where

variable [Facts]
-- ==== Proof.KRun.lean ====
/-
  The kernel program's run with its result named. Under every weakly fair schedule @main — three stretches of host
  operations, the first Pallas region, a stretch, the second region, a last stretch — terminates without a fault; each
  TensorCore buffer that outlives the regions then holds the last boundary's contents, the fold `W7` of the stretches
  and of the two regions' write-backs over the launch memory. Read at the result buffer this names the result; read at
  an argument it is the launch contents, since no stretch and no region writes an argument.
-/
import proofs.«152291_j60387240181866_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result buffer at the last boundary's contents and every argument array as launched. -/
theorem run : θ_run defs (onTc (τ := τ) (main (F := F))) ⟨m, fun _ => 0, ρ⟩ (fun r => ∀ c : Dev nD,
      r.2.mem ((c.tc : Thread nD τ).loc main_v82) = W7 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v82 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.KRun

end
-- ==== Proof.RefOps.lean ====
/-
  The reference program's operations, in order, as five consecutive lists: what each stretch computes is said at
  its list. A call of an outlined function is its body's operations over that call's buffers, in place.
-/
import proofs.«152291_j60387240181866_2_alg».proof.ReferenceIdeal
import proofs.«152291_j60387240181866_2_alg».proof.Proof.Gen.ReferenceIdeal
import Idealize.ShloMosaic.Lib.StableHlo.Run

noncomputable section

namespace Cert.ReferenceIdeal.Hand

open Idealize.ShloMosaic Idealize.ShloMosaic.TcCoe Idealize.SL.Sem
open Cert.ReferenceIdeal Cert.ReferenceIdeal.Facts₀ Cert.ReferenceIdeal.Facts

variable {F : FTy → Type} [FloatOps F]

/-- The head: the per-feature mean and (through the outlined variance function, its operations listed in place over the call's buffers) variance of the node features, the normalised and affinely rescaled features, the source and target rows of the edge list with negative indices wrapped, and the two gathered edge tables (target rows, then source rows). -/
abbrev opsA : List (HloOp τ sig (Elt F)) :=
  ( StableHlo.nullary main_cst (constant S_ .f32 0x00000000#32)
  :: StableHlo.binary main_arg0 main_cst main_v0 ((fun x v => Host.reduceAdd x v reducesTo_S100000x4_S4_d0 h_S_) : (⟨S100000x4, .f32⟩ : BufTy).Contents (Elt F) → (⟨S_, .f32⟩ : BufTy).Contents (Elt F) → (⟨S4, .f32⟩ : BufTy).Contents (Elt F))
  :: StableHlo.nullary main_cst_0 (constant S_ .f32 0x47C35000#32)
  :: StableHlo.unary main_cst_0 main_v1 (broadcastInDim S4 ![] bcast_S_S4 : (⟨S_, .f32⟩ : BufTy).Contents (Elt F) → (⟨S4, .f32⟩ : BufTy).Contents (Elt F))
  :: StableHlo.binary main_v0 main_v1 main_v2 (Host.divf : (⟨S4, .f32⟩ : BufTy).Contents (Elt F) → (⟨S4, .f32⟩ : BufTy).Contents (Elt F) → (⟨S4, .f32⟩ : BufTy).Contents (Elt F))
  :: StableHlo.nullary main_c (constantI S_ 32 0#32)
  :: StableHlo.TRef.nullary main_call0.cst (constant S_ .f32 0x00000000#32)
  :: StableHlo.TRef.binary (.of main_arg0) main_call0.cst main_call0.v0 (fun x v => Host.reduceAdd x v reducesTo_S100000x4_S4_d0 h_S_)
  :: StableHlo.TRef.unary main_call0.v0 main_call0.v1 (broadcastInDim S1x4 ![1] bcast_S4_S1x4_1)
  :: StableHlo.TRef.nullary main_call0.cst_0 (constant S_ .f32 0x47C35000#32)
  :: StableHlo.TRef.unary main_call0.cst_0 main_call0.v2 (broadcastInDim S1x4 ![] bcast_S_S1x4)
  :: StableHlo.TRef.binary main_call0.v1 main_call0.v2 main_call0.v3 Host.divf
  :: StableHlo.TRef.unary main_call0.v3 main_call0.v4 (broadcastInDim S100000x4 ![0, 1] bcast_S1x4_S100000x4_0_1)
  :: StableHlo.TRef.binary (.of main_arg0) main_call0.v4 main_call0.v5 subf
  :: StableHlo.TRef.binary main_call0.v5 main_call0.v5 main_call0.v6 mulf
  :: StableHlo.TRef.unary (.of main_c) main_call0.v7 (sitofp .f32)
  :: StableHlo.TRef.nullary main_call0.cst_1 (constant S_ .f32 0x47C35000#32)
  :: StableHlo.TRef.binary main_call0.cst_1 main_call0.v7 main_call0.v8 subf
  :: StableHlo.TRef.nullary main_call0.cst_2 (constant S_ .f32 0x00000000#32)
  :: StableHlo.TRef.binary main_call0.v6 main_call0.cst_2 main_call0.v9 (fun x v => Host.reduceAdd x v reducesTo_S100000x4_S4_d0 h_S_)
  :: StableHlo.TRef.unary main_call0.v8 main_call0.v10 (broadcastInDim S4 ![] bcast_S_S4)
  :: StableHlo.TRef.binary main_call0.v9 main_call0.v10 main_call0.v11 Host.divf
  :: StableHlo.TRef.nullary main_call0.cst_3 (constant S_ .f32 0x00000000#32)
  :: StableHlo.TRef.binary main_call0.v8 main_call0.cst_3 main_call0.v12 (cmpf .ogt)
  :: StableHlo.TRef.nullary main_call0.cst_4 (constant S_ .f32 0x7FC00000#32)
  :: StableHlo.TRef.unary main_call0.cst_4 main_call0.call0.v0 id
  :: StableHlo.TRef.unary main_call0.call0.v0 main_call0.call0.v1 (broadcastInDim S4 ![] bcast_S_S4)
  :: StableHlo.TRef.ternary main_call0.v12 main_call0.v11 main_call0.call0.v1 main_call0.call0.v2 (fun p a b => select (broadcastInDim S4 ![] bcast_S_S4 p) a b)
  :: StableHlo.unary main_v2 main_v4 (broadcastInDim S1x4 ![1] bcast_S4_S1x4_1 : (⟨S4, .f32⟩ : BufTy).Contents (Elt F) → (⟨S1x4, .f32⟩ : BufTy).Contents (Elt F))
  :: StableHlo.unary main_v4 main_v5 (broadcastInDim S100000x4 ![0, 1] bcast_S1x4_S100000x4_0_1 : (⟨S1x4, .f32⟩ : BufTy).Contents (Elt F) → (⟨S100000x4, .f32⟩ : BufTy).Contents (Elt F))
  :: StableHlo.binary main_arg0 main_v5 main_v6 (subf : (⟨S100000x4, .f32⟩ : BufTy).Contents (Elt F) → (⟨S100000x4, .f32⟩ : BufTy).Contents (Elt F) → (⟨S100000x4, .f32⟩ : BufTy).Contents (Elt F))
  :: StableHlo.nullary main_cst_1 (constant S_ .f32 0x3727C5AC#32)
  :: StableHlo.unary main_cst_1 main_v7 (broadcastInDim S4 ![] bcast_S_S4 : (⟨S_, .f32⟩ : BufTy).Contents (Elt F) → (⟨S4, .f32⟩ : BufTy).Contents (Elt F))
  :: StableHlo.binary main_v3 main_v7 main_v8 (addf : (⟨S4, .f32⟩ : BufTy).Contents (Elt F) → (⟨S4, .f32⟩ : BufTy).Contents (Elt F) → (⟨S4, .f32⟩ : BufTy).Contents (Elt F))
  :: StableHlo.unary main_v8 main_v9 (Host.rsqrt : (⟨S4, .f32⟩ : BufTy).Contents (Elt F) → (⟨S4, .f32⟩ : BufTy).Contents (Elt F))
  :: StableHlo.unary main_v9 main_v10 (broadcastInDim S1x4 ![1] bcast_S4_S1x4_1 : (⟨S4, .f32⟩ : BufTy).Contents (Elt F) → (⟨S1x4, .f32⟩ : BufTy).Contents (Elt F))
  :: StableHlo.unary main_v10 main_v11 (broadcastInDim S100000x4 ![0, 1] bcast_S1x4_S100000x4_0_1 : (⟨S1x4, .f32⟩ : BufTy).Contents (Elt F) → (⟨S100000x4, .f32⟩ : BufTy).Contents (Elt F))
  :: StableHlo.binary main_v6 main_v11 main_v12 (mulf : (⟨S100000x4, .f32⟩ : BufTy).Contents (Elt F) → (⟨S100000x4, .f32⟩ : BufTy).Contents (Elt F) → (⟨S100000x4, .f32⟩ : BufTy).Contents (Elt F))
  :: StableHlo.unary main_arg2 main_v13 (broadcastInDim S1x4 ![1] bcast_S4_S1x4_1 : (⟨S4, .f32⟩ : BufTy).Contents (Elt F) → (⟨S1x4, .f32⟩ : BufTy).Contents (Elt F))
  :: StableHlo.unary main_v13 main_v14 (broadcastInDim S100000x4 ![0, 1] bcast_S1x4_S100000x4_0_1 : (⟨S1x4, .f32⟩ : BufTy).Contents (Elt F) → (⟨S100000x4, .f32⟩ : BufTy).Contents (Elt F))
  :: StableHlo.binary main_v12 main_v14 main_v15 (mulf : (⟨S100000x4, .f32⟩ : BufTy).Contents (Elt F) → (⟨S100000x4, .f32⟩ : BufTy).Contents (Elt F) → (⟨S100000x4, .f32⟩ : BufTy).Contents (Elt F))
  :: StableHlo.unary main_arg3 main_v16 (broadcastInDim S1x4 ![1] bcast_S4_S1x4_1 : (⟨S4, .f32⟩ : BufTy).Contents (Elt F) → (⟨S1x4, .f32⟩ : BufTy).Contents (Elt F))
  :: StableHlo.unary main_v16 main_v17 (broadcastInDim S100000x4 ![0, 1] bcast_S1x4_S100000x4_0_1 : (⟨S1x4, .f32⟩ : BufTy).Contents (Elt F) → (⟨S100000x4, .f32⟩ : BufTy).Contents (Elt F))
  :: StableHlo.binary main_v15 main_v17 main_v18 (addf : (⟨S100000x4, .f32⟩ : BufTy).Contents (Elt F) → (⟨S100000x4, .f32⟩ : BufTy).Contents (Elt F) → (⟨S100000x4, .f32⟩ : BufTy).Contents (Elt F))
  :: StableHlo.unary main_arg1 main_v19 ((extractStridedSlice S1x3200000 ![0, 0] · slices_S2x3200000_S1x3200000_0_0) : (⟨S2x3200000, .i32⟩ : BufTy).Contents (Elt F) → (⟨S1x3200000, .i32⟩ : BufTy).Contents (Elt F))
  :: StableHlo.reshape main_v19 main_v20 rfl shapeCasts_S1x3200000_S3200000
  :: StableHlo.unary main_arg1 main_v21 ((extractStridedSlice S1x3200000 ![1, 0] · slices_S2x3200000_S1x3200000_1_0) : (⟨S2x3200000, .i32⟩ : BufTy).Contents (Elt F) → (⟨S1x3200000, .i32⟩ : BufTy).Contents (Elt F))
  :: StableHlo.reshape main_v21 main_v22 rfl shapeCasts_S1x3200000_S3200000
  :: StableHlo.nullary main_c_2 (constantI S_ 32 0#32)
  :: StableHlo.unary main_c_2 main_v23 (broadcastInDim S3200000 ![] bcast_S_S3200000 : (⟨S_, .i32⟩ : BufTy).Contents (Elt F) → (⟨S3200000, .i32⟩ : BufTy).Contents (Elt F))
  :: StableHlo.binary main_v22 main_v23 main_v24 (cmpi .slt : (⟨S3200000, .i32⟩ : BufTy).Contents (Elt F) → (⟨S3200000, .i32⟩ : BufTy).Contents (Elt F) → (⟨S3200000, .i1⟩ : BufTy).Contents (Elt F))
  :: StableHlo.nullary main_c_3 (constantI S_ 32 100000#32)
  :: StableHlo.unary main_c_3 main_v25 (broadcastInDim S3200000 ![] bcast_S_S3200000 : (⟨S_, .i32⟩ : BufTy).Contents (Elt F) → (⟨S3200000, .i32⟩ : BufTy).Contents (Elt F))
  :: StableHlo.binary main_v22 main_v25 main_v26 (addi : (⟨S3200000, .i32⟩ : BufTy).Contents (Elt F) → (⟨S3200000, .i32⟩ : BufTy).Contents (Elt F) → (⟨S3200000, .i32⟩ : BufTy).Contents (Elt F))
  :: StableHlo.ternary main_v24 main_v26 main_v22 main_v27 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F))
  :: StableHlo.unary main_v27 main_v28 (broadcastInDim S3200000x1 ![0] bcast_S3200000_S3200000x1_0 : (⟨S3200000, .i32⟩ : BufTy).Contents (Elt F) → (⟨S3200000x1, .i32⟩ : BufTy).Contents (Elt F))
  :: StableHlo.binary main_v18 main_v28 main_v29 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F))
  :: StableHlo.nullary main_c_4 (constantI S_ 32 0#32)
  :: StableHlo.unary main_c_4 main_v30 (broadcastInDim S3200000 ![] bcast_S_S3200000 : (⟨S_, .i32⟩ : BufTy).Contents (Elt F) → (⟨S3200000, .i32⟩ : BufTy).Contents (Elt F))
  :: StableHlo.binary main_v20 main_v30 main_v31 (cmpi .slt : (⟨S3200000, .i32⟩ : BufTy).Contents (Elt F) → (⟨S3200000, .i32⟩ : BufTy).Contents (Elt F) → (⟨S3200000, .i1⟩ : BufTy).Contents (Elt F))
  :: StableHlo.nullary main_c_5 (constantI S_ 32 100000#32)
  :: StableHlo.unary main_c_5 main_v32 (broadcastInDim S3200000 ![] bcast_S_S3200000 : (⟨S_, .i32⟩ : BufTy).Contents (Elt F) → (⟨S3200000, .i32⟩ : BufTy).Contents (Elt F))
  :: StableHlo.binary main_v20 main_v32 main_v33 (addi : (⟨S3200000, .i32⟩ : BufTy).Contents (Elt F) → (⟨S3200000, .i32⟩ : BufTy).Contents (Elt F) → (⟨S3200000, .i32⟩ : BufTy).Contents (Elt F))
  :: StableHlo.ternary main_v31 main_v33 main_v20 main_v34 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F))
  :: StableHlo.unary main_v34 main_v35 (broadcastInDim S3200000x1 ![0] bcast_S3200000_S3200000x1_0 : (⟨S3200000, .i32⟩ : BufTy).Contents (Elt F) → (⟨S3200000x1, .i32⟩ : BufTy).Contents (Elt F))
  :: StableHlo.binary main_v18 main_v35 main_v36 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F))
  :: [] )

/-- The first edge network on the host: the difference of the gathered tables, the concatenation of target features and difference, three affine layers (a product with the weight matrix plus the bias laid over the rows), each followed by a maximum with zero (the outlined function's three operations listed in place). -/
abbrev opsB : List (HloOp τ sig (Elt F)) :=
  ( StableHlo.binary main_v36 main_v29 main_v37 (subf : (⟨S3200000x4, .f32⟩ : BufTy).Contents (Elt F) → (⟨S3200000x4, .f32⟩ : BufTy).Contents (Elt F) → (⟨S3200000x4, .f32⟩ : BufTy).Contents (Elt F))
  :: StableHlo.binary main_v29 main_v37 main_v38 ((fun a b => concatenate S3200000x8 1 [⟨S3200000x4, a⟩, ⟨S3200000x4, b⟩] concatenates_S3200000x4_S3200000x4_S3200000x8_d1) : (⟨S3200000x4, .f32⟩ : BufTy).Contents (Elt F) → (⟨S3200000x4, .f32⟩ : BufTy).Contents (Elt F) → (⟨S3200000x8, .f32⟩ : BufTy).Contents (Elt F))
  :: StableHlo.binary main_v38 main_arg4 main_v39 ((fun l r => Host.dotGeneral dot_S3200000x8_S8x32_S3200000x32_1_0_0_1_n_n none l r) : (⟨S3200000x8, .f32⟩ : BufTy).Contents (Elt F) → (⟨S8x32, .f32⟩ : BufTy).Contents (Elt F) → (⟨S3200000x32, .f32⟩ : BufTy).Contents (Elt F))
  :: StableHlo.unary main_arg5 main_v40 (broadcastInDim S1x32 ![1] bcast_S32_S1x32_1 : (⟨S32, .f32⟩ : BufTy).Contents (Elt F) → (⟨S1x32, .f32⟩ : BufTy).Contents (Elt F))
  :: StableHlo.unary main_v40 main_v41 (broadcastInDim S3200000x32 ![0, 1] bcast_S1x32_S3200000x32_0_1 : (⟨S1x32, .f32⟩ : BufTy).Contents (Elt F) → (⟨S3200000x32, .f32⟩ : BufTy).Contents (Elt F))
  :: StableHlo.binary main_v39 main_v41 main_v42 (addf : (⟨S3200000x32, .f32⟩ : BufTy).Contents (Elt F) → (⟨S3200000x32, .f32⟩ : BufTy).Contents (Elt F) → (⟨S3200000x32, .f32⟩ : BufTy).Contents (Elt F))
  :: StableHlo.TRef.nullary main_call1.cst (constant S_ .f32 0x00000000#32)
  :: StableHlo.TRef.unary main_call1.cst main_call1.v0 (broadcastInDim S3200000x32 ![] bcast_S_S3200000x32)
  :: StableHlo.TRef.binary (.of main_v42) main_call1.v0 main_call1.v1 maximumf
  :: StableHlo.binary main_v43 main_arg6 main_v44 ((fun l r => Host.dotGeneral dot_S3200000x32_S32x32_S3200000x32_1_0_0_1_n_n none l r) : (⟨S3200000x32, .f32⟩ : BufTy).Contents (Elt F) → (⟨S32x32, .f32⟩ : BufTy).Contents (Elt F) → (⟨S3200000x32, .f32⟩ : BufTy).Contents (Elt F))
  :: StableHlo.unary main_arg7 main_v45 (broadcastInDim S1x32 ![1] bcast_S32_S1x32_1 : (⟨S32, .f32⟩ : BufTy).Contents (Elt F) → (⟨S1x32, .f32⟩ : BufTy).Contents (Elt F))
  :: StableHlo.unary main_v45 main_v46 (broadcastInDim S3200000x32 ![0, 1] bcast_S1x32_S3200000x32_0_1 : (⟨S1x32, .f32⟩ : BufTy).Contents (Elt F) → (⟨S3200000x32, .f32⟩ : BufTy).Contents (Elt F))
  :: StableHlo.binary main_v44 main_v46 main_v47 (addf : (⟨S3200000x32, .f32⟩ : BufTy).Contents (Elt F) → (⟨S3200000x32, .f32⟩ : BufTy).Contents (Elt F) → (⟨S3200000x32, .f32⟩ : BufTy).Contents (Elt F))
  :: StableHlo.TRef.nullary main_call2.cst (constant S_ .f32 0x00000000#32)
  :: StableHlo.TRef.unary main_call2.cst main_call2.v0 (broadcastInDim S3200000x32 ![] bcast_S_S3200000x32)
  :: StableHlo.TRef.binary (.of main_v47) main_call2.v0 main_call2.v1 maximumf
  :: StableHlo.binary main_v48 main_arg8 main_v49 ((fun l r => Host.dotGeneral dot_S3200000x32_S32x2_S3200000x2_1_0_0_1_n_n none l r) : (⟨S3200000x32, .f32⟩ : BufTy).Contents (Elt F) → (⟨S32x2, .f32⟩ : BufTy).Contents (Elt F) → (⟨S3200000x2, .f32⟩ : BufTy).Contents (Elt F))
  :: StableHlo.unary main_arg9 main_v50 (broadcastInDim S1x2 ![1] bcast_S2_S1x2_1 : (⟨S2, .f32⟩ : BufTy).Contents (Elt F) → (⟨S1x2, .f32⟩ : BufTy).Contents (Elt F))
  :: StableHlo.unary main_v50 main_v51 (broadcastInDim S3200000x2 ![0, 1] bcast_S1x2_S3200000x2_0_1 : (⟨S1x2, .f32⟩ : BufTy).Contents (Elt F) → (⟨S3200000x2, .f32⟩ : BufTy).Contents (Elt F))
  :: StableHlo.binary main_v49 main_v51 main_v52 (addf : (⟨S3200000x2, .f32⟩ : BufTy).Contents (Elt F) → (⟨S3200000x2, .f32⟩ : BufTy).Contents (Elt F) → (⟨S3200000x2, .f32⟩ : BufTy).Contents (Elt F))
  :: StableHlo.TRef.nullary main_call3.cst (constant S_ .f32 0x00000000#32)
  :: StableHlo.TRef.unary main_call3.cst main_call3.v0 (broadcastInDim S3200000x2 ![] bcast_S_S3200000x2)
  :: StableHlo.TRef.binary (.of main_v52) main_call3.v0 main_call3.v1 maximumf
  :: [] )

/-- The middle: the first network's messages summed per target node, the per-node edge count, the mean (the sum over the count raised to at least one), and the two gathers of that mean for the second stage. -/
abbrev opsC : List (HloOp τ sig (Elt F)) :=
  ( StableHlo.nullary main_cst_6 (constant S_ .f32 0x00000000#32)
  :: StableHlo.unary main_cst_6 main_v54 (broadcastInDim S100000x2 ![] bcast_S_S100000x2 : (⟨S_, .f32⟩ : BufTy).Contents (Elt F) → (⟨S100000x2, .f32⟩ : BufTy).Contents (Elt F))
  :: StableHlo.unary main_v22 main_v55 (broadcastInDim S3200000x1 ![0] bcast_S3200000_S3200000x1_0 : (⟨S3200000, .i32⟩ : BufTy).Contents (Elt F) → (⟨S3200000x1, .i32⟩ : BufTy).Contents (Elt F))
  :: StableHlo.ternary main_v54 main_v55 main_v53 main_v56 ((fun x i u => Host.scatterAdd scatter_S100000x2_S3200000x1_S3200000x2_1_0_0_1 x i u) : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F))
  :: StableHlo.nullary main_cst_7 (constant S_ .f32 0x3F800000#32)
  :: StableHlo.unary main_cst_7 main_v57 (broadcastInDim S3200000 ![] bcast_S_S3200000 : (⟨S_, .f32⟩ : BufTy).Contents (Elt F) → (⟨S3200000, .f32⟩ : BufTy).Contents (Elt F))
  :: StableHlo.nullary main_cst_8 (constant S_ .f32 0x00000000#32)
  :: StableHlo.unary main_cst_8 main_v58 (broadcastInDim S100000 ![] bcast_S_S100000 : (⟨S_, .f32⟩ : BufTy).Contents (Elt F) → (⟨S100000, .f32⟩ : BufTy).Contents (Elt F))
  :: StableHlo.unary main_v22 main_v59 (broadcastInDim S3200000x1 ![0] bcast_S3200000_S3200000x1_0 : (⟨S3200000, .i32⟩ : BufTy).Contents (Elt F) → (⟨S3200000x1, .i32⟩ : BufTy).Contents (Elt F))
  :: StableHlo.ternary main_v58 main_v59 main_v57 main_v60 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F))
  :: StableHlo.nullary main_cst_9 (constant S_ .f32 0x3F800000#32)
  :: StableHlo.unary main_cst_9 main_v61 (broadcastInDim S100000 ![] bcast_S_S100000 : (⟨S_, .f32⟩ : BufTy).Contents (Elt F) → (⟨S100000, .f32⟩ : BufTy).Contents (Elt F))
  :: StableHlo.binary main_v60 main_v61 main_v62 (maximumf : (⟨S100000, .f32⟩ : BufTy).Contents (Elt F) → (⟨S100000, .f32⟩ : BufTy).Contents (Elt F) → (⟨S100000, .f32⟩ : BufTy).Contents (Elt F))
  :: StableHlo.unary main_v62 main_v63 (broadcastInDim S100000x1 ![0] bcast_S100000_S100000x1_0 : (⟨S100000, .f32⟩ : BufTy).Contents (Elt F) → (⟨S100000x1, .f32⟩ : BufTy).Contents (Elt F))
  :: StableHlo.unary main_v63 main_v64 (broadcastInDim S100000x2 ![0, 1] bcast_S100000x1_S100000x2_0_1 : (⟨S100000x1, .f32⟩ : BufTy).Contents (Elt F) → (⟨S100000x2, .f32⟩ : BufTy).Contents (Elt F))
  :: StableHlo.binary main_v56 main_v64 main_v65 (Host.divf : (⟨S100000x2, .f32⟩ : BufTy).Contents (Elt F) → (⟨S100000x2, .f32⟩ : BufTy).Contents (Elt F) → (⟨S100000x2, .f32⟩ : BufTy).Contents (Elt F))
  :: StableHlo.nullary main_c_10 (constantI S_ 32 0#32)
  :: StableHlo.unary main_c_10 main_v66 (broadcastInDim S3200000 ![] bcast_S_S3200000 : (⟨S_, .i32⟩ : BufTy).Contents (Elt F) → (⟨S3200000, .i32⟩ : BufTy).Contents (Elt F))
  :: StableHlo.binary main_v22 main_v66 main_v67 (cmpi .slt : (⟨S3200000, .i32⟩ : BufTy).Contents (Elt F) → (⟨S3200000, .i32⟩ : BufTy).Contents (Elt F) → (⟨S3200000, .i1⟩ : BufTy).Contents (Elt F))
  :: StableHlo.nullary main_c_11 (constantI S_ 32 100000#32)
  :: StableHlo.unary main_c_11 main_v68 (broadcastInDim S3200000 ![] bcast_S_S3200000 : (⟨S_, .i32⟩ : BufTy).Contents (Elt F) → (⟨S3200000, .i32⟩ : BufTy).Contents (Elt F))
  :: StableHlo.binary main_v22 main_v68 main_v69 (addi : (⟨S3200000, .i32⟩ : BufTy).Contents (Elt F) → (⟨S3200000, .i32⟩ : BufTy).Contents (Elt F) → (⟨S3200000, .i32⟩ : BufTy).Contents (Elt F))
  :: StableHlo.ternary main_v67 main_v69 main_v22 main_v70 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F))
  :: StableHlo.unary main_v70 main_v71 (broadcastInDim S3200000x1 ![0] bcast_S3200000_S3200000x1_0 : (⟨S3200000, .i32⟩ : BufTy).Contents (Elt F) → (⟨S3200000x1, .i32⟩ : BufTy).Contents (Elt F))
  :: StableHlo.binary main_v65 main_v71 main_v72 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F))
  :: StableHlo.nullary main_c_12 (constantI S_ 32 0#32)
  :: StableHlo.unary main_c_12 main_v73 (broadcastInDim S3200000 ![] bcast_S_S3200000 : (⟨S_, .i32⟩ : BufTy).Contents (Elt F) → (⟨S3200000, .i32⟩ : BufTy).Contents (Elt F))
  :: StableHlo.binary main_v20 main_v73 main_v74 (cmpi .slt : (⟨S3200000, .i32⟩ : BufTy).Contents (Elt F) → (⟨S3200000, .i32⟩ : BufTy).Contents (Elt F) → (⟨S3200000, .i1⟩ : BufTy).Contents (Elt F))
  :: StableHlo.nullary main_c_13 (constantI S_ 32 100000#32)
  :: StableHlo.unary main_c_13 main_v75 (broadcastInDim S3200000 ![] bcast_S_S3200000 : (⟨S_, .i32⟩ : BufTy).Contents (Elt F) → (⟨S3200000, .i32⟩ : BufTy).Contents (Elt F))
  :: StableHlo.binary main_v20 main_v75 main_v76 (addi : (⟨S3200000, .i32⟩ : BufTy).Contents (Elt F) → (⟨S3200000, .i32⟩ : BufTy).Contents (Elt F) → (⟨S3200000, .i32⟩ : BufTy).Contents (Elt F))
  :: StableHlo.ternary main_v74 main_v76 main_v20 main_v77 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F))
  :: StableHlo.unary main_v77 main_v78 (broadcastInDim S3200000x1 ![0] bcast_S3200000_S3200000x1_0 : (⟨S3200000, .i32⟩ : BufTy).Contents (Elt F) → (⟨S3200000x1, .i32⟩ : BufTy).Contents (Elt F))
  :: StableHlo.binary main_v65 main_v78 main_v79 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F))
  :: [] )

/-- The second edge network on the host: as the first, over two features, without a maximum after the last layer. -/
abbrev opsD : List (HloOp τ sig (Elt F)) :=
  ( StableHlo.binary main_v79 main_v72 main_v80 (subf : (⟨S3200000x2, .f32⟩ : BufTy).Contents (Elt F) → (⟨S3200000x2, .f32⟩ : BufTy).Contents (Elt F) → (⟨S3200000x2, .f32⟩ : BufTy).Contents (Elt F))
  :: StableHlo.binary main_v72 main_v80 main_v81 ((fun a b => concatenate S3200000x4 1 [⟨S3200000x2, a⟩, ⟨S3200000x2, b⟩] concatenates_S3200000x2_S3200000x2_S3200000x4_d1) : (⟨S3200000x2, .f32⟩ : BufTy).Contents (Elt F) → (⟨S3200000x2, .f32⟩ : BufTy).Contents (Elt F) → (⟨S3200000x4, .f32⟩ : BufTy).Contents (Elt F))
  :: StableHlo.binary main_v81 main_arg10 main_v82 ((fun l r => Host.dotGeneral dot_S3200000x4_S4x32_S3200000x32_1_0_0_1_n_n none l r) : (⟨S3200000x4, .f32⟩ : BufTy).Contents (Elt F) → (⟨S4x32, .f32⟩ : BufTy).Contents (Elt F) → (⟨S3200000x32, .f32⟩ : BufTy).Contents (Elt F))
  :: StableHlo.unary main_arg11 main_v83 (broadcastInDim S1x32 ![1] bcast_S32_S1x32_1 : (⟨S32, .f32⟩ : BufTy).Contents (Elt F) → (⟨S1x32, .f32⟩ : BufTy).Contents (Elt F))
  :: StableHlo.unary main_v83 main_v84 (broadcastInDim S3200000x32 ![0, 1] bcast_S1x32_S3200000x32_0_1 : (⟨S1x32, .f32⟩ : BufTy).Contents (Elt F) → (⟨S3200000x32, .f32⟩ : BufTy).Contents (Elt F))
  :: StableHlo.binary main_v82 main_v84 main_v85 (addf : (⟨S3200000x32, .f32⟩ : BufTy).Contents (Elt F) → (⟨S3200000x32, .f32⟩ : BufTy).Contents (Elt F) → (⟨S3200000x32, .f32⟩ : BufTy).Contents (Elt F))
  :: StableHlo.TRef.nullary main_call4.cst (constant S_ .f32 0x00000000#32)
  :: StableHlo.TRef.unary main_call4.cst main_call4.v0 (broadcastInDim S3200000x32 ![] bcast_S_S3200000x32)
  :: StableHlo.TRef.binary (.of main_v85) main_call4.v0 main_call4.v1 maximumf
  :: StableHlo.binary main_v86 main_arg12 main_v87 ((fun l r => Host.dotGeneral dot_S3200000x32_S32x32_S3200000x32_1_0_0_1_n_n none l r) : (⟨S3200000x32, .f32⟩ : BufTy).Contents (Elt F) → (⟨S32x32, .f32⟩ : BufTy).Contents (Elt F) → (⟨S3200000x32, .f32⟩ : BufTy).Contents (Elt F))
  :: StableHlo.unary main_arg13 main_v88 (broadcastInDim S1x32 ![1] bcast_S32_S1x32_1 : (⟨S32, .f32⟩ : BufTy).Contents (Elt F) → (⟨S1x32, .f32⟩ : BufTy).Contents (Elt F))
  :: StableHlo.unary main_v88 main_v89 (broadcastInDim S3200000x32 ![0, 1] bcast_S1x32_S3200000x32_0_1 : (⟨S1x32, .f32⟩ : BufTy).Contents (Elt F) → (⟨S3200000x32, .f32⟩ : BufTy).Contents (Elt F))
  :: StableHlo.binary main_v87 main_v89 main_v90 (addf : (⟨S3200000x32, .f32⟩ : BufTy).Contents (Elt F) → (⟨S3200000x32, .f32⟩ : BufTy).Contents (Elt F) → (⟨S3200000x32, .f32⟩ : BufTy).Contents (Elt F))
  :: StableHlo.TRef.nullary main_call5.cst (constant S_ .f32 0x00000000#32)
  :: StableHlo.TRef.unary main_call5.cst main_call5.v0 (broadcastInDim S3200000x32 ![] bcast_S_S3200000x32)
  :: StableHlo.TRef.binary (.of main_v90) main_call5.v0 main_call5.v1 maximumf
  :: StableHlo.binary main_v91 main_arg14 main_v92 ((fun l r => Host.dotGeneral dot_S3200000x32_S32x4_S3200000x4_1_0_0_1_n_n none l r) : (⟨S3200000x32, .f32⟩ : BufTy).Contents (Elt F) → (⟨S32x4, .f32⟩ : BufTy).Contents (Elt F) → (⟨S3200000x4, .f32⟩ : BufTy).Contents (Elt F))
  :: StableHlo.unary main_arg15 main_v93 (broadcastInDim S1x4 ![1] bcast_S4_S1x4_1 : (⟨S4, .f32⟩ : BufTy).Contents (Elt F) → (⟨S1x4, .f32⟩ : BufTy).Contents (Elt F))
  :: StableHlo.unary main_v93 main_v94 (broadcastInDim S3200000x4 ![0, 1] bcast_S1x4_S3200000x4_0_1 : (⟨S1x4, .f32⟩ : BufTy).Contents (Elt F) → (⟨S3200000x4, .f32⟩ : BufTy).Contents (Elt F))
  :: StableHlo.binary main_v92 main_v94 main_v95 (addf : (⟨S3200000x4, .f32⟩ : BufTy).Contents (Elt F) → (⟨S3200000x4, .f32⟩ : BufTy).Contents (Elt F) → (⟨S3200000x4, .f32⟩ : BufTy).Contents (Elt F))
  :: [] )

/-- The tail: the second network's messages summed per target node, the count again, and the mean: the result. -/
abbrev opsE : List (HloOp τ sig (Elt F)) :=
  ( StableHlo.nullary main_cst_14 (constant S_ .f32 0x00000000#32)
  :: StableHlo.unary main_cst_14 main_v96 (broadcastInDim S100000x4 ![] bcast_S_S100000x4 : (⟨S_, .f32⟩ : BufTy).Contents (Elt F) → (⟨S100000x4, .f32⟩ : BufTy).Contents (Elt F))
  :: StableHlo.unary main_v22 main_v97 (broadcastInDim S3200000x1 ![0] bcast_S3200000_S3200000x1_0 : (⟨S3200000, .i32⟩ : BufTy).Contents (Elt F) → (⟨S3200000x1, .i32⟩ : BufTy).Contents (Elt F))
  :: StableHlo.ternary main_v96 main_v97 main_v95 main_v98 ((fun x i u => Host.scatterAdd scatter_S100000x4_S3200000x1_S3200000x4_1_0_0_1 x i u) : (⟨S100000x4, .f32⟩ : BufTy).Contents (Elt F) → (⟨S3200000x1, .i32⟩ : BufTy).Contents (Elt F) → (⟨S3200000x4, .f32⟩ : BufTy).Contents (Elt F) → (⟨S100000x4, .f32⟩ : BufTy).Contents (Elt F))
  :: StableHlo.nullary main_cst_15 (constant S_ .f32 0x3F800000#32)
  :: StableHlo.unary main_cst_15 main_v99 (broadcastInDim S3200000 ![] bcast_S_S3200000 : (⟨S_, .f32⟩ : BufTy).Contents (Elt F) → (⟨S3200000, .f32⟩ : BufTy).Contents (Elt F))
  :: StableHlo.nullary main_cst_16 (constant S_ .f32 0x00000000#32)
  :: StableHlo.unary main_cst_16 main_v100 (broadcastInDim S100000 ![] bcast_S_S100000 : (⟨S_, .f32⟩ : BufTy).Contents (Elt F) → (⟨S100000, .f32⟩ : BufTy).Contents (Elt F))
  :: StableHlo.unary main_v22 main_v101 (broadcastInDim S3200000x1 ![0] bcast_S3200000_S3200000x1_0 : (⟨S3200000, .i32⟩ : BufTy).Contents (Elt F) → (⟨S3200000x1, .i32⟩ : BufTy).Contents (Elt F))
  :: StableHlo.ternary main_v100 main_v101 main_v99 main_v102 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F))
  :: StableHlo.nullary main_cst_17 (constant S_ .f32 0x3F800000#32)
  :: StableHlo.unary main_cst_17 main_v103 (broadcastInDim S100000 ![] bcast_S_S100000 : (⟨S_, .f32⟩ : BufTy).Contents (Elt F) → (⟨S100000, .f32⟩ : BufTy).Contents (Elt F))
  :: StableHlo.binary main_v102 main_v103 main_v104 (maximumf : (⟨S100000, .f32⟩ : BufTy).Contents (Elt F) → (⟨S100000, .f32⟩ : BufTy).Contents (Elt F) → (⟨S100000, .f32⟩ : BufTy).Contents (Elt F))
  :: StableHlo.unary main_v104 main_v105 (broadcastInDim S100000x1 ![0] bcast_S100000_S100000x1_0 : (⟨S100000, .f32⟩ : BufTy).Contents (Elt F) → (⟨S100000x1, .f32⟩ : BufTy).Contents (Elt F))
  :: StableHlo.unary main_v105 main_v106 (broadcastInDim S100000x4 ![0, 1] bcast_S100000x1_S100000x4_0_1 : (⟨S100000x1, .f32⟩ : BufTy).Contents (Elt F) → (⟨S100000x4, .f32⟩ : BufTy).Contents (Elt F))
  :: StableHlo.binary main_v98 main_v106 main_v107 (Host.divf : (⟨S100000x4, .f32⟩ : BufTy).Contents (Elt F) → (⟨S100000x4, .f32⟩ : BufTy).Contents (Elt F) → (⟨S100000x4, .f32⟩ : BufTy).Contents (Elt F))
  :: [] )

end Cert.ReferenceIdeal.Hand

end
-- ==== Proof.MlpSpec.lean ====
/-
  The two edge networks as functions of whole arrays, in the spelling of the reference program's host operations:
  from the gathered target rows `xi` and source rows `xj` (one row per edge), the row `[xi, xj - xi]` goes through
  three affine layers `h ↦ h · w + b` (the bias laid over every row), a maximum with zero after each layer of the
  first network and after the first two of the second.
-/
import proofs.«152291_j60387240181866_2_alg».proof.ReferenceIdeal
import proofs.«152291_j60387240181866_2_alg».proof.Proof.Gen.ReferenceIdeal

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F]

/-- The first edge network: 4 + 4 features to 32, to 32, to 2, a maximum with zero after every layer. -/
def mlp0 (xi xj : (⟨S3200000x4, .f32⟩ : BufTy).Contents (Elt F)) (w1 : (⟨S8x32, .f32⟩ : BufTy).Contents (Elt F)) (b1 : (⟨S32, .f32⟩ : BufTy).Contents (Elt F))
    (w2 : (⟨S32x32, .f32⟩ : BufTy).Contents (Elt F)) (b2 : (⟨S32, .f32⟩ : BufTy).Contents (Elt F)) (w3 : (⟨S32x2, .f32⟩ : BufTy).Contents (Elt F)) (b3 : (⟨S2, .f32⟩ : BufTy).Contents (Elt F)) :
    (⟨S3200000x2, .f32⟩ : BufTy).Contents (Elt F) :=
  let v37 := (subf : (⟨S3200000x4, .f32⟩ : BufTy).Contents (Elt F) → (⟨S3200000x4, .f32⟩ : BufTy).Contents (Elt F) → (⟨S3200000x4, .f32⟩ : BufTy).Contents (Elt F)) xj xi
  let v38 := ((fun a b => concatenate S3200000x8 1 [⟨S3200000x4, a⟩, ⟨S3200000x4, b⟩] concatenates_S3200000x4_S3200000x4_S3200000x8_d1) : (⟨S3200000x4, .f32⟩ : BufTy).Contents (Elt F) → (⟨S3200000x4, .f32⟩ : BufTy).Contents (Elt F) → (⟨S3200000x8, .f32⟩ : BufTy).Contents (Elt F)) xi v37
  let v39 := ((fun l r => Host.dotGeneral dot_S3200000x8_S8x32_S3200000x32_1_0_0_1_n_n none l r) : (⟨S3200000x8, .f32⟩ : BufTy).Contents (Elt F) → (⟨S8x32, .f32⟩ : BufTy).Contents (Elt F) → (⟨S3200000x32, .f32⟩ : BufTy).Contents (Elt F)) v38 w1
  let v40 := (broadcastInDim S1x32 ![1] bcast_S32_S1x32_1 : (⟨S32, .f32⟩ : BufTy).Contents (Elt F) → (⟨S1x32, .f32⟩ : BufTy).Contents (Elt F)) b1
  let v41 := (broadcastInDim S3200000x32 ![0, 1] bcast_S1x32_S3200000x32_0_1 : (⟨S1x32, .f32⟩ : BufTy).Contents (Elt F) → (⟨S3200000x32, .f32⟩ : BufTy).Contents (Elt F)) v40
  let v42 := (addf : (⟨S3200000x32, .f32⟩ : BufTy).Contents (Elt F) → (⟨S3200000x32, .f32⟩ : BufTy).Contents (Elt F) → (⟨S3200000x32, .f32⟩ : BufTy).Contents (Elt F)) v39 v41
  let call1_cst := (constant (F := F) S_ .f32 0x00000000#32)
  let call1_v0 := (broadcastInDim S3200000x32 ![] bcast_S_S3200000x32) call1_cst
  let v43 := (maximumf) v42 call1_v0
  let v44 := ((fun l r => Host.dotGeneral dot_S3200000x32_S32x32_S3200000x32_1_0_0_1_n_n none l r) : (⟨S3200000x32, .f32⟩ : BufTy).Contents (Elt F) → (⟨S32x32, .f32⟩ : BufTy).Contents (Elt F) → (⟨S3200000x32, .f32⟩ : BufTy).Contents (Elt F)) v43 w2
  let v45 := (broadcastInDim S1x32 ![1] bcast_S32_S1x32_1 : (⟨S32, .f32⟩ : BufTy).Contents (Elt F) → (⟨S1x32, .f32⟩ : BufTy).Contents (Elt F)) b2
  let v46 := (broadcastInDim S3200000x32 ![0, 1] bcast_S1x32_S3200000x32_0_1 : (⟨S1x32, .f32⟩ : BufTy).Contents (Elt F) → (⟨S3200000x32, .f32⟩ : BufTy).Contents (Elt F)) v45
  let v47 := (addf : (⟨S3200000x32, .f32⟩ : BufTy).Contents (Elt F) → (⟨S3200000x32, .f32⟩ : BufTy).Contents (Elt F) → (⟨S3200000x32, .f32⟩ : BufTy).Contents (Elt F)) v44 v46
  let call2_cst := (constant (F := F) S_ .f32 0x00000000#32)
  let call2_v0 := (broadcastInDim S3200000x32 ![] bcast_S_S3200000x32) call2_cst
  let v48 := (maximumf) v47 call2_v0
  let v49 := ((fun l r => Host.dotGeneral dot_S3200000x32_S32x2_S3200000x2_1_0_0_1_n_n none l r) : (⟨S3200000x32, .f32⟩ : BufTy).Contents (Elt F) → (⟨S32x2, .f32⟩ : BufTy).Contents (Elt F) → (⟨S3200000x2, .f32⟩ : BufTy).Contents (Elt F)) v48 w3
  let v50 := (broadcastInDim S1x2 ![1] bcast_S2_S1x2_1 : (⟨S2, .f32⟩ : BufTy).Contents (Elt F) → (⟨S1x2, .f32⟩ : BufTy).Contents (Elt F)) b3
  let v51 := (broadcastInDim S3200000x2 ![0, 1] bcast_S1x2_S3200000x2_0_1 : (⟨S1x2, .f32⟩ : BufTy).Contents (Elt F) → (⟨S3200000x2, .f32⟩ : BufTy).Contents (Elt F)) v50
  let v52 := (addf : (⟨S3200000x2, .f32⟩ : BufTy).Contents (Elt F) → (⟨S3200000x2, .f32⟩ : BufTy).Contents (Elt F) → (⟨S3200000x2, .f32⟩ : BufTy).Contents (Elt F)) v49 v51
  let call3_cst := (constant (F := F) S_ .f32 0x00000000#32)
  let call3_v0 := (broadcastInDim S3200000x2 ![] bcast_S_S3200000x2) call3_cst
  let v53 := (maximumf) v52 call3_v0
  v53

/-- The second edge network: 2 + 2 features to 32, to 32, to 4, a maximum with zero after the first two layers only. -/
def mlp1 (xi xj : (⟨S3200000x2, .f32⟩ : BufTy).Contents (Elt F)) (w1 : (⟨S4x32, .f32⟩ : BufTy).Contents (Elt F)) (b1 : (⟨S32, .f32⟩ : BufTy).Contents (Elt F))
    (w2 : (⟨S32x32, .f32⟩ : BufTy).Contents (Elt F)) (b2 : (⟨S32, .f32⟩ : BufTy).Contents (Elt F)) (w3 : (⟨S32x4, .f32⟩ : BufTy).Contents (Elt F)) (b3 : (⟨S4, .f32⟩ : BufTy).Contents (Elt F)) :
    (⟨S3200000x4, .f32⟩ : BufTy).Contents (Elt F) :=
  let v80 := (subf : (⟨S3200000x2, .f32⟩ : BufTy).Contents (Elt F) → (⟨S3200000x2, .f32⟩ : BufTy).Contents (Elt F) → (⟨S3200000x2, .f32⟩ : BufTy).Contents (Elt F)) xj xi
  let v81 := ((fun a b => concatenate S3200000x4 1 [⟨S3200000x2, a⟩, ⟨S3200000x2, b⟩] concatenates_S3200000x2_S3200000x2_S3200000x4_d1) : (⟨S3200000x2, .f32⟩ : BufTy).Contents (Elt F) → (⟨S3200000x2, .f32⟩ : BufTy).Contents (Elt F) → (⟨S3200000x4, .f32⟩ : BufTy).Contents (Elt F)) xi v80
  let v82 := ((fun l r => Host.dotGeneral dot_S3200000x4_S4x32_S3200000x32_1_0_0_1_n_n none l r) : (⟨S3200000x4, .f32⟩ : BufTy).Contents (Elt F) → (⟨S4x32, .f32⟩ : BufTy).Contents (Elt F) → (⟨S3200000x32, .f32⟩ : BufTy).Contents (Elt F)) v81 w1
  let v83 := (broadcastInDim S1x32 ![1] bcast_S32_S1x32_1 : (⟨S32, .f32⟩ : BufTy).Contents (Elt F) → (⟨S1x32, .f32⟩ : BufTy).Contents (Elt F)) b1
  let v84 := (broadcastInDim S3200000x32 ![0, 1] bcast_S1x32_S3200000x32_0_1 : (⟨S1x32, .f32⟩ : BufTy).Contents (Elt F) → (⟨S3200000x32, .f32⟩ : BufTy).Contents (Elt F)) v83
  let v85 := (addf : (⟨S3200000x32, .f32⟩ : BufTy).Contents (Elt F) → (⟨S3200000x32, .f32⟩ : BufTy).Contents (Elt F) → (⟨S3200000x32, .f32⟩ : BufTy).Contents (Elt F)) v82 v84
  let call4_cst := (constant (F := F) S_ .f32 0x00000000#32)
  let call4_v0 := (broadcastInDim S3200000x32 ![] bcast_S_S3200000x32) call4_cst
  let v86 := (maximumf) v85 call4_v0
  let v87 := ((fun l r => Host.dotGeneral dot_S3200000x32_S32x32_S3200000x32_1_0_0_1_n_n none l r) : (⟨S3200000x32, .f32⟩ : BufTy).Contents (Elt F) → (⟨S32x32, .f32⟩ : BufTy).Contents (Elt F) → (⟨S3200000x32, .f32⟩ : BufTy).Contents (Elt F)) v86 w2
  let v88 := (broadcastInDim S1x32 ![1] bcast_S32_S1x32_1 : (⟨S32, .f32⟩ : BufTy).Contents (Elt F) → (⟨S1x32, .f32⟩ : BufTy).Contents (Elt F)) b2
  let v89 := (broadcastInDim S3200000x32 ![0, 1] bcast_S1x32_S3200000x32_0_1 : (⟨S1x32, .f32⟩ : BufTy).Contents (Elt F) → (⟨S3200000x32, .f32⟩ : BufTy).Contents (Elt F)) v88
  let v90 := (addf : (⟨S3200000x32, .f32⟩ : BufTy).Contents (Elt F) → (⟨S3200000x32, .f32⟩ : BufTy).Contents (Elt F) → (⟨S3200000x32, .f32⟩ : BufTy).Contents (Elt F)) v87 v89
  let call5_cst := (constant (F := F) S_ .f32 0x00000000#32)
  let call5_v0 := (broadcastInDim S3200000x32 ![] bcast_S_S3200000x32) call5_cst
  let v91 := (maximumf) v90 call5_v0
  let v92 := ((fun l r => Host.dotGeneral dot_S3200000x32_S32x4_S3200000x4_1_0_0_1_n_n none l r) : (⟨S3200000x32, .f32⟩ : BufTy).Contents (Elt F) → (⟨S32x4, .f32⟩ : BufTy).Contents (Elt F) → (⟨S3200000x4, .f32⟩ : BufTy).Contents (Elt F)) v91 w3
  let v93 := (broadcastInDim S1x4 ![1] bcast_S4_S1x4_1 : (⟨S4, .f32⟩ : BufTy).Contents (Elt F) → (⟨S1x4, .f32⟩ : BufTy).Contents (Elt F)) b3
  let v94 := (broadcastInDim S3200000x4 ![0, 1] bcast_S1x4_S3200000x4_0_1 : (⟨S1x4, .f32⟩ : BufTy).Contents (Elt F) → (⟨S3200000x4, .f32⟩ : BufTy).Contents (Elt F)) v93
  let v95 := (addf : (⟨S3200000x4, .f32⟩ : BufTy).Contents (Elt F) → (⟨S3200000x4, .f32⟩ : BufTy).Contents (Elt F) → (⟨S3200000x4, .f32⟩ : BufTy).Contents (Elt F)) v92 v94
  v95

end Cert.ReferenceIdeal.Hand

end
-- ==== Proof.RefRun.lean ====
/-
  The reference program's run. The program is one straight line of host operations: the head (normalisation of the
  node features, the index vectors, the two gathered edge tables), the first edge network, the middle (sum per target
  node, edge count, mean, the two gathers of the mean), the second edge network, and the tail (sum, count, mean).
  Every weakly fair execution terminates with each buffer at the fold of these operations over the launch contents;
  the fold splits at the five stretches; each network's stretch computes the network as a function of whole arrays;
  no stretch writes an argument, and the index vectors are written in the head only.
-/
import proofs.«152291_j60387240181866_2_alg».proof.Proof.RefOps
import proofs.«152291_j60387240181866_2_alg».proof.Proof.MlpSpec
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- The program's operations, in order: the five stretches concatenated. -/
abbrev ops : List (HloOp τ sig (Elt F)) := opsA ++ (opsB ++ (opsC ++ (opsD ++ opsE)))

/-- The program is that straight line: each outlined function's body unfolds at its call over the call's buffers, the
    three windows run in order, and sequencing is associative, so both sides are the same chain of steps. -/
theorem main_eq (c : Dev nD) : main (F := F) c = StableHlo.seq (ops (F := F)) := rfl

/-- No buffer and no semaphore of the signature is scoped to a region. -/
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type _} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! Every operation touches TensorCore buffers only. -/
theorem opsA_sub : (opsA : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

theorem opsB_sub : (opsB : List (HloOp τ sig (Elt F))).Forall fun op => op.bufs ⊆ tcRefs τ sig :=
  ⟨binary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub ..⟩

theorem opsC_sub : (opsC : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub ..⟩

theorem opsD_sub : (opsD : List (HloOp τ sig (Elt F))).Forall fun op => op.bufs ⊆ tcRefs τ sig :=
  ⟨binary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

theorem opsE_sub : (opsE : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..⟩

theorem ops_sub : (ops : List (HloOp τ sig (Elt F))).Forall fun op => op.bufs ⊆ tcRefs τ sig :=
  forall_append opsA_sub (forall_append opsB_sub (forall_append opsC_sub (forall_append opsD_sub opsE_sub)))

/-- At the compiled mesh, for any float values, from any memory with zero counters: every weakly fair execution of the
    program terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ

/-- Running one list and then another is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The contents after the whole program are the five stretches' folds composed in order. -/
theorem after_ops (V : Valuation τ sig (Elt F)) :
    StableHlo.after (ops (F := F)) V
      = StableHlo.after opsE (StableHlo.after opsD (StableHlo.after opsC (StableHlo.after opsB (StableHlo.after opsA V)))) := by
  simp only [ops, after_append]

/-- The first edge network's stretch leaves, at its result, the network applied to the two gathered tables and the six weight and bias arrays as they stood before it. -/
theorem readB (W : Valuation τ sig (Elt F)) :
    StableHlo.after (opsB (F := F)) W (Proc.devRef .tc main_v53)
      = mlp0 (F := F) (W (Proc.devRef .tc main_v29)) (W (Proc.devRef .tc main_v36)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  simp only [TRef.toBuf, TRef.ofBuf, cast_eq, id]
  rfl

/-- The second edge network's stretch likewise. -/
theorem readD (W : Valuation τ sig (Elt F)) :
    StableHlo.after (opsD (F := F)) W (Proc.devRef .tc main_v95)
      = mlp1 (F := F) (W (Proc.devRef .tc main_v72)) (W (Proc.devRef .tc main_v79)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  simp only [TRef.toBuf, TRef.ofBuf, cast_eq, id]
  rfl

/-! Stretch A writes none of the sixteen arguments. -/
theorem keptA_arg0 (W : Valuation τ sig (Elt F)) : StableHlo.after (opsA (F := F)) W (Proc.devRef .tc main_arg0) = W (Proc.devRef .tc main_arg0) := by after_results_simp
theorem keptA_arg1 (W : Valuation τ sig (Elt F)) : StableHlo.after (opsA (F := F)) W (Proc.devRef .tc main_arg1) = W (Proc.devRef .tc main_arg1) := by after_results_simp
theorem keptA_arg2 (W : Valuation τ sig (Elt F)) : StableHlo.after (opsA (F := F)) W (Proc.devRef .tc main_arg2) = W (Proc.devRef .tc main_arg2) := by after_results_simp
theorem keptA_arg3 (W : Valuation τ sig (Elt F)) : StableHlo.after (opsA (F := F)) W (Proc.devRef .tc main_arg3) = W (Proc.devRef .tc main_arg3) := by after_results_simp
theorem keptA_arg4 (W : Valuation τ sig (Elt F)) : StableHlo.after (opsA (F := F)) W (Proc.devRef .tc main_arg4) = W (Proc.devRef .tc main_arg4) := by after_results_simp
theorem keptA_arg5 (W : Valuation τ sig (Elt F)) : StableHlo.after (opsA (F := F)) W (Proc.devRef .tc main_arg5) = W (Proc.devRef .tc main_arg5) := by after_results_simp
theorem keptA_arg6 (W : Valuation τ sig (Elt F)) : StableHlo.after (opsA (F := F)) W (Proc.devRef .tc main_arg6) = W (Proc.devRef .tc main_arg6) := by after_results_simp
theorem keptA_arg7 (W : Valuation τ sig (Elt F)) : StableHlo.after (opsA (F := F)) W (Proc.devRef .tc main_arg7) = W (Proc.devRef .tc main_arg7) := by after_results_simp
theorem keptA_arg8 (W : Valuation τ sig (Elt F)) : StableHlo.after (opsA (F := F)) W (Proc.devRef .tc main_arg8) = W (Proc.devRef .tc main_arg8) := by after_results_simp
theorem keptA_arg9 (W : Valuation τ sig (Elt F)) : StableHlo.after (opsA (F := F)) W (Proc.devRef .tc main_arg9) = W (Proc.devRef .tc main_arg9) := by after_results_simp
theorem keptA_arg10 (W : Valuation τ sig (Elt F)) : StableHlo.after (opsA (F := F)) W (Proc.devRef .tc main_arg10) = W (Proc.devRef .tc main_arg10) := by after_results_simp
theorem keptA_arg11 (W : Valuation τ sig (Elt F)) : StableHlo.after (opsA (F := F)) W (Proc.devRef .tc main_arg11) = W (Proc.devRef .tc main_arg11) := by after_results_simp
theorem keptA_arg12 (W : Valuation τ sig (Elt F)) : StableHlo.after (opsA (F := F)) W (Proc.devRef .tc main_arg12) = W (Proc.devRef .tc main_arg12) := by after_results_simp
theorem keptA_arg13 (W : Valuation τ sig (Elt F)) : StableHlo.after (opsA (F := F)) W (Proc.devRef .tc main_arg13) = W (Proc.devRef .tc main_arg13) := by after_results_simp
theorem keptA_arg14 (W : Valuation τ sig (Elt F)) : StableHlo.after (opsA (F := F)) W (Proc.devRef .tc main_arg14) = W (Proc.devRef .tc main_arg14) := by after_results_simp
theorem keptA_arg15 (W : Valuation τ sig (Elt F)) : StableHlo.after (opsA (F := F)) W (Proc.devRef .tc main_arg15) = W (Proc.devRef .tc main_arg15) := by after_results_simp

/-! Stretch B writes none of the sixteen arguments. -/
theorem keptB_arg0 (W : Valuation τ sig (Elt F)) : StableHlo.after (opsB (F := F)) W (Proc.devRef .tc main_arg0) = W (Proc.devRef .tc main_arg0) := by after_results_simp
theorem keptB_arg1 (W : Valuation τ sig (Elt F)) : StableHlo.after (opsB (F := F)) W (Proc.devRef .tc main_arg1) = W (Proc.devRef .tc main_arg1) := by after_results_simp
theorem keptB_arg2 (W : Valuation τ sig (Elt F)) : StableHlo.after (opsB (F := F)) W (Proc.devRef .tc main_arg2) = W (Proc.devRef .tc main_arg2) := by after_results_simp
theorem keptB_arg3 (W : Valuation τ sig (Elt F)) : StableHlo.after (opsB (F := F)) W (Proc.devRef .tc main_arg3) = W (Proc.devRef .tc main_arg3) := by after_results_simp
theorem keptB_arg4 (W : Valuation τ sig (Elt F)) : StableHlo.after (opsB (F := F)) W (Proc.devRef .tc main_arg4) = W (Proc.devRef .tc main_arg4) := by after_results_simp
theorem keptB_arg5 (W : Valuation τ sig (Elt F)) : StableHlo.after (opsB (F := F)) W (Proc.devRef .tc main_arg5) = W (Proc.devRef .tc main_arg5) := by after_results_simp
theorem keptB_arg6 (W : Valuation τ sig (Elt F)) : StableHlo.after (opsB (F := F)) W (Proc.devRef .tc main_arg6) = W (Proc.devRef .tc main_arg6) := by after_results_simp
theorem keptB_arg7 (W : Valuation τ sig (Elt F)) : StableHlo.after (opsB (F := F)) W (Proc.devRef .tc main_arg7) = W (Proc.devRef .tc main_arg7) := by after_results_simp
theorem keptB_arg8 (W : Valuation τ sig (Elt F)) : StableHlo.after (opsB (F := F)) W (Proc.devRef .tc main_arg8) = W (Proc.devRef .tc main_arg8) := by after_results_simp
theorem keptB_arg9 (W : Valuation τ sig (Elt F)) : StableHlo.after (opsB (F := F)) W (Proc.devRef .tc main_arg9) = W (Proc.devRef .tc main_arg9) := by after_results_simp
theorem keptB_arg10 (W : Valuation τ sig (Elt F)) : StableHlo.after (opsB (F := F)) W (Proc.devRef .tc main_arg10) = W (Proc.devRef .tc main_arg10) := by after_results_simp
theorem keptB_arg11 (W : Valuation τ sig (Elt F)) : StableHlo.after (opsB (F := F)) W (Proc.devRef .tc main_arg11) = W (Proc.devRef .tc main_arg11) := by after_results_simp
theorem keptB_arg12 (W : Valuation τ sig (Elt F)) : StableHlo.after (opsB (F := F)) W (Proc.devRef .tc main_arg12) = W (Proc.devRef .tc main_arg12) := by after_results_simp
theorem keptB_arg13 (W : Valuation τ sig (Elt F)) : StableHlo.after (opsB (F := F)) W (Proc.devRef .tc main_arg13) = W (Proc.devRef .tc main_arg13) := by after_results_simp
theorem keptB_arg14 (W : Valuation τ sig (Elt F)) : StableHlo.after (opsB (F := F)) W (Proc.devRef .tc main_arg14) = W (Proc.devRef .tc main_arg14) := by after_results_simp
theorem keptB_arg15 (W : Valuation τ sig (Elt F)) : StableHlo.after (opsB (F := F)) W (Proc.devRef .tc main_arg15) = W (Proc.devRef .tc main_arg15) := by after_results_simp

/-! Stretch C writes none of the sixteen arguments. -/
theorem keptC_arg0 (W : Valuation τ sig (Elt F)) : StableHlo.after (opsC (F := F)) W (Proc.devRef .tc main_arg0) = W (Proc.devRef .tc main_arg0) := by after_results_simp
theorem keptC_arg1 (W : Valuation τ sig (Elt F)) : StableHlo.after (opsC (F := F)) W (Proc.devRef .tc main_arg1) = W (Proc.devRef .tc main_arg1) := by after_results_simp
theorem keptC_arg2 (W : Valuation τ sig (Elt F)) : StableHlo.after (opsC (F := F)) W (Proc.devRef .tc main_arg2) = W (Proc.devRef .tc main_arg2) := by after_results_simp
theorem keptC_arg3 (W : Valuation τ sig (Elt F)) : StableHlo.after (opsC (F := F)) W (Proc.devRef .tc main_arg3) = W (Proc.devRef .tc main_arg3) := by after_results_simp
theorem keptC_arg4 (W : Valuation τ sig (Elt F)) : StableHlo.after (opsC (F := F)) W (Proc.devRef .tc main_arg4) = W (Proc.devRef .tc main_arg4) := by after_results_simp
theorem keptC_arg5 (W : Valuation τ sig (Elt F)) : StableHlo.after (opsC (F := F)) W (Proc.devRef .tc main_arg5) = W (Proc.devRef .tc main_arg5) := by after_results_simp
theorem keptC_arg6 (W : Valuation τ sig (Elt F)) : StableHlo.after (opsC (F := F)) W (Proc.devRef .tc main_arg6) = W (Proc.devRef .tc main_arg6) := by after_results_simp
theorem keptC_arg7 (W : Valuation τ sig (Elt F)) : StableHlo.after (opsC (F := F)) W (Proc.devRef .tc main_arg7) = W (Proc.devRef .tc main_arg7) := by after_results_simp
theorem keptC_arg8 (W : Valuation τ sig (Elt F)) : StableHlo.after (opsC (F := F)) W (Proc.devRef .tc main_arg8) = W (Proc.devRef .tc main_arg8) := by after_results_simp
theorem keptC_arg9 (W : Valuation τ sig (Elt F)) : StableHlo.after (opsC (F := F)) W (Proc.devRef .tc main_arg9) = W (Proc.devRef .tc main_arg9) := by after_results_simp
theorem keptC_arg10 (W : Valuation τ sig (Elt F)) : StableHlo.after (opsC (F := F)) W (Proc.devRef .tc main_arg10) = W (Proc.devRef .tc main_arg10) := by after_results_simp
theorem keptC_arg11 (W : Valuation τ sig (Elt F)) : StableHlo.after (opsC (F := F)) W (Proc.devRef .tc main_arg11) = W (Proc.devRef .tc main_arg11) := by after_results_simp
theorem keptC_arg12 (W : Valuation τ sig (Elt F)) : StableHlo.after (opsC (F := F)) W (Proc.devRef .tc main_arg12) = W (Proc.devRef .tc main_arg12) := by after_results_simp
theorem keptC_arg13 (W : Valuation τ sig (Elt F)) : StableHlo.after (opsC (F := F)) W (Proc.devRef .tc main_arg13) = W (Proc.devRef .tc main_arg13) := by after_results_simp
theorem keptC_arg14 (W : Valuation τ sig (Elt F)) : StableHlo.after (opsC (F := F)) W (Proc.devRef .tc main_arg14) = W (Proc.devRef .tc main_arg14) := by after_results_simp
theorem keptC_arg15 (W : Valuation τ sig (Elt F)) : StableHlo.after (opsC (F := F)) W (Proc.devRef .tc main_arg15) = W (Proc.devRef .tc main_arg15) := by after_results_simp

/-! Stretch D writes none of the sixteen arguments. -/
theorem keptD_arg0 (W : Valuation τ sig (Elt F)) : StableHlo.after (opsD (F := F)) W (Proc.devRef .tc main_arg0) = W (Proc.devRef .tc main_arg0) := by after_results_simp
theorem keptD_arg1 (W : Valuation τ sig (Elt F)) : StableHlo.after (opsD (F := F)) W (Proc.devRef .tc main_arg1) = W (Proc.devRef .tc main_arg1) := by after_results_simp
theorem keptD_arg2 (W : Valuation τ sig (Elt F)) : StableHlo.after (opsD (F := F)) W (Proc.devRef .tc main_arg2) = W (Proc.devRef .tc main_arg2) := by after_results_simp
theorem keptD_arg3 (W : Valuation τ sig (Elt F)) : StableHlo.after (opsD (F := F)) W (Proc.devRef .tc main_arg3) = W (Proc.devRef .tc main_arg3) := by after_results_simp
theorem keptD_arg4 (W : Valuation τ sig (Elt F)) : StableHlo.after (opsD (F := F)) W (Proc.devRef .tc main_arg4) = W (Proc.devRef .tc main_arg4) := by after_results_simp
theorem keptD_arg5 (W : Valuation τ sig (Elt F)) : StableHlo.after (opsD (F := F)) W (Proc.devRef .tc main_arg5) = W (Proc.devRef .tc main_arg5) := by after_results_simp
theorem keptD_arg6 (W : Valuation τ sig (Elt F)) : StableHlo.after (opsD (F := F)) W (Proc.devRef .tc main_arg6) = W (Proc.devRef .tc main_arg6) := by after_results_simp
theorem keptD_arg7 (W : Valuation τ sig (Elt F)) : StableHlo.after (opsD (F := F)) W (Proc.devRef .tc main_arg7) = W (Proc.devRef .tc main_arg7) := by after_results_simp
theorem keptD_arg8 (W : Valuation τ sig (Elt F)) : StableHlo.after (opsD (F := F)) W (Proc.devRef .tc main_arg8) = W (Proc.devRef .tc main_arg8) := by after_results_simp
theorem keptD_arg9 (W : Valuation τ sig (Elt F)) : StableHlo.after (opsD (F := F)) W (Proc.devRef .tc main_arg9) = W (Proc.devRef .tc main_arg9) := by after_results_simp
theorem keptD_arg10 (W : Valuation τ sig (Elt F)) : StableHlo.after (opsD (F := F)) W (Proc.devRef .tc main_arg10) = W (Proc.devRef .tc main_arg10) := by after_results_simp
theorem keptD_arg11 (W : Valuation τ sig (Elt F)) : StableHlo.after (opsD (F := F)) W (Proc.devRef .tc main_arg11) = W (Proc.devRef .tc main_arg11) := by after_results_simp
theorem keptD_arg12 (W : Valuation τ sig (Elt F)) : StableHlo.after (opsD (F := F)) W (Proc.devRef .tc main_arg12) = W (Proc.devRef .tc main_arg12) := by after_results_simp
theorem keptD_arg13 (W : Valuation τ sig (Elt F)) : StableHlo.after (opsD (F := F)) W (Proc.devRef .tc main_arg13) = W (Proc.devRef .tc main_arg13) := by after_results_simp
theorem keptD_arg14 (W : Valuation τ sig (Elt F)) : StableHlo.after (opsD (F := F)) W (Proc.devRef .tc main_arg14) = W (Proc.devRef .tc main_arg14) := by after_results_simp
theorem keptD_arg15 (W : Valuation τ sig (Elt F)) : StableHlo.after (opsD (F := F)) W (Proc.devRef .tc main_arg15) = W (Proc.devRef .tc main_arg15) := by after_results_simp

/-! Stretch E writes none of the sixteen arguments. -/
theorem keptE_arg0 (W : Valuation τ sig (Elt F)) : StableHlo.after (opsE (F := F)) W (Proc.devRef .tc main_arg0) = W (Proc.devRef .tc main_arg0) := by after_results_simp
theorem keptE_arg1 (W : Valuation τ sig (Elt F)) : StableHlo.after (opsE (F := F)) W (Proc.devRef .tc main_arg1) = W (Proc.devRef .tc main_arg1) := by after_results_simp
theorem keptE_arg2 (W : Valuation τ sig (Elt F)) : StableHlo.after (opsE (F := F)) W (Proc.devRef .tc main_arg2) = W (Proc.devRef .tc main_arg2) := by after_results_simp
theorem keptE_arg3 (W : Valuation τ sig (Elt F)) : StableHlo.after (opsE (F := F)) W (Proc.devRef .tc main_arg3) = W (Proc.devRef .tc main_arg3) := by after_results_simp
theorem keptE_arg4 (W : Valuation τ sig (Elt F)) : StableHlo.after (opsE (F := F)) W (Proc.devRef .tc main_arg4) = W (Proc.devRef .tc main_arg4) := by after_results_simp
theorem keptE_arg5 (W : Valuation τ sig (Elt F)) : StableHlo.after (opsE (F := F)) W (Proc.devRef .tc main_arg5) = W (Proc.devRef .tc main_arg5) := by after_results_simp
theorem keptE_arg6 (W : Valuation τ sig (Elt F)) : StableHlo.after (opsE (F := F)) W (Proc.devRef .tc main_arg6) = W (Proc.devRef .tc main_arg6) := by after_results_simp
theorem keptE_arg7 (W : Valuation τ sig (Elt F)) : StableHlo.after (opsE (F := F)) W (Proc.devRef .tc main_arg7) = W (Proc.devRef .tc main_arg7) := by after_results_simp
theorem keptE_arg8 (W : Valuation τ sig (Elt F)) : StableHlo.after (opsE (F := F)) W (Proc.devRef .tc main_arg8) = W (Proc.devRef .tc main_arg8) := by after_results_simp
theorem keptE_arg9 (W : Valuation τ sig (Elt F)) : StableHlo.after (opsE (F := F)) W (Proc.devRef .tc main_arg9) = W (Proc.devRef .tc main_arg9) := by after_results_simp
theorem keptE_arg10 (W : Valuation τ sig (Elt F)) : StableHlo.after (opsE (F := F)) W (Proc.devRef .tc main_arg10) = W (Proc.devRef .tc main_arg10) := by after_results_simp
theorem keptE_arg11 (W : Valuation τ sig (Elt F)) : StableHlo.after (opsE (F := F)) W (Proc.devRef .tc main_arg11) = W (Proc.devRef .tc main_arg11) := by after_results_simp
theorem keptE_arg12 (W : Valuation τ sig (Elt F)) : StableHlo.after (opsE (F := F)) W (Proc.devRef .tc main_arg12) = W (Proc.devRef .tc main_arg12) := by after_results_simp
theorem keptE_arg13 (W : Valuation τ sig (Elt F)) : StableHlo.after (opsE (F := F)) W (Proc.devRef .tc main_arg13) = W (Proc.devRef .tc main_arg13) := by after_results_simp
theorem keptE_arg14 (W : Valuation τ sig (Elt F)) : StableHlo.after (opsE (F := F)) W (Proc.devRef .tc main_arg14) = W (Proc.devRef .tc main_arg14) := by after_results_simp
theorem keptE_arg15 (W : Valuation τ sig (Elt F)) : StableHlo.after (opsE (F := F)) W (Proc.devRef .tc main_arg15) = W (Proc.devRef .tc main_arg15) := by after_results_simp

/-! The two index vectors (source rows, target rows) are written in the head only: the two networks and the middle leave them. -/
theorem keptB_v20 (W : Valuation τ sig (Elt F)) : StableHlo.after (opsB (F := F)) W (Proc.devRef .tc main_v20) = W (Proc.devRef .tc main_v20) := by after_results_simp
theorem keptB_v22 (W : Valuation τ sig (Elt F)) : StableHlo.after (opsB (F := F)) W (Proc.devRef .tc main_v22) = W (Proc.devRef .tc main_v22) := by after_results_simp
theorem keptC_v20 (W : Valuation τ sig (Elt F)) : StableHlo.after (opsC (F := F)) W (Proc.devRef .tc main_v20) = W (Proc.devRef .tc main_v20) := by after_results_simp
theorem keptC_v22 (W : Valuation τ sig (Elt F)) : StableHlo.after (opsC (F := F)) W (Proc.devRef .tc main_v22) = W (Proc.devRef .tc main_v22) := by after_results_simp
theorem keptD_v20 (W : Valuation τ sig (Elt F)) : StableHlo.after (opsD (F := F)) W (Proc.devRef .tc main_v20) = W (Proc.devRef .tc main_v20) := by after_results_simp
theorem keptD_v22 (W : Valuation τ sig (Elt F)) : StableHlo.after (opsD (F := F)) W (Proc.devRef .tc main_v22) = W (Proc.devRef .tc main_v22) := by after_results_simp

/-! Hence the whole program leaves every argument as it was. -/
theorem kept_arg0 (V : Valuation τ sig (Elt F)) : StableHlo.after (ops (F := F)) V (Proc.devRef .tc main_arg0) = V (Proc.devRef .tc main_arg0) := by
  rw [after_ops, keptE_arg0, keptD_arg0, keptC_arg0, keptB_arg0, keptA_arg0]
theorem kept_arg1 (V : Valuation τ sig (Elt F)) : StableHlo.after (ops (F := F)) V (Proc.devRef .tc main_arg1) = V (Proc.devRef .tc main_arg1) := by
  rw [after_ops, keptE_arg1, keptD_arg1, keptC_arg1, keptB_arg1, keptA_arg1]
theorem kept_arg2 (V : Valuation τ sig (Elt F)) : StableHlo.after (ops (F := F)) V (Proc.devRef .tc main_arg2) = V (Proc.devRef .tc main_arg2) := by
  rw [after_ops, keptE_arg2, keptD_arg2, keptC_arg2, keptB_arg2, keptA_arg2]
theorem kept_arg3 (V : Valuation τ sig (Elt F)) : StableHlo.after (ops (F := F)) V (Proc.devRef .tc main_arg3) = V (Proc.devRef .tc main_arg3) := by
  rw [after_ops, keptE_arg3, keptD_arg3, keptC_arg3, keptB_arg3, keptA_arg3]
theorem kept_arg4 (V : Valuation τ sig (Elt F)) : StableHlo.after (ops (F := F)) V (Proc.devRef .tc main_arg4) = V (Proc.devRef .tc main_arg4) := by
  rw [after_ops, keptE_arg4, keptD_arg4, keptC_arg4, keptB_arg4, keptA_arg4]
theorem kept_arg5 (V : Valuation τ sig (Elt F)) : StableHlo.after (ops (F := F)) V (Proc.devRef .tc main_arg5) = V (Proc.devRef .tc main_arg5) := by
  rw [after_ops, keptE_arg5, keptD_arg5, keptC_arg5, keptB_arg5, keptA_arg5]
theorem kept_arg6 (V : Valuation τ sig (Elt F)) : StableHlo.after (ops (F := F)) V (Proc.devRef .tc main_arg6) = V (Proc.devRef .tc main_arg6) := by
  rw [after_ops, keptE_arg6, keptD_arg6, keptC_arg6, keptB_arg6, keptA_arg6]
theorem kept_arg7 (V : Valuation τ sig (Elt F)) : StableHlo.after (ops (F := F)) V (Proc.devRef .tc main_arg7) = V (Proc.devRef .tc main_arg7) := by
  rw [after_ops, keptE_arg7, keptD_arg7, keptC_arg7, keptB_arg7, keptA_arg7]
theorem kept_arg8 (V : Valuation τ sig (Elt F)) : StableHlo.after (ops (F := F)) V (Proc.devRef .tc main_arg8) = V (Proc.devRef .tc main_arg8) := by
  rw [after_ops, keptE_arg8, keptD_arg8, keptC_arg8, keptB_arg8, keptA_arg8]
theorem kept_arg9 (V : Valuation τ sig (Elt F)) : StableHlo.after (ops (F := F)) V (Proc.devRef .tc main_arg9) = V (Proc.devRef .tc main_arg9) := by
  rw [after_ops, keptE_arg9, keptD_arg9, keptC_arg9, keptB_arg9, keptA_arg9]
theorem kept_arg10 (V : Valuation τ sig (Elt F)) : StableHlo.after (ops (F := F)) V (Proc.devRef .tc main_arg10) = V (Proc.devRef .tc main_arg10) := by
  rw [after_ops, keptE_arg10, keptD_arg10, keptC_arg10, keptB_arg10, keptA_arg10]
theorem kept_arg11 (V : Valuation τ sig (Elt F)) : StableHlo.after (ops (F := F)) V (Proc.devRef .tc main_arg11) = V (Proc.devRef .tc main_arg11) := by
  rw [after_ops, keptE_arg11, keptD_arg11, keptC_arg11, keptB_arg11, keptA_arg11]
theorem kept_arg12 (V : Valuation τ sig (Elt F)) : StableHlo.after (ops (F := F)) V (Proc.devRef .tc main_arg12) = V (Proc.devRef .tc main_arg12) := by
  rw [after_ops, keptE_arg12, keptD_arg12, keptC_arg12, keptB_arg12, keptA_arg12]
theorem kept_arg13 (V : Valuation τ sig (Elt F)) : StableHlo.after (ops (F := F)) V (Proc.devRef .tc main_arg13) = V (Proc.devRef .tc main_arg13) := by
  rw [after_ops, keptE_arg13, keptD_arg13, keptC_arg13, keptB_arg13, keptA_arg13]
theorem kept_arg14 (V : Valuation τ sig (Elt F)) : StableHlo.after (ops (F := F)) V (Proc.devRef .tc main_arg14) = V (Proc.devRef .tc main_arg14) := by
  rw [after_ops, keptE_arg14, keptD_arg14, keptC_arg14, keptB_arg14, keptA_arg14]
theorem kept_arg15 (V : Valuation τ sig (Elt F)) : StableHlo.after (ops (F := F)) V (Proc.devRef .tc main_arg15) = V (Proc.devRef .tc main_arg15) := by
  rw [after_ops, keptE_arg15, keptD_arg15, keptC_arg15, keptB_arg15, keptA_arg15]

/-- Every weakly fair execution of the program terminates with the sixteen arguments unchanged on every device. -/
theorem frame_args (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_arg0).trans (kept_arg0 _),
    (h c main_arg1).trans (kept_arg1 _),
    (h c main_arg2).trans (kept_arg2 _),
    (h c main_arg3).trans (kept_arg3 _),
    (h c main_arg4).trans (kept_arg4 _),
    (h c main_arg5).trans (kept_arg5 _),
    (h c main_arg6).trans (kept_arg6 _),
    (h c main_arg7).trans (kept_arg7 _),
    (h c main_arg8).trans (kept_arg8 _),
    (h c main_arg9).trans (kept_arg9 _),
    (h c main_arg10).trans (kept_arg10 _),
    (h c main_arg11).trans (kept_arg11 _),
    (h c main_arg12).trans (kept_arg12 _),
    (h c main_arg13).trans (kept_arg13 _),
    (h c main_arg14).trans (kept_arg14 _),
    (h c main_arg15).trans (kept_arg15 _)⟩) (run m ρ)

end Cert.ReferenceIdeal.Hand

end
-- ==== Proof.HostBridge.lean ====
/-
  The two programs outside the two edge networks. Both normalise the node features per feature (mean, variance,
  reciprocal square root, scale and shift), read the source and target rows of the edge list, wrap negative indices,
  and gather one row per edge; after each edge network both sum the messages per target node, count the edges per
  node and divide the sum by the count raised to at least one. These stretches are the same operations, in the same
  order, over each program's own copies of the shapes and dimension records, so from equal inputs they produce equal
  arrays. Also here: what the kernel program's stretches do to the bias vectors (a vector [n] laid out as one row
  [1, n] holds at (0, k) the vector's entry k) and which inputs they leave untouched.
-/
import proofs.«152291_j60387240181866_2_alg».proof.Proof.Gen.KernelIdeal.Launch
import proofs.«152291_j60387240181866_2_alg».proof.Proof.RefOps
import Idealize.ShloMosaic.Lib.StableHlo.Run
import Idealize.ShloMosaic.Lib.Pipeline.Value
import Idealize.ShloMosaic.Lib.ValueIdx
import Idealize.ShloMosaic.Lib.ValueLayout

noncomputable section

namespace Cert.Bridge

open Idealize.ShloMosaic Idealize.ShloMosaic.TcCoe Idealize.SL.Sem Idealize.ShloMosaic.StableHlo

variable {F : FTy → Type} [FloatOps F]

/-- The tail: from equal messages of the second network and equal target indices, the per-node sums divided by the
    per-node edge counts (at least one) agree. -/
theorem bridgeE (W : Valuation Cert.KernelIdeal.τ Cert.KernelIdeal.sig (Elt F)) (W' : Valuation Cert.ReferenceIdeal.τ Cert.ReferenceIdeal.sig (Elt F))
    (h70 : W' (Proc.devRef .tc Cert.ReferenceIdeal.main_v95) = W (Proc.devRef .tc Cert.KernelIdeal.main_v70))
    (h22 : W' (Proc.devRef .tc Cert.ReferenceIdeal.main_v22) = W (Proc.devRef .tc Cert.KernelIdeal.main_v22)) :
    after (Cert.ReferenceIdeal.Hand.opsE (F := F)) W' (Proc.devRef .tc Cert.ReferenceIdeal.main_v107)
      = after (Cert.KernelIdeal.Gen.hostOps2 (F := F)) W (Proc.devRef .tc Cert.KernelIdeal.main_v82) := by
  after_results_simp
  rw [h70, h22]
  rfl

/-- The middle: from equal messages of the first network and equal index vectors, the per-node means agree, and so
    do their rows gathered by target index and by source index. -/
theorem bridgeC (W : Valuation Cert.KernelIdeal.τ Cert.KernelIdeal.sig (Elt F)) (W' : Valuation Cert.ReferenceIdeal.τ Cert.ReferenceIdeal.sig (Elt F))
    (h40 : W' (Proc.devRef .tc Cert.ReferenceIdeal.main_v53) = W (Proc.devRef .tc Cert.KernelIdeal.main_v40))
    (h22 : W' (Proc.devRef .tc Cert.ReferenceIdeal.main_v22) = W (Proc.devRef .tc Cert.KernelIdeal.main_v22))
    (h20 : W' (Proc.devRef .tc Cert.ReferenceIdeal.main_v20) = W (Proc.devRef .tc Cert.KernelIdeal.main_v20)) :
    after (Cert.ReferenceIdeal.Hand.opsC (F := F)) W' (Proc.devRef .tc Cert.ReferenceIdeal.main_v72)
        = after (Cert.KernelIdeal.Gen.hostOps1 (F := F)) W (Proc.devRef .tc Cert.KernelIdeal.main_v59)
    ∧ after (Cert.ReferenceIdeal.Hand.opsC (F := F)) W' (Proc.devRef .tc Cert.ReferenceIdeal.main_v79)
        = after (Cert.KernelIdeal.Gen.hostOps1 (F := F)) W (Proc.devRef .tc Cert.KernelIdeal.main_v66) := by
  constructor
  · after_results_simp
    rw [h40, h22]
    rfl
  · after_results_simp
    rw [h40, h22, h20]
    rfl

/-- From equal inputs, the normalised features gathered by (wrapped) target index agree. -/
theorem bridgeA_v29 (W : Valuation Cert.KernelIdeal.τ Cert.KernelIdeal.sig (Elt F)) (W' : Valuation Cert.ReferenceIdeal.τ Cert.ReferenceIdeal.sig (Elt F))
    (h0 : W' (Proc.devRef .tc Cert.ReferenceIdeal.main_arg0) = W (Proc.devRef .tc Cert.KernelIdeal.main_arg0)) (h1 : W' (Proc.devRef .tc Cert.ReferenceIdeal.main_arg1) = W (Proc.devRef .tc Cert.KernelIdeal.main_arg1))
    (h2 : W' (Proc.devRef .tc Cert.ReferenceIdeal.main_arg2) = W (Proc.devRef .tc Cert.KernelIdeal.main_arg2)) (h3 : W' (Proc.devRef .tc Cert.ReferenceIdeal.main_arg3) = W (Proc.devRef .tc Cert.KernelIdeal.main_arg3)) :
    after (Cert.ReferenceIdeal.Hand.opsA (F := F)) W' (Proc.devRef .tc Cert.ReferenceIdeal.main_v29) = (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v29) := by
  after_results_simp
  simp only [TRef.toBuf, TRef.ofBuf, cast_eq, id]
  rw [h0, h1, h2, h3]
  rfl

/-- From equal inputs, the normalised features gathered by (wrapped) source index agree. -/
theorem bridgeA_v36 (W : Valuation Cert.KernelIdeal.τ Cert.KernelIdeal.sig (Elt F)) (W' : Valuation Cert.ReferenceIdeal.τ Cert.ReferenceIdeal.sig (Elt F))
    (h0 : W' (Proc.devRef .tc Cert.ReferenceIdeal.main_arg0) = W (Proc.devRef .tc Cert.KernelIdeal.main_arg0)) (h1 : W' (Proc.devRef .tc Cert.ReferenceIdeal.main_arg1) = W (Proc.devRef .tc Cert.KernelIdeal.main_arg1))
    (h2 : W' (Proc.devRef .tc Cert.ReferenceIdeal.main_arg2) = W (Proc.devRef .tc Cert.KernelIdeal.main_arg2)) (h3 : W' (Proc.devRef .tc Cert.ReferenceIdeal.main_arg3) = W (Proc.devRef .tc Cert.KernelIdeal.main_arg3)) :
    after (Cert.ReferenceIdeal.Hand.opsA (F := F)) W' (Proc.devRef .tc Cert.ReferenceIdeal.main_v36) = (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v36) := by
  after_results_simp
  simp only [TRef.toBuf, TRef.ofBuf, cast_eq, id]
  rw [h0, h1, h2, h3]
  rfl

/-- From equal edge lists, the source index vectors (row 0 of the list) agree. -/
theorem bridgeA_v20 (W : Valuation Cert.KernelIdeal.τ Cert.KernelIdeal.sig (Elt F)) (W' : Valuation Cert.ReferenceIdeal.τ Cert.ReferenceIdeal.sig (Elt F))
    (h1 : W' (Proc.devRef .tc Cert.ReferenceIdeal.main_arg1) = W (Proc.devRef .tc Cert.KernelIdeal.main_arg1)) :
    after (Cert.ReferenceIdeal.Hand.opsA (F := F)) W' (Proc.devRef .tc Cert.ReferenceIdeal.main_v20) = (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v20) := by
  after_results_simp
  rw [h1]
  rfl

/-- From equal edge lists, the target index vectors (row 1 of the list) agree. -/
theorem bridgeA_v22 (W : Valuation Cert.KernelIdeal.τ Cert.KernelIdeal.sig (Elt F)) (W' : Valuation Cert.ReferenceIdeal.τ Cert.ReferenceIdeal.sig (Elt F))
    (h1 : W' (Proc.devRef .tc Cert.ReferenceIdeal.main_arg1) = W (Proc.devRef .tc Cert.KernelIdeal.main_arg1)) :
    after (Cert.ReferenceIdeal.Hand.opsA (F := F)) W' (Proc.devRef .tc Cert.ReferenceIdeal.main_v22) = (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v22) := by
  after_results_simp
  rw [h1]
  rfl

/-- The head: from equal node features, edge list, scale and shift, the normalised features gathered by target index
    and by source index agree, and so do the source and target index vectors themselves. -/
theorem bridgeA (W : Valuation Cert.KernelIdeal.τ Cert.KernelIdeal.sig (Elt F)) (W' : Valuation Cert.ReferenceIdeal.τ Cert.ReferenceIdeal.sig (Elt F))
    (h0 : W' (Proc.devRef .tc Cert.ReferenceIdeal.main_arg0) = W (Proc.devRef .tc Cert.KernelIdeal.main_arg0)) (h1 : W' (Proc.devRef .tc Cert.ReferenceIdeal.main_arg1) = W (Proc.devRef .tc Cert.KernelIdeal.main_arg1))
    (h2 : W' (Proc.devRef .tc Cert.ReferenceIdeal.main_arg2) = W (Proc.devRef .tc Cert.KernelIdeal.main_arg2)) (h3 : W' (Proc.devRef .tc Cert.ReferenceIdeal.main_arg3) = W (Proc.devRef .tc Cert.KernelIdeal.main_arg3)) :
    after (Cert.ReferenceIdeal.Hand.opsA (F := F)) W' (Proc.devRef .tc Cert.ReferenceIdeal.main_v29) = (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v29)
    ∧ after (Cert.ReferenceIdeal.Hand.opsA (F := F)) W' (Proc.devRef .tc Cert.ReferenceIdeal.main_v36) = (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v36)
    ∧ after (Cert.ReferenceIdeal.Hand.opsA (F := F)) W' (Proc.devRef .tc Cert.ReferenceIdeal.main_v20) = (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v20)
    ∧ after (Cert.ReferenceIdeal.Hand.opsA (F := F)) W' (Proc.devRef .tc Cert.ReferenceIdeal.main_v22) = (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v22) :=
  ⟨bridgeA_v29 W W' h0 h1 h2 h3, bridgeA_v36 W W' h0 h1 h2 h3, bridgeA_v20 W W' h1, bridgeA_v22 W W' h1⟩

/-! ## The kernel program's stretches on the biases and the untouched inputs -/

/-- The bias vector of 32 entries laid out as one row: its entry at (0, k) is the vector's entry k. -/
theorem bias0_1 (W : Valuation Cert.KernelIdeal.τ Cert.KernelIdeal.sig (Elt F)) (k : Fin 32) :
    (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v37) (ValueIdx.ix2 (0 : Fin 1) k) = W (Proc.devRef .tc Cert.KernelIdeal.main_arg5) (ValueIdx.ix1 k) := by
  after_results_simp
  exact ValueIdx.shapeCast_a_1a_apply _ _ _ _

/-- The bias vector of 32 entries laid out as one row: its entry at (0, k) is the vector's entry k. -/
theorem bias0_2 (W : Valuation Cert.KernelIdeal.τ Cert.KernelIdeal.sig (Elt F)) (k : Fin 32) :
    (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v38) (ValueIdx.ix2 (0 : Fin 1) k) = W (Proc.devRef .tc Cert.KernelIdeal.main_arg7) (ValueIdx.ix1 k) := by
  after_results_simp
  exact ValueIdx.shapeCast_a_1a_apply _ _ _ _

/-- The bias vector of 2 entries laid out as one row: its entry at (0, k) is the vector's entry k. -/
theorem bias0_3 (W : Valuation Cert.KernelIdeal.τ Cert.KernelIdeal.sig (Elt F)) (k : Fin 2) :
    (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v39) (ValueIdx.ix2 (0 : Fin 1) k) = W (Proc.devRef .tc Cert.KernelIdeal.main_arg9) (ValueIdx.ix1 k) := by
  after_results_simp
  exact ValueIdx.shapeCast_a_1a_apply _ _ _ _

/-- The bias vector of 32 entries laid out as one row: its entry at (0, k) is the vector's entry k. -/
theorem bias1_1 (W : Valuation Cert.KernelIdeal.τ Cert.KernelIdeal.sig (Elt F)) (k : Fin 32) :
    (after (Cert.KernelIdeal.Gen.hostOps1 (F := F)) W) (Proc.devRef .tc Cert.KernelIdeal.main_v67) (ValueIdx.ix2 (0 : Fin 1) k) = W (Proc.devRef .tc Cert.KernelIdeal.main_arg11) (ValueIdx.ix1 k) := by
  after_results_simp
  exact ValueIdx.shapeCast_a_1a_apply _ _ _ _

/-- The bias vector of 32 entries laid out as one row: its entry at (0, k) is the vector's entry k. -/
theorem bias1_2 (W : Valuation Cert.KernelIdeal.τ Cert.KernelIdeal.sig (Elt F)) (k : Fin 32) :
    (after (Cert.KernelIdeal.Gen.hostOps1 (F := F)) W) (Proc.devRef .tc Cert.KernelIdeal.main_v68) (ValueIdx.ix2 (0 : Fin 1) k) = W (Proc.devRef .tc Cert.KernelIdeal.main_arg13) (ValueIdx.ix1 k) := by
  after_results_simp
  exact ValueIdx.shapeCast_a_1a_apply _ _ _ _

/-- The bias vector of 4 entries laid out as one row: its entry at (0, k) is the vector's entry k. -/
theorem bias1_3 (W : Valuation Cert.KernelIdeal.τ Cert.KernelIdeal.sig (Elt F)) (k : Fin 4) :
    (after (Cert.KernelIdeal.Gen.hostOps1 (F := F)) W) (Proc.devRef .tc Cert.KernelIdeal.main_v69) (ValueIdx.ix2 (0 : Fin 1) k) = W (Proc.devRef .tc Cert.KernelIdeal.main_arg15) (ValueIdx.ix1 k) := by
  after_results_simp
  exact ValueIdx.shapeCast_a_1a_apply _ _ _ _

/-! The head's stretches write none of the weights and biases of the two networks. -/

theorem keptH_arg4 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg4) = W (Proc.devRef .tc Cert.KernelIdeal.main_arg4) := by
  after_results_simp

theorem keptH_arg5 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg5) = W (Proc.devRef .tc Cert.KernelIdeal.main_arg5) := by
  after_results_simp

theorem keptH_arg6 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg6) = W (Proc.devRef .tc Cert.KernelIdeal.main_arg6) := by
  after_results_simp

theorem keptH_arg7 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg7) = W (Proc.devRef .tc Cert.KernelIdeal.main_arg7) := by
  after_results_simp

theorem keptH_arg8 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg8) = W (Proc.devRef .tc Cert.KernelIdeal.main_arg8) := by
  after_results_simp

theorem keptH_arg9 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg9) = W (Proc.devRef .tc Cert.KernelIdeal.main_arg9) := by
  after_results_simp

theorem keptH_arg10 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg10) = W (Proc.devRef .tc Cert.KernelIdeal.main_arg10) := by
  after_results_simp

theorem keptH_arg11 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg11) = W (Proc.devRef .tc Cert.KernelIdeal.main_arg11) := by
  after_results_simp

theorem keptH_arg12 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg12) = W (Proc.devRef .tc Cert.KernelIdeal.main_arg12) := by
  after_results_simp

theorem keptH_arg13 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg13) = W (Proc.devRef .tc Cert.KernelIdeal.main_arg13) := by
  after_results_simp

theorem keptH_arg14 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg14) = W (Proc.devRef .tc Cert.KernelIdeal.main_arg14) := by
  after_results_simp

theorem keptH_arg15 (W : Valuation Cert.KernelIdeal.τ Cert.KernelIdeal.sig (Elt F)) : (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_arg15) = W (Proc.devRef .tc Cert.KernelIdeal.main_arg15) := by
  after_results_simp

/-! The middle stretch writes neither the target indices nor the second network's weights and biases. -/

theorem kept1_v22 (W : Valuation Cert.KernelIdeal.τ Cert.KernelIdeal.sig (Elt F)) : (after (Cert.KernelIdeal.Gen.hostOps1 (F := F)) W) (Proc.devRef .tc Cert.KernelIdeal.main_v22) = W (Proc.devRef .tc Cert.KernelIdeal.main_v22) := by
  after_results_simp

theorem kept1_arg10 (W : Valuation Cert.KernelIdeal.τ Cert.KernelIdeal.sig (Elt F)) : (after (Cert.KernelIdeal.Gen.hostOps1 (F := F)) W) (Proc.devRef .tc Cert.KernelIdeal.main_arg10) = W (Proc.devRef .tc Cert.KernelIdeal.main_arg10) := by
  after_results_simp

theorem kept1_arg11 (W : Valuation Cert.KernelIdeal.τ Cert.KernelIdeal.sig (Elt F)) : (after (Cert.KernelIdeal.Gen.hostOps1 (F := F)) W) (Proc.devRef .tc Cert.KernelIdeal.main_arg11) = W (Proc.devRef .tc Cert.KernelIdeal.main_arg11) := by
  after_results_simp

theorem kept1_arg12 (W : Valuation Cert.KernelIdeal.τ Cert.KernelIdeal.sig (Elt F)) : (after (Cert.KernelIdeal.Gen.hostOps1 (F := F)) W) (Proc.devRef .tc Cert.KernelIdeal.main_arg12) = W (Proc.devRef .tc Cert.KernelIdeal.main_arg12) := by
  after_results_simp

theorem kept1_arg13 (W : Valuation Cert.KernelIdeal.τ Cert.KernelIdeal.sig (Elt F)) : (after (Cert.KernelIdeal.Gen.hostOps1 (F := F)) W) (Proc.devRef .tc Cert.KernelIdeal.main_arg13) = W (Proc.devRef .tc Cert.KernelIdeal.main_arg13) := by
  after_results_simp

theorem kept1_arg14 (W : Valuation Cert.KernelIdeal.τ Cert.KernelIdeal.sig (Elt F)) : (after (Cert.KernelIdeal.Gen.hostOps1 (F := F)) W) (Proc.devRef .tc Cert.KernelIdeal.main_arg14) = W (Proc.devRef .tc Cert.KernelIdeal.main_arg14) := by
  after_results_simp

theorem kept1_arg15 (W : Valuation Cert.KernelIdeal.τ Cert.KernelIdeal.sig (Elt F)) : (after (Cert.KernelIdeal.Gen.hostOps1 (F := F)) W) (Proc.devRef .tc Cert.KernelIdeal.main_arg15) = W (Proc.devRef .tc Cert.KernelIdeal.main_arg15) := by
  after_results_simp

end Cert.Bridge

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.PayloadValue.lean ====
/-
  One row of an edge network. The body of a row tile computes, from the tile's target rows and source rows,
  the row `[x0, x1 - x0]` through three affine layers `h ↦ h · w + b` into a zero accumulator, with a maximum
  against zero after a layer; the whole-table network does the same to every edge row. A tile row that agrees
  with a table row coordinate by coordinate gives the same result row.
-/
import proofs.«152291_j60387240181866_2_alg».proof.Proof.Gen.KernelIdeal.Skeleton
import proofs.«152291_j60387240181866_2_alg».proof.Proof.MlpSpec
import proofs.«152291_j60387240181866_2_alg».proof.Proof.LibTileMatmul
import Idealize.ShloMosaic.PureOps.Ideal.Laws
import Idealize.ShloMosaic.Lib.ValueIdx
import Idealize.ShloMosaic.Lib.Pipeline.Value
import Idealize.ShloMosaic.Lib.ValueLayout

noncomputable section

namespace Cert.Payload

open Idealize.ShloMosaic Idealize.ShloMosaic.ValueIdx

open Idealize.ShloMosaic.TileMatmul

/-! ## The pieces of one layer, read at one row -/

section Pieces

/-- A maximum against zero. The tile broadcasts a zero scalar, the table broadcasts a rank-0 zero constant: both read
    the same word at every index, so rows that agree before the maximum agree after it. -/
theorem relu_row {s s' : Shape} (a : FVec Ideal s .f32) (a' : FVec Ideal s' .f32)
    (hz : (⟨0, ![]⟩ : Shape).BroadcastsInDim s' ![]) (i : s.Idx) (i' : s'.Idx)
    (h : (a i : EReal) = a' i') :
    (maximumf a (broadcast s (Scalar.ofBits (F := Ideal) .f32 0x00000000#32)) i : EReal)
      = maximumf a' (broadcastInDim s' ![] hz (constant (F := Ideal) ⟨0, ![]⟩ .f32 0x00000000#32)) i' := by
  rw [maximumf_apply, maximumf_apply, h]
  rfl

/-- The bias of a layer. The tile holds it as one row `[1, n]` broadcast over the tile's rows; the table broadcasts
    the vector `[n]` to one row and that row over all rows. Both read the bias at the column. -/
theorem bias_row {m M n : Nat} (b : FVec Ideal ⟨2, ![1, n]⟩ .f32) (b' : FVec Ideal ⟨1, ![n]⟩ .f32)
    (hb : (⟨2, ![1, n]⟩ : Shape).Broadcasts ⟨2, ![m, n]⟩)
    (hb1 : (⟨1, ![n]⟩ : Shape).BroadcastsInDim ⟨2, ![1, n]⟩ ![1])
    (hb2 : (⟨2, ![1, n]⟩ : Shape).BroadcastsInDim ⟨2, ![M, n]⟩ ![0, 1])
    (p : Fin m) (i : Fin M) (q : Fin n)
    (h : (b (ix2 (0 : Fin 1) q) : EReal) = b' (ix1 q)) :
    (broadcastTo ⟨2, ![m, n]⟩ b hb (ix2 p q) : EReal)
      = broadcastInDim ⟨2, ![M, n]⟩ ![0, 1] hb2 (broadcastInDim ⟨2, ![1, n]⟩ ![1] hb1 b') (ix2 i q) := by
  rw [broadcastTo_1b_ab_apply, h]
  symm
  rw [broadcastInDim_apply ![0, 1] hb2 _ (ix2 i q) (ix2 (0 : Fin 1) q) (fun ax => by
    match ax with
    | ⟨0, _⟩ => rfl
    | ⟨1, _⟩ =>
      show q.val = if n = 1 then 0 else q.val
      split
      · have := q.isLt; omega
      · rfl)]
  rw [broadcastInDim_apply ![1] hb1 _ (ix2 (0 : Fin 1) q) (ix1 q) (fun ax => by
    match ax with
    | ⟨0, _⟩ =>
      show q.val = if n = 1 then 0 else q.val
      split
      · have := q.isLt; omega
      · rfl)]

end Pieces

section Layer

/-- The row `[a, d]` of two pieces laid side by side. A column below the first piece's width reads the first piece,
    a column at or past it reads the second piece at the column less that width; so two concatenations whose pieces
    agree on a row agree on that row. -/
theorem concat_row {m M f g : Nat} (hg : g = f + f)
    (a d : FVec Ideal ⟨2, ![m, f]⟩ .f32) (a' d' : FVec Ideal ⟨2, ![M, f]⟩ .f32)
    (hc : Shape.Concatenates [(⟨2, ![m, f]⟩ : Shape), ⟨2, ![m, f]⟩] ⟨2, ![m, g]⟩ 1)
    (hc' : Shape.Concatenates [(⟨2, ![M, f]⟩ : Shape), ⟨2, ![M, f]⟩] ⟨2, ![M, g]⟩ 1)
    (p : Fin m) (i : Fin M)
    (ha : ∀ k : Fin f, (a (ix2 p k) : EReal) = a' (ix2 i k)) (hd : ∀ k : Fin f, (d (ix2 p k) : EReal) = d' (ix2 i k))
    (c : Fin g) :
    (concatenate (⟨2, ![m, g]⟩ : Shape) 1 [⟨(⟨2, ![m, f]⟩ : Shape), a⟩, ⟨(⟨2, ![m, f]⟩ : Shape), d⟩] hc (ix2 p c) : EReal)
      = concatenate (⟨2, ![M, g]⟩ : Shape) 1 [⟨(⟨2, ![M, f]⟩ : Shape), a'⟩, ⟨(⟨2, ![M, f]⟩ : Shape), d'⟩] hc' (ix2 i c) := by
  by_cases hlt : c.val < f
  · rw [concatenate_pair_apply_left (t := ⟨2, ![m, g]⟩) (s₁ := ⟨2, ![m, f]⟩) (s₂ := ⟨2, ![m, f]⟩) (1 : Fin 2) a d hc (ix2 p c) rfl
        (ix2 p ⟨c.val, hlt⟩) (fun b => by match b with | ⟨0, _⟩ => rfl | ⟨1, _⟩ => rfl),
      concatenate_pair_apply_left (t := ⟨2, ![M, g]⟩) (s₁ := ⟨2, ![M, f]⟩) (s₂ := ⟨2, ![M, f]⟩) (1 : Fin 2) a' d' hc' (ix2 i c) rfl
        (ix2 i ⟨c.val, hlt⟩) (fun b => by match b with | ⟨0, _⟩ => rfl | ⟨1, _⟩ => rfl)]
    exact ha _
  · have h2 : c.val - f < f := by have := c.isLt; omega
    rw [concatenate_pair_apply_right (t := ⟨2, ![m, g]⟩) (s₁ := ⟨2, ![m, f]⟩) (s₂ := ⟨2, ![m, f]⟩) (1 : Fin 2) a d hc (ix2 p c) rfl rfl
        (ix2 p ⟨c.val - f, h2⟩) (fun b hb => by match b with | ⟨0, _⟩ => rfl | ⟨1, _⟩ => exact absurd rfl hb)
        (by show c.val - f + f = c.val; omega),
      concatenate_pair_apply_right (t := ⟨2, ![M, g]⟩) (s₁ := ⟨2, ![M, f]⟩) (s₂ := ⟨2, ![M, f]⟩) (1 : Fin 2) a' d' hc' (ix2 i c) rfl rfl
        (ix2 i ⟨c.val - f, h2⟩) (fun b hb => by match b with | ⟨0, _⟩ => rfl | ⟨1, _⟩ => exact absurd rfl hb)
        (by show c.val - f + f = c.val; omega)]
    exact hd _

/-- One affine layer at one row. The tile's rows times the weights into a zero accumulator plus the bias row, against
    the table's rows times the same weights plus the same bias: if the tile's row `p` is the table's row `i` coordinate
    by coordinate, the two results agree at every column of that row. -/
theorem layer_row {m M k n : Nat} {φ₁ φ₂ ψ₁ ψ₂ : FTy}
    (D : DotDims ⟨2, ![m, k]⟩ ⟨2, ![k, n]⟩ ⟨2, ![m, n]⟩) (D' : DotDims ⟨2, ![M, k]⟩ ⟨2, ![k, n]⟩ ⟨2, ![M, n]⟩)
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (hD : D = plainDims wT) (hD' : D' = plainDims wX)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (b : FVec Ideal ⟨2, ![1, n]⟩ .f32) (b' : FVec Ideal ⟨1, ![n]⟩ .f32)
    (hb : (⟨2, ![1, n]⟩ : Shape).Broadcasts ⟨2, ![m, n]⟩)
    (hb1 : (⟨1, ![n]⟩ : Shape).BroadcastsInDim ⟨2, ![1, n]⟩ ![1])
    (hb2 : (⟨2, ![1, n]⟩ : Shape).BroadcastsInDim ⟨2, ![M, n]⟩ ![0, 1])
    (p : Fin m) (i : Fin M) (q : Fin n)
    (hT : ∀ c : Fin k, (T (ix2 p c) : EReal) = X (ix2 i c)) (hB : ∀ c : Fin k, (B (ix2 c q) : EReal) = B' (ix2 c q))
    (h : (b (ix2 (0 : Fin 1) q) : EReal) = b' (ix1 q)) :
    (addf (matmul (F := Ideal) D none T B (constant (F := Ideal) ⟨2, ![m, n]⟩ .f32 0x00000000#32))
        (broadcastTo ⟨2, ![m, n]⟩ b hb) (ix2 p q) : EReal)
      = addf (Host.dotGeneral (F := Ideal) D' none X B')
          (broadcastInDim ⟨2, ![M, n]⟩ ![0, 1] hb2 (broadcastInDim ⟨2, ![1, n]⟩ ![1] hb1 b')) (ix2 i q) := by
  subst hD hD'
  rw [addf_apply, addf_apply, matmul_tile_eq_dotGeneral wT wX none none T B X B' p q i hT hB,
    bias_row b b' hb hb1 hb2 p i q h]

end Layer

/-! ## The two edge networks at one row -/

/-- The first network: a tile row that is a table row, under the same weights and biases, gives the same result row. -/
theorem pay0_row
    (x0 x1 : Vec Ideal Cert.KernelIdeal.S10000x4 .f32) (x2 : Vec Ideal Cert.KernelIdeal.S8x32 .f32) (x3 : Vec Ideal Cert.KernelIdeal.S1x32 .f32)
    (x4 : Vec Ideal Cert.KernelIdeal.S32x32 .f32) (x5 : Vec Ideal Cert.KernelIdeal.S1x32 .f32) (x6 : Vec Ideal Cert.KernelIdeal.S32x2 .f32) (x7 : Vec Ideal Cert.KernelIdeal.S1x2 .f32)
    (xi xj : (⟨Cert.ReferenceIdeal.S3200000x4, .f32⟩ : BufTy).Contents (Elt Ideal)) (w1 : (⟨Cert.ReferenceIdeal.S8x32, .f32⟩ : BufTy).Contents (Elt Ideal))
    (b1 : (⟨Cert.ReferenceIdeal.S32, .f32⟩ : BufTy).Contents (Elt Ideal)) (w2 : (⟨Cert.ReferenceIdeal.S32x32, .f32⟩ : BufTy).Contents (Elt Ideal))
    (b2 : (⟨Cert.ReferenceIdeal.S32, .f32⟩ : BufTy).Contents (Elt Ideal)) (w3 : (⟨Cert.ReferenceIdeal.S32x2, .f32⟩ : BufTy).Contents (Elt Ideal))
    (b3 : (⟨Cert.ReferenceIdeal.S2, .f32⟩ : BufTy).Contents (Elt Ideal))
    (p : Fin 10000) (e : Fin 3200000)
    (h0 : ∀ k : Fin 4, x0 (ix2 p k) = xi (ix2 e k)) (h1 : ∀ k : Fin 4, x1 (ix2 p k) = xj (ix2 e k))
    (h2 : ∀ (a : Fin 8) (b : Fin 32), x2 (ix2 a b) = w1 (ix2 a b)) (h3 : ∀ k : Fin 32, x3 (ix2 (0 : Fin 1) k) = b1 (ix1 k))
    (h4 : ∀ (a : Fin 32) (b : Fin 32), x4 (ix2 a b) = w2 (ix2 a b)) (h5 : ∀ k : Fin 32, x5 (ix2 (0 : Fin 1) k) = b2 (ix1 k))
    (h6 : ∀ (a : Fin 32) (b : Fin 2), x6 (ix2 a b) = w3 (ix2 a b)) (h7 : ∀ k : Fin 2, x7 (ix2 (0 : Fin 1) k) = b3 (ix1 k))
    (q : Fin 2) :
    Cert.KernelIdeal.Gen.k0_pay1 (F := Ideal) x0 x1 x2 x3 x4 x5 x6 x7 (ix2 p q)
      = Cert.ReferenceIdeal.Hand.mlp0 (F := Ideal) xi xj w1 b1 w2 b2 w3 b3 (ix2 e q) := by
  simp only [Cert.KernelIdeal.Gen.k0_pay1, Cert.ReferenceIdeal.Hand.mlp0]
  -- third layer and its maximum
  refine relu_row _ _ _ (ix2 p q) (ix2 e q) ?_
  refine layer_row _ _ _ _ rfl rfl _ _ _ _ _ _ _ _ _ p e q (fun c => ?_) (fun c => h6 c q)
    ((congrFun (shapeCast_self x7 _) _).trans (h7 q))
  -- second layer and its maximum
  refine (truncf_apply (φ := .f32) (ψ := .bf16) _ _ _).trans ?_
  refine relu_row _ _ _ (ix2 p c) (ix2 e c) ?_
  refine layer_row _ _ _ _ rfl rfl _ _ _ _ _ _ _ _ _ p e c (fun c' => ?_) (fun c' => h4 c' c)
    ((congrFun (shapeCast_self x5 _) _).trans (h5 c))
  -- first layer and its maximum
  refine (truncf_apply (φ := .f32) (ψ := .bf16) _ _ _).trans ?_
  refine relu_row _ _ _ (ix2 p c') (ix2 e c') ?_
  refine layer_row _ _ _ _ rfl rfl _ _ _ _ _ _ _ _ _ p e c' (fun c'' => ?_) (fun c'' => h2 c'' c')
    ((congrFun (shapeCast_self x3 _) _).trans (h3 c'))
  -- the row [x0, x1 - x0]
  refine (truncf_apply (φ := .f32) (ψ := .bf16) _ _ _).trans ?_
  refine concat_row (f := 4) rfl _ _ _ _ _ _ p e (fun k => ?_) (fun k => ?_) c''
  · rw [shapeCast_self]; exact h0 k
  · rw [subf_apply, subf_apply, shapeCast_self, shapeCast_self, h0 k, h1 k]

/-- The second network, the same with its own widths and no maximum after the last layer. -/
theorem pay1_row
    (x0 x1 : Vec Ideal Cert.KernelIdeal.S10000x2 .f32) (x2 : Vec Ideal Cert.KernelIdeal.S4x32 .f32) (x3 : Vec Ideal Cert.KernelIdeal.S1x32 .f32)
    (x4 : Vec Ideal Cert.KernelIdeal.S32x32 .f32) (x5 : Vec Ideal Cert.KernelIdeal.S1x32 .f32) (x6 : Vec Ideal Cert.KernelIdeal.S32x4 .f32) (x7 : Vec Ideal Cert.KernelIdeal.S1x4 .f32)
    (xi xj : (⟨Cert.ReferenceIdeal.S3200000x2, .f32⟩ : BufTy).Contents (Elt Ideal)) (w1 : (⟨Cert.ReferenceIdeal.S4x32, .f32⟩ : BufTy).Contents (Elt Ideal))
    (b1 : (⟨Cert.ReferenceIdeal.S32, .f32⟩ : BufTy).Contents (Elt Ideal)) (w2 : (⟨Cert.ReferenceIdeal.S32x32, .f32⟩ : BufTy).Contents (Elt Ideal))
    (b2 : (⟨Cert.ReferenceIdeal.S32, .f32⟩ : BufTy).Contents (Elt Ideal)) (w3 : (⟨Cert.ReferenceIdeal.S32x4, .f32⟩ : BufTy).Contents (Elt Ideal))
    (b3 : (⟨Cert.ReferenceIdeal.S4, .f32⟩ : BufTy).Contents (Elt Ideal))
    (p : Fin 10000) (e : Fin 3200000)
    (h0 : ∀ k : Fin 2, x0 (ix2 p k) = xi (ix2 e k)) (h1 : ∀ k : Fin 2, x1 (ix2 p k) = xj (ix2 e k))
    (h2 : ∀ (a : Fin 4) (b : Fin 32), x2 (ix2 a b) = w1 (ix2 a b)) (h3 : ∀ k : Fin 32, x3 (ix2 (0 : Fin 1) k) = b1 (ix1 k))
    (h4 : ∀ (a : Fin 32) (b : Fin 32), x4 (ix2 a b) = w2 (ix2 a b)) (h5 : ∀ k : Fin 32, x5 (ix2 (0 : Fin 1) k) = b2 (ix1 k))
    (h6 : ∀ (a : Fin 32) (b : Fin 4), x6 (ix2 a b) = w3 (ix2 a b)) (h7 : ∀ k : Fin 4, x7 (ix2 (0 : Fin 1) k) = b3 (ix1 k))
    (q : Fin 4) :
    Cert.KernelIdeal.Gen.k1_pay1 (F := Ideal) x0 x1 x2 x3 x4 x5 x6 x7 (ix2 p q)
      = Cert.ReferenceIdeal.Hand.mlp1 (F := Ideal) xi xj w1 b1 w2 b2 w3 b3 (ix2 e q) := by
  simp only [Cert.KernelIdeal.Gen.k1_pay1, Cert.ReferenceIdeal.Hand.mlp1]
  -- third layer, no maximum after it
  refine layer_row _ _ _ _ rfl rfl _ _ _ _ _ _ _ _ _ p e q (fun c => ?_) (fun c => h6 c q)
    ((congrFun (shapeCast_self x7 _) _).trans (h7 q))
  -- second layer and its maximum
  refine (truncf_apply (φ := .f32) (ψ := .bf16) _ _ _).trans ?_
  refine relu_row _ _ _ (ix2 p c) (ix2 e c) ?_
  refine layer_row _ _ _ _ rfl rfl _ _ _ _ _ _ _ _ _ p e c (fun c' => ?_) (fun c' => h4 c' c)
    ((congrFun (shapeCast_self x5 _) _).trans (h5 c))
  -- first layer and its maximum
  refine (truncf_apply (φ := .f32) (ψ := .bf16) _ _ _).trans ?_
  refine relu_row _ _ _ (ix2 p c') (ix2 e c') ?_
  refine layer_row _ _ _ _ rfl rfl _ _ _ _ _ _ _ _ _ p e c' (fun c'' => ?_) (fun c'' => h2 c'' c')
    ((congrFun (shapeCast_self x3 _) _).trans (h3 c'))
  -- the row [x0, x1 - x0]
  refine (truncf_apply (φ := .f32) (ψ := .bf16) _ _ _).trans ?_
  refine concat_row (f := 2) rfl _ _ _ _ _ _ p e (fun k => ?_) (fun k => ?_) c''
  · rw [shapeCast_self]; exact h0 k
  · rw [subf_apply, subf_apply, shapeCast_self, shapeCast_self, h0 k, h1 k]

end Cert.Payload

end
-- ==== Proof.RegionValue.lean ====
/-
  From blocks to the array, for the two edge networks the kernel program runs tile by tile.
  Each network's grid has 320 points; point `t` reads rows `t * 10000 … t * 10000 + 9999` of the gathered target
  rows and source rows, reads the weight tables and bias rows whole, and writes back the same rows of the output
  array. One row of a tile's result is the host network's row for the same edge (`Cert.Payload.pay0_row`, `Cert.Payload.pay1_row`), so what a
  point writes back is block `t` of the host network applied to the whole input arrays; the 320 row blocks tile
  the output array, so the array the region leaves is that network's result.
-/
import proofs.«152291_j60387240181866_2_alg».proof.Proof.Gen.KernelIdeal.Frame
import proofs.«152291_j60387240181866_2_alg».proof.Proof.MlpSpec
import proofs.«152291_j60387240181866_2_alg».proof.Proof.PayloadValue
import Idealize.ShloMosaic.Lib.Pipeline.Value
import Idealize.ShloMosaic.Lib.ValueIdx

noncomputable section

namespace Cert.Region

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-buffer rectangle. -/
theorem hz : (![0, 0] : Fin 2 → Nat) = fun _ => 0 := funext fun a => by fin_cases a <;> rfl

/-! ## The first edge network (rows of 4 + 4 features to 2) -/

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

theorem idx_facts0w : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

section R0
variable (V : (c : Dev nD) → (b : Ref sig .tc) → Buf (Elt Ideal) ((c : Thread nD τ).loc b)) (c : Dev nD)

theorem iblk0_0_apply (t : Fin cfg0.N) (p : Fin 10000) (k : Fin 4) (h : t.val * 10000 + p.val < 3200000) :
    (iblk0 V c 0 t : Vec Ideal S10000x4 .f32) (ix2 p k) = (V c main_v29 : S3200000x4.Idx → Elt Ideal .f32) (ix2 ⟨t.val * 10000 + p.val, h⟩ k) := by
  obtain ⟨e0, e1, -⟩ := idx_facts0 t
  unfold iblk0
  rw [View.read_apply]
  show V c main_v29 _ = V c main_v29 _
  congr 1
  funext a
  apply Fin.ext
  match a with
  | ⟨0, _⟩ => show win0_0.index t 0 * 10000 + 1 * p.val = t.val * 10000 + p.val; rw [e0]; omega
  | ⟨1, _⟩ => show win0_0.index t 1 * 4 + 1 * k.val = k.val; rw [e1]; omega

theorem iblk0_1_apply (t : Fin cfg0.N) (p : Fin 10000) (k : Fin 4) (h : t.val * 10000 + p.val < 3200000) :
    (iblk0 V c 1 t : Vec Ideal S10000x4 .f32) (ix2 p k) = (V c main_v36 : S3200000x4.Idx → Elt Ideal .f32) (ix2 ⟨t.val * 10000 + p.val, h⟩ k) := by
  obtain ⟨-, -, e0, e1, -⟩ := idx_facts0 t
  unfold iblk0
  rw [View.read_apply]
  show V c main_v36 _ = V c main_v36 _
  congr 1
  funext a
  apply Fin.ext
  match a with
  | ⟨0, _⟩ => show win0_1.index t 0 * 10000 + 1 * p.val = t.val * 10000 + p.val; rw [e0]; omega
  | ⟨1, _⟩ => show win0_1.index t 1 * 4 + 1 * k.val = k.val; rw [e1]; omega

theorem iblk0_2_apply (t : Fin cfg0.N) (a : Fin 8) (b : Fin 32) :
    (iblk0 V c 2 t : Vec Ideal S8x32 .f32) (ix2 a b) = (V c main_arg4 : S8x32.Idx → Elt Ideal .f32) (ix2 a b) := by
  obtain ⟨e0, e1, -⟩ := idx_facts0w t
  unfold iblk0
  rw [View.read_apply]
  show V c main_arg4 _ = V c main_arg4 _
  congr 1
  funext d
  apply Fin.ext
  match d with
  | ⟨0, _⟩ => show win0_2.index t 0 * 8 + 1 * a.val = a.val; rw [e0]; omega
  | ⟨1, _⟩ => show win0_2.index t 1 * 32 + 1 * b.val = b.val; rw [e1]; omega

theorem iblk0_3_apply (t : Fin cfg0.N) (a : Fin 1) (b : Fin 32) :
    (iblk0 V c 3 t : Vec Ideal S1x32 .f32) (ix2 a b) = (V c main_v37 : S1x32.Idx → Elt Ideal .f32) (ix2 a b) := by
  obtain ⟨-, -, e0, e1, -⟩ := idx_facts0w t
  unfold iblk0
  rw [View.read_apply]
  show V c main_v37 _ = V c main_v37 _
  congr 1
  funext d
  apply Fin.ext
  match d with
  | ⟨0, _⟩ => show win0_3.index t 0 * 1 + 1 * a.val = a.val; rw [e0]; omega
  | ⟨1, _⟩ => show win0_3.index t 1 * 32 + 1 * b.val = b.val; rw [e1]; omega

theorem iblk0_4_apply (t : Fin cfg0.N) (a : Fin 32) (b : Fin 32) :
    (iblk0 V c 4 t : Vec Ideal S32x32 .f32) (ix2 a b) = (V c main_arg6 : S32x32.Idx → Elt Ideal .f32) (ix2 a b) := by
  obtain ⟨-, -, -, -, e0, e1, -⟩ := idx_facts0w t
  unfold iblk0
  rw [View.read_apply]
  show V c main_arg6 _ = V c main_arg6 _
  congr 1
  funext d
  apply Fin.ext
  match d with
  | ⟨0, _⟩ => show win0_4.index t 0 * 32 + 1 * a.val = a.val; rw [e0]; omega
  | ⟨1, _⟩ => show win0_4.index t 1 * 32 + 1 * b.val = b.val; rw [e1]; omega

theorem iblk0_5_apply (t : Fin cfg0.N) (a : Fin 1) (b : Fin 32) :
    (iblk0 V c 5 t : Vec Ideal S1x32 .f32) (ix2 a b) = (V c main_v38 : S1x32.Idx → Elt Ideal .f32) (ix2 a b) := by
  obtain ⟨-, -, -, -, -, -, e0, e1, -⟩ := idx_facts0w t
  unfold iblk0
  rw [View.read_apply]
  show V c main_v38 _ = V c main_v38 _
  congr 1
  funext d
  apply Fin.ext
  match d with
  | ⟨0, _⟩ => show win0_5.index t 0 * 1 + 1 * a.val = a.val; rw [e0]; omega
  | ⟨1, _⟩ => show win0_5.index t 1 * 32 + 1 * b.val = b.val; rw [e1]; omega

theorem iblk0_6_apply (t : Fin cfg0.N) (a : Fin 32) (b : Fin 2) :
    (iblk0 V c 6 t : Vec Ideal S32x2 .f32) (ix2 a b) = (V c main_arg8 : S32x2.Idx → Elt Ideal .f32) (ix2 a b) := by
  obtain ⟨-, -, -, -, -, -, -, -, e0, e1, -⟩ := idx_facts0w t
  unfold iblk0
  rw [View.read_apply]
  show V c main_arg8 _ = V c main_arg8 _
  congr 1
  funext d
  apply Fin.ext
  match d with
  | ⟨0, _⟩ => show win0_6.index t 0 * 32 + 1 * a.val = a.val; rw [e0]; omega
  | ⟨1, _⟩ => show win0_6.index t 1 * 2 + 1 * b.val = b.val; rw [e1]; omega

theorem iblk0_7_apply (t : Fin cfg0.N) (a : Fin 1) (b : Fin 2) :
    (iblk0 V c 7 t : Vec Ideal S1x2 .f32) (ix2 a b) = (V c main_v39 : S1x2.Idx → Elt Ideal .f32) (ix2 a b) := by
  obtain ⟨-, -, -, -, -, -, -, -, -, -, e0, e1⟩ := idx_facts0w t
  unfold iblk0
  rw [View.read_apply]
  show V c main_v39 _ = V c main_v39 _
  congr 1
  funext d
  apply Fin.ext
  match d with
  | ⟨0, _⟩ => show win0_7.index t 0 * 1 + 1 * a.val = a.val; rw [e0]; omega
  | ⟨1, _⟩ => show win0_7.index t 1 * 2 + 1 * b.val = b.val; rw [e1]; omega

/-- The output block's index inside the array: row block `t`, row `p` of the block is row `t * 10000 + p`. -/
theorem emb0_8 (t : Fin cfg0.N) (p : Fin 10000) (q : Fin 2) (h : t.val * 10000 + p.val < 3200000) :
    ((cfg0.win 8).blk t).view.emb (ix2 p q) = (ix2 ⟨t.val * 10000 + p.val, h⟩ q : S3200000x2.Idx) := by
  obtain ⟨-, -, -, -, e0, e1⟩ := idx_facts0 t
  funext a
  apply Fin.ext
  match a with
  | ⟨0, _⟩ => show win0_8.index t 0 * 10000 + 1 * p.val = t.val * 10000 + p.val; rw [e0]; omega
  | ⟨1, _⟩ => show win0_8.index t 1 * 2 + 1 * q.val = q.val; rw [e1]; omega

/-- The output window is never cut: what is written back is the staging buffer's contents. -/
theorem cut0_8 (t : Fin cfg0.N) (X : Vec Ideal S10000x2 .f32) :
    (cfg0.win 8).cut (grid0.coords t) X = X := rfl

/-- What point `t` writes back is block `t` of the host network applied to the whole input arrays. -/
theorem flushed0_eq (xi xj : (⟨Cert.ReferenceIdeal.S3200000x4, .f32⟩ : BufTy).Contents (Elt Ideal)) (w1 : (⟨Cert.ReferenceIdeal.S8x32, .f32⟩ : BufTy).Contents (Elt Ideal)) (b1 : (⟨Cert.ReferenceIdeal.S32, .f32⟩ : BufTy).Contents (Elt Ideal))
    (w2 : (⟨Cert.ReferenceIdeal.S32x32, .f32⟩ : BufTy).Contents (Elt Ideal)) (b2 : (⟨Cert.ReferenceIdeal.S32, .f32⟩ : BufTy).Contents (Elt Ideal)) (w3 : (⟨Cert.ReferenceIdeal.S32x2, .f32⟩ : BufTy).Contents (Elt Ideal)) (b3 : (⟨Cert.ReferenceIdeal.S2, .f32⟩ : BufTy).Contents (Elt Ideal))
    (hxi : V c main_v29 = xi) (hxj : V c main_v36 = xj) (hw1 : V c main_arg4 = w1)
    (hb1 : ∀ k : Fin 32, V c main_v37 (ix2 (0 : Fin 1) k) = b1 (ix1 k))
    (hw2 : V c main_arg6 = w2) (hb2 : ∀ k : Fin 32, V c main_v38 (ix2 (0 : Fin 1) k) = b2 (ix1 k))
    (hw3 : V c main_arg8 = w3) (hb3 : ∀ k : Fin 2, V c main_v39 (ix2 (0 : Fin 1) k) = b3 (ix1 k)) (t : Fin cfg0.N) :
    (dat0 (F := Ideal) V c).flushed 8 t
      = ((cfg0.win 8).blk t).view.read (Elt Ideal) (Cert.ReferenceIdeal.Hand.mlp0 (F := Ideal) xi xj w1 b1 w2 b2 w3 b3) := by
  have ht : t.val < 320 := lt_of_lt_of_eq t.isLt N_0
  show (cfg0.win 8).cut (grid0.coords t) ((dat0 V c).after 8 t) = _
  rw [after0_8, cut0_8]
  unfold out0_8
  rw [View.canon_unit_zero hz]
  simp only [View.ld_unit_zero (S := S10000x4) hz, View.ld_unit_zero (S := S8x32) hz, View.ld_unit_zero (S := S1x32) hz, View.ld_unit_zero (S := S32x32) hz, View.ld_unit_zero (S := S32x2) hz, View.ld_unit_zero (S := S1x2) hz]
  funext y
  obtain ⟨p, q, rfl⟩ : ∃ (p : Fin 10000) (q : Fin 2), y = ix2 p q := ⟨y 0, y 1, eq_ix2 y⟩
  have hlt : t.val * 10000 + p.val < 3200000 := by have := p.isLt; omega
  rw [View.read_apply, emb0_8 t p q hlt]
  refine Cert.Payload.pay0_row _ _ _ _ _ _ _ _ xi xj w1 b1 w2 b2 w3 b3 p ⟨t.val * 10000 + p.val, hlt⟩ ?_ ?_ ?_ ?_ ?_ ?_ ?_ ?_ q
  · intro k; rw [iblk0_0_apply V c t p k hlt, hxi]
  · intro k; rw [iblk0_1_apply V c t p k hlt, hxj]
  · intro a b; rw [iblk0_2_apply V c t a b, hw1]
  · intro k; rw [iblk0_3_apply V c t 0 k]; exact hb1 k
  · intro a b; rw [iblk0_4_apply V c t a b, hw2]
  · intro k; rw [iblk0_5_apply V c t 0 k]; exact hb2 k
  · intro a b; rw [iblk0_6_apply V c t a b, hw3]
  · intro k; rw [iblk0_7_apply V c t 0 k]; exact hb3 k

end R0

/-- An index of the output array is in point `t`'s block iff each coordinate is in the block's range on its axis. -/
theorem mem_blk0_8 (t : Fin cfg0.N) (i : S3200000x2.Idx) :
    i ∈ ((cfg0.win 8).blk t).view.set ↔ ∀ a : Fin 2, win0_8.index t a * S10000x2.size a ≤ (i a).val ∧ (i a).val < win0_8.index t a * S10000x2.size a + S10000x2.size a := by
  show i ∈ ((View.whole main_v40).slice (win0_8.rect t)).set ↔ _
  rw [View.set_slice_whole, Rect.mem_set_unit]
  exact Iff.rfl

/-- The row blocks tile the output array: row `r` is in the block of point `r / 10000`. -/
theorem covered0 (i : S3200000x2.Idx) :
    ∃ t : Fin cfg0.N, (cfg0.win 8).flush t = true ∧ i ∈ ((cfg0.win 8).blk t).view.set := by
  have hi0 : (i 0).val < 3200000 := (i 0).isLt
  have hi1 : (i 1).val < 2 := (i 1).isLt
  have hN : (i 0).val / 10000 < cfg0.N := lt_of_lt_of_eq (by omega : (i 0).val / 10000 < 320) N_0.symm
  refine ⟨⟨(i 0).val / 10000, hN⟩, flush0_8 _, ?_⟩
  rw [mem_blk0_8]
  obtain ⟨-, -, -, -, e0, e1⟩ := idx_facts0 ⟨(i 0).val / 10000, hN⟩
  intro a
  match a with
  | ⟨0, _⟩ =>
    show win0_8.index ⟨(i 0).val / 10000, hN⟩ (0 : Fin 2) * 10000 ≤ (i 0).val ∧ (i 0).val < win0_8.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_8.index ⟨(i 0).val / 10000, hN⟩ (1 : Fin 2) * 2 ≤ (i 1).val ∧ (i 1).val < win0_8.index ⟨(i 0).val / 10000, hN⟩ (1 : Fin 2) * 2 + 2
    rw [e1]; omega

/-- THE ARRAY the region leaves in its output window: the host network applied to the region's input arrays. -/
theorem value0 (V : (c : Dev nD) → (b : Ref sig .tc) → Buf (Elt Ideal) ((c : Thread nD τ).loc b)) (c : Dev nD)
    (xi xj : (⟨Cert.ReferenceIdeal.S3200000x4, .f32⟩ : BufTy).Contents (Elt Ideal)) (w1 : (⟨Cert.ReferenceIdeal.S8x32, .f32⟩ : BufTy).Contents (Elt Ideal)) (b1 : (⟨Cert.ReferenceIdeal.S32, .f32⟩ : BufTy).Contents (Elt Ideal))
    (w2 : (⟨Cert.ReferenceIdeal.S32x32, .f32⟩ : BufTy).Contents (Elt Ideal)) (b2 : (⟨Cert.ReferenceIdeal.S32, .f32⟩ : BufTy).Contents (Elt Ideal)) (w3 : (⟨Cert.ReferenceIdeal.S32x2, .f32⟩ : BufTy).Contents (Elt Ideal)) (b3 : (⟨Cert.ReferenceIdeal.S2, .f32⟩ : BufTy).Contents (Elt Ideal))
    (hxi : V c main_v29 = xi) (hxj : V c main_v36 = xj) (hw1 : V c main_arg4 = w1)
    (hb1 : ∀ k : Fin 32, V c main_v37 (ix2 (0 : Fin 1) k) = b1 (ix1 k))
    (hw2 : V c main_arg6 = w2) (hb2 : ∀ k : Fin 32, V c main_v38 (ix2 (0 : Fin 1) k) = b2 (ix1 k))
    (hw3 : V c main_arg8 = w3) (hb3 : ∀ k : Fin 2, V c main_v39 (ix2 (0 : Fin 1) k) = b3 (ix1 k)) :
    (dat0 (F := Ideal) V c).arrAt 8 cfg0.N = Cert.ReferenceIdeal.Hand.mlp0 (F := Ideal) xi xj w1 b1 w2 b2 w3 b3 :=
  (dat0 (F := Ideal) V c).arrAt_eq_of_cover 8 (Cert.ReferenceIdeal.Hand.mlp0 (F := Ideal) xi xj w1 b1 w2 b2 w3 b3)
    (fun t _ => flushed0_eq V c xi xj w1 b1 w2 b2 w3 b3 hxi hxj hw1 hb1 hw2 hb2 hw3 hb3 t) covered0

/-! ## The second edge network (rows of 2 + 2 features to 4) -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

theorem idx_facts1w : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

section R1
variable (V : (c : Dev nD) → (b : Ref sig .tc) → Buf (Elt Ideal) ((c : Thread nD τ).loc b)) (c : Dev nD)

theorem iblk1_0_apply (t : Fin cfg1.N) (p : Fin 10000) (k : Fin 2) (h : t.val * 10000 + p.val < 3200000) :
    (iblk1 V c 0 t : Vec Ideal S10000x2 .f32) (ix2 p k) = (V c main_v59 : S3200000x2.Idx → Elt Ideal .f32) (ix2 ⟨t.val * 10000 + p.val, h⟩ k) := by
  obtain ⟨e0, e1, -⟩ := idx_facts1 t
  unfold iblk1
  rw [View.read_apply]
  show V c main_v59 _ = V c main_v59 _
  congr 1
  funext a
  apply Fin.ext
  match a with
  | ⟨0, _⟩ => show win1_0.index t 0 * 10000 + 1 * p.val = t.val * 10000 + p.val; rw [e0]; omega
  | ⟨1, _⟩ => show win1_0.index t 1 * 2 + 1 * k.val = k.val; rw [e1]; omega

theorem iblk1_1_apply (t : Fin cfg1.N) (p : Fin 10000) (k : Fin 2) (h : t.val * 10000 + p.val < 3200000) :
    (iblk1 V c 1 t : Vec Ideal S10000x2 .f32) (ix2 p k) = (V c main_v66 : S3200000x2.Idx → Elt Ideal .f32) (ix2 ⟨t.val * 10000 + p.val, h⟩ k) := by
  obtain ⟨-, -, e0, e1, -⟩ := idx_facts1 t
  unfold iblk1
  rw [View.read_apply]
  show V c main_v66 _ = V c main_v66 _
  congr 1
  funext a
  apply Fin.ext
  match a with
  | ⟨0, _⟩ => show win1_1.index t 0 * 10000 + 1 * p.val = t.val * 10000 + p.val; rw [e0]; omega
  | ⟨1, _⟩ => show win1_1.index t 1 * 2 + 1 * k.val = k.val; rw [e1]; omega

theorem iblk1_2_apply (t : Fin cfg1.N) (a : Fin 4) (b : Fin 32) :
    (iblk1 V c 2 t : Vec Ideal S4x32 .f32) (ix2 a b) = (V c main_arg10 : S4x32.Idx → Elt Ideal .f32) (ix2 a b) := by
  obtain ⟨e0, e1, -⟩ := idx_facts1w t
  unfold iblk1
  rw [View.read_apply]
  show V c main_arg10 _ = V c main_arg10 _
  congr 1
  funext d
  apply Fin.ext
  match d with
  | ⟨0, _⟩ => show win1_2.index t 0 * 4 + 1 * a.val = a.val; rw [e0]; omega
  | ⟨1, _⟩ => show win1_2.index t 1 * 32 + 1 * b.val = b.val; rw [e1]; omega

theorem iblk1_3_apply (t : Fin cfg1.N) (a : Fin 1) (b : Fin 32) :
    (iblk1 V c 3 t : Vec Ideal S1x32 .f32) (ix2 a b) = (V c main_v67 : S1x32.Idx → Elt Ideal .f32) (ix2 a b) := by
  obtain ⟨-, -, e0, e1, -⟩ := idx_facts1w t
  unfold iblk1
  rw [View.read_apply]
  show V c main_v67 _ = V c main_v67 _
  congr 1
  funext d
  apply Fin.ext
  match d with
  | ⟨0, _⟩ => show win1_3.index t 0 * 1 + 1 * a.val = a.val; rw [e0]; omega
  | ⟨1, _⟩ => show win1_3.index t 1 * 32 + 1 * b.val = b.val; rw [e1]; omega

theorem iblk1_4_apply (t : Fin cfg1.N) (a : Fin 32) (b : Fin 32) :
    (iblk1 V c 4 t : Vec Ideal S32x32 .f32) (ix2 a b) = (V c main_arg12 : S32x32.Idx → Elt Ideal .f32) (ix2 a b) := by
  obtain ⟨-, -, -, -, e0, e1, -⟩ := idx_facts1w t
  unfold iblk1
  rw [View.read_apply]
  show V c main_arg12 _ = V c main_arg12 _
  congr 1
  funext d
  apply Fin.ext
  match d with
  | ⟨0, _⟩ => show win1_4.index t 0 * 32 + 1 * a.val = a.val; rw [e0]; omega
  | ⟨1, _⟩ => show win1_4.index t 1 * 32 + 1 * b.val = b.val; rw [e1]; omega

theorem iblk1_5_apply (t : Fin cfg1.N) (a : Fin 1) (b : Fin 32) :
    (iblk1 V c 5 t : Vec Ideal S1x32 .f32) (ix2 a b) = (V c main_v68 : S1x32.Idx → Elt Ideal .f32) (ix2 a b) := by
  obtain ⟨-, -, -, -, -, -, e0, e1, -⟩ := idx_facts1w t
  unfold iblk1
  rw [View.read_apply]
  show V c main_v68 _ = V c main_v68 _
  congr 1
  funext d
  apply Fin.ext
  match d with
  | ⟨0, _⟩ => show win1_5.index t 0 * 1 + 1 * a.val = a.val; rw [e0]; omega
  | ⟨1, _⟩ => show win1_5.index t 1 * 32 + 1 * b.val = b.val; rw [e1]; omega

theorem iblk1_6_apply (t : Fin cfg1.N) (a : Fin 32) (b : Fin 4) :
    (iblk1 V c 6 t : Vec Ideal S32x4 .f32) (ix2 a b) = (V c main_arg14 : S32x4.Idx → Elt Ideal .f32) (ix2 a b) := by
  obtain ⟨-, -, -, -, -, -, -, -, e0, e1, -⟩ := idx_facts1w t
  unfold iblk1
  rw [View.read_apply]
  show V c main_arg14 _ = V c main_arg14 _
  congr 1
  funext d
  apply Fin.ext
  match d with
  | ⟨0, _⟩ => show win1_6.index t 0 * 32 + 1 * a.val = a.val; rw [e0]; omega
  | ⟨1, _⟩ => show win1_6.index t 1 * 4 + 1 * b.val = b.val; rw [e1]; omega

theorem iblk1_7_apply (t : Fin cfg1.N) (a : Fin 1) (b : Fin 4) :
    (iblk1 V c 7 t : Vec Ideal S1x4 .f32) (ix2 a b) = (V c main_v69 : S1x4.Idx → Elt Ideal .f32) (ix2 a b) := by
  obtain ⟨-, -, -, -, -, -, -, -, -, -, e0, e1⟩ := idx_facts1w t
  unfold iblk1
  rw [View.read_apply]
  show V c main_v69 _ = V c main_v69 _
  congr 1
  funext d
  apply Fin.ext
  match d with
  | ⟨0, _⟩ => show win1_7.index t 0 * 1 + 1 * a.val = a.val; rw [e0]; omega
  | ⟨1, _⟩ => show win1_7.index t 1 * 4 + 1 * b.val = b.val; rw [e1]; omega

/-- The output block's index inside the array: row block `t`, row `p` of the block is row `t * 10000 + p`. -/
theorem emb1_8 (t : Fin cfg1.N) (p : Fin 10000) (q : Fin 4) (h : t.val * 10000 + p.val < 3200000) :
    ((cfg1.win 8).blk t).view.emb (ix2 p q) = (ix2 ⟨t.val * 10000 + p.val, h⟩ q : S3200000x4.Idx) := by
  obtain ⟨-, -, -, -, e0, e1⟩ := idx_facts1 t
  funext a
  apply Fin.ext
  match a with
  | ⟨0, _⟩ => show win1_8.index t 0 * 10000 + 1 * p.val = t.val * 10000 + p.val; rw [e0]; omega
  | ⟨1, _⟩ => show win1_8.index t 1 * 4 + 1 * q.val = q.val; rw [e1]; omega

/-- The output window is never cut: what is written back is the staging buffer's contents. -/
theorem cut1_8 (t : Fin cfg1.N) (X : Vec Ideal S10000x4 .f32) :
    (cfg1.win 8).cut (grid1.coords t) X = X := rfl

/-- What point `t` writes back is block `t` of the host network applied to the whole input arrays. -/
theorem flushed1_eq (xi xj : (⟨Cert.ReferenceIdeal.S3200000x2, .f32⟩ : BufTy).Contents (Elt Ideal)) (w1 : (⟨Cert.ReferenceIdeal.S4x32, .f32⟩ : BufTy).Contents (Elt Ideal)) (b1 : (⟨Cert.ReferenceIdeal.S32, .f32⟩ : BufTy).Contents (Elt Ideal))
    (w2 : (⟨Cert.ReferenceIdeal.S32x32, .f32⟩ : BufTy).Contents (Elt Ideal)) (b2 : (⟨Cert.ReferenceIdeal.S32, .f32⟩ : BufTy).Contents (Elt Ideal)) (w3 : (⟨Cert.ReferenceIdeal.S32x4, .f32⟩ : BufTy).Contents (Elt Ideal)) (b3 : (⟨Cert.ReferenceIdeal.S4, .f32⟩ : BufTy).Contents (Elt Ideal))
    (hxi : V c main_v59 = xi) (hxj : V c main_v66 = xj) (hw1 : V c main_arg10 = w1)
    (hb1 : ∀ k : Fin 32, V c main_v67 (ix2 (0 : Fin 1) k) = b1 (ix1 k))
    (hw2 : V c main_arg12 = w2) (hb2 : ∀ k : Fin 32, V c main_v68 (ix2 (0 : Fin 1) k) = b2 (ix1 k))
    (hw3 : V c main_arg14 = w3) (hb3 : ∀ k : Fin 4, V c main_v69 (ix2 (0 : Fin 1) k) = b3 (ix1 k)) (t : Fin cfg1.N) :
    (dat1 (F := Ideal) V c).flushed 8 t
      = ((cfg1.win 8).blk t).view.read (Elt Ideal) (Cert.ReferenceIdeal.Hand.mlp1 (F := Ideal) xi xj w1 b1 w2 b2 w3 b3) := by
  have ht : t.val < 320 := lt_of_lt_of_eq t.isLt N_1
  show (cfg1.win 8).cut (grid1.coords t) ((dat1 V c).after 8 t) = _
  rw [after1_8, cut1_8]
  unfold out1_8
  rw [View.canon_unit_zero hz]
  simp only [View.ld_unit_zero (S := S10000x2) hz, View.ld_unit_zero (S := S4x32) hz, View.ld_unit_zero (S := S1x32) hz, View.ld_unit_zero (S := S32x32) hz, View.ld_unit_zero (S := S32x4) hz, View.ld_unit_zero (S := S1x4) hz]
  funext y
  obtain ⟨p, q, rfl⟩ : ∃ (p : Fin 10000) (q : Fin 4), y = ix2 p q := ⟨y 0, y 1, eq_ix2 y⟩
  have hlt : t.val * 10000 + p.val < 3200000 := by have := p.isLt; omega
  rw [View.read_apply, emb1_8 t p q hlt]
  refine Cert.Payload.pay1_row _ _ _ _ _ _ _ _ xi xj w1 b1 w2 b2 w3 b3 p ⟨t.val * 10000 + p.val, hlt⟩ ?_ ?_ ?_ ?_ ?_ ?_ ?_ ?_ q
  · intro k; rw [iblk1_0_apply V c t p k hlt, hxi]
  · intro k; rw [iblk1_1_apply V c t p k hlt, hxj]
  · intro a b; rw [iblk1_2_apply V c t a b, hw1]
  · intro k; rw [iblk1_3_apply V c t 0 k]; exact hb1 k
  · intro a b; rw [iblk1_4_apply V c t a b, hw2]
  · intro k; rw [iblk1_5_apply V c t 0 k]; exact hb2 k
  · intro a b; rw [iblk1_6_apply V c t a b, hw3]
  · intro k; rw [iblk1_7_apply V c t 0 k]; exact hb3 k

end R1

/-- An index of the output array is in point `t`'s block iff each coordinate is in the block's range on its axis. -/
theorem mem_blk1_8 (t : Fin cfg1.N) (i : S3200000x4.Idx) :
    i ∈ ((cfg1.win 8).blk t).view.set ↔ ∀ a : Fin 2, win1_8.index t a * S10000x4.size a ≤ (i a).val ∧ (i a).val < win1_8.index t a * S10000x4.size a + S10000x4.size a := by
  show i ∈ ((View.whole main_v70).slice (win1_8.rect t)).set ↔ _
  rw [View.set_slice_whole, Rect.mem_set_unit]
  exact Iff.rfl

/-- The row blocks tile the output array: row `r` is in the block of point `r / 10000`. -/
theorem covered1 (i : S3200000x4.Idx) :
    ∃ t : Fin cfg1.N, (cfg1.win 8).flush t = true ∧ i ∈ ((cfg1.win 8).blk t).view.set := by
  have hi0 : (i 0).val < 3200000 := (i 0).isLt
  have hi1 : (i 1).val < 4 := (i 1).isLt
  have hN : (i 0).val / 10000 < cfg1.N := lt_of_lt_of_eq (by omega : (i 0).val / 10000 < 320) N_1.symm
  refine ⟨⟨(i 0).val / 10000, hN⟩, flush1_8 _, ?_⟩
  rw [mem_blk1_8]
  obtain ⟨-, -, -, -, e0, e1⟩ := idx_facts1 ⟨(i 0).val / 10000, hN⟩
  intro a
  match a with
  | ⟨0, _⟩ =>
    show win1_8.index ⟨(i 0).val / 10000, hN⟩ (0 : Fin 2) * 10000 ≤ (i 0).val ∧ (i 0).val < win1_8.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_8.index ⟨(i 0).val / 10000, hN⟩ (1 : Fin 2) * 4 ≤ (i 1).val ∧ (i 1).val < win1_8.index ⟨(i 0).val / 10000, hN⟩ (1 : Fin 2) * 4 + 4
    rw [e1]; omega

/-- THE ARRAY the region leaves in its output window: the host network applied to the region's input arrays. -/
theorem value1 (V : (c : Dev nD) → (b : Ref sig .tc) → Buf (Elt Ideal) ((c : Thread nD τ).loc b)) (c : Dev nD)
    (xi xj : (⟨Cert.ReferenceIdeal.S3200000x2, .f32⟩ : BufTy).Contents (Elt Ideal)) (w1 : (⟨Cert.ReferenceIdeal.S4x32, .f32⟩ : BufTy).Contents (Elt Ideal)) (b1 : (⟨Cert.ReferenceIdeal.S32, .f32⟩ : BufTy).Contents (Elt Ideal))
    (w2 : (⟨Cert.ReferenceIdeal.S32x32, .f32⟩ : BufTy).Contents (Elt Ideal)) (b2 : (⟨Cert.ReferenceIdeal.S32, .f32⟩ : BufTy).Contents (Elt Ideal)) (w3 : (⟨Cert.ReferenceIdeal.S32x4, .f32⟩ : BufTy).Contents (Elt Ideal)) (b3 : (⟨Cert.ReferenceIdeal.S4, .f32⟩ : BufTy).Contents (Elt Ideal))
    (hxi : V c main_v59 = xi) (hxj : V c main_v66 = xj) (hw1 : V c main_arg10 = w1)
    (hb1 : ∀ k : Fin 32, V c main_v67 (ix2 (0 : Fin 1) k) = b1 (ix1 k))
    (hw2 : V c main_arg12 = w2) (hb2 : ∀ k : Fin 32, V c main_v68 (ix2 (0 : Fin 1) k) = b2 (ix1 k))
    (hw3 : V c main_arg14 = w3) (hb3 : ∀ k : Fin 4, V c main_v69 (ix2 (0 : Fin 1) k) = b3 (ix1 k)) :
    (dat1 (F := Ideal) V c).arrAt 8 cfg1.N = Cert.ReferenceIdeal.Hand.mlp1 (F := Ideal) xi xj w1 b1 w2 b2 w3 b3 :=
  (dat1 (F := Ideal) V c).arrAt_eq_of_cover 8 (Cert.ReferenceIdeal.Hand.mlp1 (F := Ideal) xi xj w1 b1 w2 b2 w3 b3)
    (fun t _ => flushed1_eq V c xi xj w1 b1 w2 b2 w3 b3 hxi hxj hw1 hb1 hw2 hb2 hw3 hb3 t) covered1

end Cert.Region

end
-- ==== Proof.Assembly.lean ====
/-
  The two programs end with the same result. Outside the two Pallas regions both programs apply the same host
  operations (the batch normalisation and the two gathers; the scatter-add mean and the next two gathers; the last
  scatter-add mean), and inside each region the kernel computes, tile of rows by tile of rows, the network the
  reference computes with host operations on the whole edge table. So, stretch by stretch from launch memories that
  agree on the sixteen arguments, the two programs' buffer contents agree wherever the next stretch reads them.
-/
import proofs.«152291_j60387240181866_2_alg».proof.Proof.Gen.KernelIdeal.Frame
import proofs.«152291_j60387240181866_2_alg».proof.Proof.RefRun
import proofs.«152291_j60387240181866_2_alg».proof.Proof.HostBridge
import proofs.«152291_j60387240181866_2_alg».proof.Proof.RegionValue
import Idealize.ShloMosaic.Lib.ValueIdx

noncomputable section

open Idealize.ShloMosaic Idealize.ShloMosaic.TcCoe Idealize.SL.Sem Idealize.ShloMosaic.StableHlo Idealize.ShloMosaic.ValueIdx

namespace Cert.Assembly

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's contents after its five stretches, read at its result, are the kernel program's last boundary
    contents read at its result, from launch memories that agree on the sixteen arguments: the heads agree on the gathered
    rows and the index vectors, each region's array is the host network of the same inputs, and the middles and the tails
    are the same host operations. -/
theorem result_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    after Cert.ReferenceIdeal.Hand.opsE (after Cert.ReferenceIdeal.Hand.opsD (after Cert.ReferenceIdeal.Hand.opsC (after Cert.ReferenceIdeal.Hand.opsB (after Cert.ReferenceIdeal.Hand.opsA (launchContents m' c))))) (Proc.devRef .tc Cert.ReferenceIdeal.main_v107)
      = Cert.KernelIdeal.Gen.W7 m ρ c (Proc.devRef .tc Cert.KernelIdeal.main_v82) := by
  obtain ⟨a0, a1, a2, a3, a4, a5, a6, a7, a8, a9, a10, a11, a12, a13, a14, a15⟩ := hag
  -- the head
  have hA := Cert.Bridge.bridgeA (F := Ideal) (Cert.KernelIdeal.Gen.W0 m ρ c) (launchContents m' c) a0 a1 a2 a3
  obtain ⟨hA29, hA36, hA20, hA22⟩ := hA
  generalize hWa : after Cert.ReferenceIdeal.Hand.opsA (launchContents m' c) = Wa' at *
  have rA4 : Wa' (Proc.devRef .tc Cert.ReferenceIdeal.main_arg4) = m ((c.tc : Thread Cert.KernelIdeal.nD Cert.KernelIdeal.τ).loc Cert.KernelIdeal.main_arg4) := by rw [← hWa, Cert.ReferenceIdeal.Hand.keptA_arg4]; exact a4
  have rA5 : Wa' (Proc.devRef .tc Cert.ReferenceIdeal.main_arg5) = m ((c.tc : Thread Cert.KernelIdeal.nD Cert.KernelIdeal.τ).loc Cert.KernelIdeal.main_arg5) := by rw [← hWa, Cert.ReferenceIdeal.Hand.keptA_arg5]; exact a5
  have rA6 : Wa' (Proc.devRef .tc Cert.ReferenceIdeal.main_arg6) = m ((c.tc : Thread Cert.KernelIdeal.nD Cert.KernelIdeal.τ).loc Cert.KernelIdeal.main_arg6) := by rw [← hWa, Cert.ReferenceIdeal.Hand.keptA_arg6]; exact a6
  have rA7 : Wa' (Proc.devRef .tc Cert.ReferenceIdeal.main_arg7) = m ((c.tc : Thread Cert.KernelIdeal.nD Cert.KernelIdeal.τ).loc Cert.KernelIdeal.main_arg7) := by rw [← hWa, Cert.ReferenceIdeal.Hand.keptA_arg7]; exact a7
  have rA8 : Wa' (Proc.devRef .tc Cert.ReferenceIdeal.main_arg8) = m ((c.tc : Thread Cert.KernelIdeal.nD Cert.KernelIdeal.τ).loc Cert.KernelIdeal.main_arg8) := by rw [← hWa, Cert.ReferenceIdeal.Hand.keptA_arg8]; exact a8
  have rA9 : Wa' (Proc.devRef .tc Cert.ReferenceIdeal.main_arg9) = m ((c.tc : Thread Cert.KernelIdeal.nD Cert.KernelIdeal.τ).loc Cert.KernelIdeal.main_arg9) := by rw [← hWa, Cert.ReferenceIdeal.Hand.keptA_arg9]; exact a9
  have rA10 : Wa' (Proc.devRef .tc Cert.ReferenceIdeal.main_arg10) = m ((c.tc : Thread Cert.KernelIdeal.nD Cert.KernelIdeal.τ).loc Cert.KernelIdeal.main_arg10) := by rw [← hWa, Cert.ReferenceIdeal.Hand.keptA_arg10]; exact a10
  have rA11 : Wa' (Proc.devRef .tc Cert.ReferenceIdeal.main_arg11) = m ((c.tc : Thread Cert.KernelIdeal.nD Cert.KernelIdeal.τ).loc Cert.KernelIdeal.main_arg11) := by rw [← hWa, Cert.ReferenceIdeal.Hand.keptA_arg11]; exact a11
  have rA12 : Wa' (Proc.devRef .tc Cert.ReferenceIdeal.main_arg12) = m ((c.tc : Thread Cert.KernelIdeal.nD Cert.KernelIdeal.τ).loc Cert.KernelIdeal.main_arg12) := by rw [← hWa, Cert.ReferenceIdeal.Hand.keptA_arg12]; exact a12
  have rA13 : Wa' (Proc.devRef .tc Cert.ReferenceIdeal.main_arg13) = m ((c.tc : Thread Cert.KernelIdeal.nD Cert.KernelIdeal.τ).loc Cert.KernelIdeal.main_arg13) := by rw [← hWa, Cert.ReferenceIdeal.Hand.keptA_arg13]; exact a13
  have rA14 : Wa' (Proc.devRef .tc Cert.ReferenceIdeal.main_arg14) = m ((c.tc : Thread Cert.KernelIdeal.nD Cert.KernelIdeal.τ).loc Cert.KernelIdeal.main_arg14) := by rw [← hWa, Cert.ReferenceIdeal.Hand.keptA_arg14]; exact a14
  have rA15 : Wa' (Proc.devRef .tc Cert.ReferenceIdeal.main_arg15) = m ((c.tc : Thread Cert.KernelIdeal.nD Cert.KernelIdeal.τ).loc Cert.KernelIdeal.main_arg15) := by rw [← hWa, Cert.ReferenceIdeal.Hand.keptA_arg15]; exact a15
  have kH4 : Cert.KernelIdeal.Gen.W3 m ρ c (Proc.devRef .tc Cert.KernelIdeal.main_arg4) = m ((c.tc : Thread Cert.KernelIdeal.nD Cert.KernelIdeal.τ).loc Cert.KernelIdeal.main_arg4) := Cert.Bridge.keptH_arg4 (F := Ideal) (Cert.KernelIdeal.Gen.W0 m ρ c)
  have kH5 : Cert.KernelIdeal.Gen.W3 m ρ c (Proc.devRef .tc Cert.KernelIdeal.main_arg5) = m ((c.tc : Thread Cert.KernelIdeal.nD Cert.KernelIdeal.τ).loc Cert.KernelIdeal.main_arg5) := Cert.Bridge.keptH_arg5 (F := Ideal) (Cert.KernelIdeal.Gen.W0 m ρ c)
  have kH6 : Cert.KernelIdeal.Gen.W3 m ρ c (Proc.devRef .tc Cert.KernelIdeal.main_arg6) = m ((c.tc : Thread Cert.KernelIdeal.nD Cert.KernelIdeal.τ).loc Cert.KernelIdeal.main_arg6) := Cert.Bridge.keptH_arg6 (F := Ideal) (Cert.KernelIdeal.Gen.W0 m ρ c)
  have kH7 : Cert.KernelIdeal.Gen.W3 m ρ c (Proc.devRef .tc Cert.KernelIdeal.main_arg7) = m ((c.tc : Thread Cert.KernelIdeal.nD Cert.KernelIdeal.τ).loc Cert.KernelIdeal.main_arg7) := Cert.Bridge.keptH_arg7 (F := Ideal) (Cert.KernelIdeal.Gen.W0 m ρ c)
  have kH8 : Cert.KernelIdeal.Gen.W3 m ρ c (Proc.devRef .tc Cert.KernelIdeal.main_arg8) = m ((c.tc : Thread Cert.KernelIdeal.nD Cert.KernelIdeal.τ).loc Cert.KernelIdeal.main_arg8) := Cert.Bridge.keptH_arg8 (F := Ideal) (Cert.KernelIdeal.Gen.W0 m ρ c)
  have kH9 : Cert.KernelIdeal.Gen.W3 m ρ c (Proc.devRef .tc Cert.KernelIdeal.main_arg9) = m ((c.tc : Thread Cert.KernelIdeal.nD Cert.KernelIdeal.τ).loc Cert.KernelIdeal.main_arg9) := Cert.Bridge.keptH_arg9 (F := Ideal) (Cert.KernelIdeal.Gen.W0 m ρ c)
  have kH10 : Cert.KernelIdeal.Gen.W3 m ρ c (Proc.devRef .tc Cert.KernelIdeal.main_arg10) = m ((c.tc : Thread Cert.KernelIdeal.nD Cert.KernelIdeal.τ).loc Cert.KernelIdeal.main_arg10) := Cert.Bridge.keptH_arg10 (F := Ideal) (Cert.KernelIdeal.Gen.W0 m ρ c)
  have kH11 : Cert.KernelIdeal.Gen.W3 m ρ c (Proc.devRef .tc Cert.KernelIdeal.main_arg11) = m ((c.tc : Thread Cert.KernelIdeal.nD Cert.KernelIdeal.τ).loc Cert.KernelIdeal.main_arg11) := Cert.Bridge.keptH_arg11 (F := Ideal) (Cert.KernelIdeal.Gen.W0 m ρ c)
  have kH12 : Cert.KernelIdeal.Gen.W3 m ρ c (Proc.devRef .tc Cert.KernelIdeal.main_arg12) = m ((c.tc : Thread Cert.KernelIdeal.nD Cert.KernelIdeal.τ).loc Cert.KernelIdeal.main_arg12) := Cert.Bridge.keptH_arg12 (F := Ideal) (Cert.KernelIdeal.Gen.W0 m ρ c)
  have kH13 : Cert.KernelIdeal.Gen.W3 m ρ c (Proc.devRef .tc Cert.KernelIdeal.main_arg13) = m ((c.tc : Thread Cert.KernelIdeal.nD Cert.KernelIdeal.τ).loc Cert.KernelIdeal.main_arg13) := Cert.Bridge.keptH_arg13 (F := Ideal) (Cert.KernelIdeal.Gen.W0 m ρ c)
  have kH14 : Cert.KernelIdeal.Gen.W3 m ρ c (Proc.devRef .tc Cert.KernelIdeal.main_arg14) = m ((c.tc : Thread Cert.KernelIdeal.nD Cert.KernelIdeal.τ).loc Cert.KernelIdeal.main_arg14) := Cert.Bridge.keptH_arg14 (F := Ideal) (Cert.KernelIdeal.Gen.W0 m ρ c)
  have kH15 : Cert.KernelIdeal.Gen.W3 m ρ c (Proc.devRef .tc Cert.KernelIdeal.main_arg15) = m ((c.tc : Thread Cert.KernelIdeal.nD Cert.KernelIdeal.τ).loc Cert.KernelIdeal.main_arg15) := Cert.Bridge.keptH_arg15 (F := Ideal) (Cert.KernelIdeal.Gen.W0 m ρ c)
  -- the first region's array is the first network of the gathered rows
  have h40 : after Cert.ReferenceIdeal.Hand.opsB Wa' (Proc.devRef .tc Cert.ReferenceIdeal.main_v53) = Cert.KernelIdeal.Gen.W4 m ρ c (Proc.devRef .tc Cert.KernelIdeal.main_v40) := by
    rw [Cert.ReferenceIdeal.Hand.readB]
    refine ((Cert.KernelIdeal.Gen.W4_arr m ρ c 8).trans (Cert.Region.value0 (Cert.KernelIdeal.Gen.V3 m ρ) c _ _ _ _ _ _ _ _ ?_ ?_ ?_ ?_ ?_ ?_ ?_ ?_)).symm
    · exact hA29.symm
    · exact hA36.symm
    · exact kH4.trans rA4.symm
    · intro k; rw [rA5]; exact Cert.Bridge.bias0_1 (F := Ideal) (Cert.KernelIdeal.Gen.W0 m ρ c) k
    · exact kH6.trans rA6.symm
    · intro k; rw [rA7]; exact Cert.Bridge.bias0_2 (F := Ideal) (Cert.KernelIdeal.Gen.W0 m ρ c) k
    · exact kH8.trans rA8.symm
    · intro k; rw [rA9]; exact Cert.Bridge.bias0_3 (F := Ideal) (Cert.KernelIdeal.Gen.W0 m ρ c) k
  -- the index vectors and the later arguments pass the first network and the first region untouched
  have h22 : after Cert.ReferenceIdeal.Hand.opsB Wa' (Proc.devRef .tc Cert.ReferenceIdeal.main_v22) = Cert.KernelIdeal.Gen.W4 m ρ c (Proc.devRef .tc Cert.KernelIdeal.main_v22) :=
    (Cert.ReferenceIdeal.Hand.keptB_v22 Wa').trans (hA22.trans (Cert.KernelIdeal.Gen.W4_of_ne m ρ c Cert.KernelIdeal.main_v22 (by decide)).symm)
  have h20 : after Cert.ReferenceIdeal.Hand.opsB Wa' (Proc.devRef .tc Cert.ReferenceIdeal.main_v20) = Cert.KernelIdeal.Gen.W4 m ρ c (Proc.devRef .tc Cert.KernelIdeal.main_v20) :=
    (Cert.ReferenceIdeal.Hand.keptB_v20 Wa').trans (hA20.trans (Cert.KernelIdeal.Gen.W4_of_ne m ρ c Cert.KernelIdeal.main_v20 (by decide)).symm)
  have rB10 : after Cert.ReferenceIdeal.Hand.opsB Wa' (Proc.devRef .tc Cert.ReferenceIdeal.main_arg10) = m ((c.tc : Thread Cert.KernelIdeal.nD Cert.KernelIdeal.τ).loc Cert.KernelIdeal.main_arg10) := (Cert.ReferenceIdeal.Hand.keptB_arg10 Wa').trans rA10
  have rB11 : after Cert.ReferenceIdeal.Hand.opsB Wa' (Proc.devRef .tc Cert.ReferenceIdeal.main_arg11) = m ((c.tc : Thread Cert.KernelIdeal.nD Cert.KernelIdeal.τ).loc Cert.KernelIdeal.main_arg11) := (Cert.ReferenceIdeal.Hand.keptB_arg11 Wa').trans rA11
  have rB12 : after Cert.ReferenceIdeal.Hand.opsB Wa' (Proc.devRef .tc Cert.ReferenceIdeal.main_arg12) = m ((c.tc : Thread Cert.KernelIdeal.nD Cert.KernelIdeal.τ).loc Cert.KernelIdeal.main_arg12) := (Cert.ReferenceIdeal.Hand.keptB_arg12 Wa').trans rA12
  have rB13 : after Cert.ReferenceIdeal.Hand.opsB Wa' (Proc.devRef .tc Cert.ReferenceIdeal.main_arg13) = m ((c.tc : Thread Cert.KernelIdeal.nD Cert.KernelIdeal.τ).loc Cert.KernelIdeal.main_arg13) := (Cert.ReferenceIdeal.Hand.keptB_arg13 Wa').trans rA13
  have rB14 : after Cert.ReferenceIdeal.Hand.opsB Wa' (Proc.devRef .tc Cert.ReferenceIdeal.main_arg14) = m ((c.tc : Thread Cert.KernelIdeal.nD Cert.KernelIdeal.τ).loc Cert.KernelIdeal.main_arg14) := (Cert.ReferenceIdeal.Hand.keptB_arg14 Wa').trans rA14
  have rB15 : after Cert.ReferenceIdeal.Hand.opsB Wa' (Proc.devRef .tc Cert.ReferenceIdeal.main_arg15) = m ((c.tc : Thread Cert.KernelIdeal.nD Cert.KernelIdeal.τ).loc Cert.KernelIdeal.main_arg15) := (Cert.ReferenceIdeal.Hand.keptB_arg15 Wa').trans rA15
  have k4_10 : Cert.KernelIdeal.Gen.W4 m ρ c (Proc.devRef .tc Cert.KernelIdeal.main_arg10) = m ((c.tc : Thread Cert.KernelIdeal.nD Cert.KernelIdeal.τ).loc Cert.KernelIdeal.main_arg10) := (Cert.KernelIdeal.Gen.W4_of_ne m ρ c Cert.KernelIdeal.main_arg10 (by decide)).trans kH10
  have k4_11 : Cert.KernelIdeal.Gen.W4 m ρ c (Proc.devRef .tc Cert.KernelIdeal.main_arg11) = m ((c.tc : Thread Cert.KernelIdeal.nD Cert.KernelIdeal.τ).loc Cert.KernelIdeal.main_arg11) := (Cert.KernelIdeal.Gen.W4_of_ne m ρ c Cert.KernelIdeal.main_arg11 (by decide)).trans kH11
  have k4_12 : Cert.KernelIdeal.Gen.W4 m ρ c (Proc.devRef .tc Cert.KernelIdeal.main_arg12) = m ((c.tc : Thread Cert.KernelIdeal.nD Cert.KernelIdeal.τ).loc Cert.KernelIdeal.main_arg12) := (Cert.KernelIdeal.Gen.W4_of_ne m ρ c Cert.KernelIdeal.main_arg12 (by decide)).trans kH12
  have k4_13 : Cert.KernelIdeal.Gen.W4 m ρ c (Proc.devRef .tc Cert.KernelIdeal.main_arg13) = m ((c.tc : Thread Cert.KernelIdeal.nD Cert.KernelIdeal.τ).loc Cert.KernelIdeal.main_arg13) := (Cert.KernelIdeal.Gen.W4_of_ne m ρ c Cert.KernelIdeal.main_arg13 (by decide)).trans kH13
  have k4_14 : Cert.KernelIdeal.Gen.W4 m ρ c (Proc.devRef .tc Cert.KernelIdeal.main_arg14) = m ((c.tc : Thread Cert.KernelIdeal.nD Cert.KernelIdeal.τ).loc Cert.KernelIdeal.main_arg14) := (Cert.KernelIdeal.Gen.W4_of_ne m ρ c Cert.KernelIdeal.main_arg14 (by decide)).trans kH14
  have k4_15 : Cert.KernelIdeal.Gen.W4 m ρ c (Proc.devRef .tc Cert.KernelIdeal.main_arg15) = m ((c.tc : Thread Cert.KernelIdeal.nD Cert.KernelIdeal.τ).loc Cert.KernelIdeal.main_arg15) := (Cert.KernelIdeal.Gen.W4_of_ne m ρ c Cert.KernelIdeal.main_arg15 (by decide)).trans kH15
  generalize hWb : after Cert.ReferenceIdeal.Hand.opsB Wa' = Wb' at *
  -- the middle
  obtain ⟨hC72, hC79⟩ := Cert.Bridge.bridgeC (F := Ideal) (Cert.KernelIdeal.Gen.W4 m ρ c) Wb' h40 h22 h20
  have rC10 : after Cert.ReferenceIdeal.Hand.opsC Wb' (Proc.devRef .tc Cert.ReferenceIdeal.main_arg10) = m ((c.tc : Thread Cert.KernelIdeal.nD Cert.KernelIdeal.τ).loc Cert.KernelIdeal.main_arg10) := (Cert.ReferenceIdeal.Hand.keptC_arg10 Wb').trans rB10
  have rC11 : after Cert.ReferenceIdeal.Hand.opsC Wb' (Proc.devRef .tc Cert.ReferenceIdeal.main_arg11) = m ((c.tc : Thread Cert.KernelIdeal.nD Cert.KernelIdeal.τ).loc Cert.KernelIdeal.main_arg11) := (Cert.ReferenceIdeal.Hand.keptC_arg11 Wb').trans rB11
  have rC12 : after Cert.ReferenceIdeal.Hand.opsC Wb' (Proc.devRef .tc Cert.ReferenceIdeal.main_arg12) = m ((c.tc : Thread Cert.KernelIdeal.nD Cert.KernelIdeal.τ).loc Cert.KernelIdeal.main_arg12) := (Cert.ReferenceIdeal.Hand.keptC_arg12 Wb').trans rB12
  have rC13 : after Cert.ReferenceIdeal.Hand.opsC Wb' (Proc.devRef .tc Cert.ReferenceIdeal.main_arg13) = m ((c.tc : Thread Cert.KernelIdeal.nD Cert.KernelIdeal.τ).loc Cert.KernelIdeal.main_arg13) := (Cert.ReferenceIdeal.Hand.keptC_arg13 Wb').trans rB13
  have rC14 : after Cert.ReferenceIdeal.Hand.opsC Wb' (Proc.devRef .tc Cert.ReferenceIdeal.main_arg14) = m ((c.tc : Thread Cert.KernelIdeal.nD Cert.KernelIdeal.τ).loc Cert.KernelIdeal.main_arg14) := (Cert.ReferenceIdeal.Hand.keptC_arg14 Wb').trans rB14
  have rC15 : after Cert.ReferenceIdeal.Hand.opsC Wb' (Proc.devRef .tc Cert.ReferenceIdeal.main_arg15) = m ((c.tc : Thread Cert.KernelIdeal.nD Cert.KernelIdeal.τ).loc Cert.KernelIdeal.main_arg15) := (Cert.ReferenceIdeal.Hand.keptC_arg15 Wb').trans rB15
  have k5_10 : Cert.KernelIdeal.Gen.W5 m ρ c (Proc.devRef .tc Cert.KernelIdeal.main_arg10) = m ((c.tc : Thread Cert.KernelIdeal.nD Cert.KernelIdeal.τ).loc Cert.KernelIdeal.main_arg10) := (Cert.Bridge.kept1_arg10 (F := Ideal) (Cert.KernelIdeal.Gen.W4 m ρ c)).trans k4_10
  have k5_11 : Cert.KernelIdeal.Gen.W5 m ρ c (Proc.devRef .tc Cert.KernelIdeal.main_arg11) = m ((c.tc : Thread Cert.KernelIdeal.nD Cert.KernelIdeal.τ).loc Cert.KernelIdeal.main_arg11) := (Cert.Bridge.kept1_arg11 (F := Ideal) (Cert.KernelIdeal.Gen.W4 m ρ c)).trans k4_11
  have k5_12 : Cert.KernelIdeal.Gen.W5 m ρ c (Proc.devRef .tc Cert.KernelIdeal.main_arg12) = m ((c.tc : Thread Cert.KernelIdeal.nD Cert.KernelIdeal.τ).loc Cert.KernelIdeal.main_arg12) := (Cert.Bridge.kept1_arg12 (F := Ideal) (Cert.KernelIdeal.Gen.W4 m ρ c)).trans k4_12
  have k5_13 : Cert.KernelIdeal.Gen.W5 m ρ c (Proc.devRef .tc Cert.KernelIdeal.main_arg13) = m ((c.tc : Thread Cert.KernelIdeal.nD Cert.KernelIdeal.τ).loc Cert.KernelIdeal.main_arg13) := (Cert.Bridge.kept1_arg13 (F := Ideal) (Cert.KernelIdeal.Gen.W4 m ρ c)).trans k4_13
  have k5_14 : Cert.KernelIdeal.Gen.W5 m ρ c (Proc.devRef .tc Cert.KernelIdeal.main_arg14) = m ((c.tc : Thread Cert.KernelIdeal.nD Cert.KernelIdeal.τ).loc Cert.KernelIdeal.main_arg14) := (Cert.Bridge.kept1_arg14 (F := Ideal) (Cert.KernelIdeal.Gen.W4 m ρ c)).trans k4_14
  have k5_15 : Cert.KernelIdeal.Gen.W5 m ρ c (Proc.devRef .tc Cert.KernelIdeal.main_arg15) = m ((c.tc : Thread Cert.KernelIdeal.nD Cert.KernelIdeal.τ).loc Cert.KernelIdeal.main_arg15) := (Cert.Bridge.kept1_arg15 (F := Ideal) (Cert.KernelIdeal.Gen.W4 m ρ c)).trans k4_15
  have hC22 : after Cert.ReferenceIdeal.Hand.opsC Wb' (Proc.devRef .tc Cert.ReferenceIdeal.main_v22) = Cert.KernelIdeal.Gen.W5 m ρ c (Proc.devRef .tc Cert.KernelIdeal.main_v22) :=
    (Cert.ReferenceIdeal.Hand.keptC_v22 Wb').trans (h22.trans (Cert.Bridge.kept1_v22 (F := Ideal) (Cert.KernelIdeal.Gen.W4 m ρ c)).symm)
  generalize hWc : after Cert.ReferenceIdeal.Hand.opsC Wb' = Wc' at *
  -- the second region's array is the second network of the gathered means
  have h70 : after Cert.ReferenceIdeal.Hand.opsD Wc' (Proc.devRef .tc Cert.ReferenceIdeal.main_v95) = Cert.KernelIdeal.Gen.W6 m ρ c (Proc.devRef .tc Cert.KernelIdeal.main_v70) := by
    rw [Cert.ReferenceIdeal.Hand.readD]
    refine ((Cert.KernelIdeal.Gen.W6_arr m ρ c 8).trans (Cert.Region.value1 (Cert.KernelIdeal.Gen.V5 m ρ) c _ _ _ _ _ _ _ _ ?_ ?_ ?_ ?_ ?_ ?_ ?_ ?_)).symm
    · exact hC72.symm
    · exact hC79.symm
    · exact k5_10.trans rC10.symm
    · intro k; rw [rC11]; exact (Cert.Bridge.bias1_1 (F := Ideal) (Cert.KernelIdeal.Gen.W4 m ρ c) k).trans (congrFun k4_11 _)
    · exact k5_12.trans rC12.symm
    · intro k; rw [rC13]; exact (Cert.Bridge.bias1_2 (F := Ideal) (Cert.KernelIdeal.Gen.W4 m ρ c) k).trans (congrFun k4_13 _)
    · exact k5_14.trans rC14.symm
    · intro k; rw [rC15]; exact (Cert.Bridge.bias1_3 (F := Ideal) (Cert.KernelIdeal.Gen.W4 m ρ c) k).trans (congrFun k4_15 _)
  have hD22 : after Cert.ReferenceIdeal.Hand.opsD Wc' (Proc.devRef .tc Cert.ReferenceIdeal.main_v22) = Cert.KernelIdeal.Gen.W6 m ρ c (Proc.devRef .tc Cert.KernelIdeal.main_v22) :=
    (Cert.ReferenceIdeal.Hand.keptD_v22 Wc').trans (hC22.trans (Cert.KernelIdeal.Gen.W6_of_ne m ρ c Cert.KernelIdeal.main_v22 (by decide)).symm)
  -- the tail
  exact Cert.Bridge.bridgeE (F := Ideal) (Cert.KernelIdeal.Gen.W6 m ρ c) (after Cert.ReferenceIdeal.Hand.opsD Wc') h70 hD22

end Cert.Assembly

end
-- ==== Proof.lean ====
/-
  The certificate of the edge-convolution autoencoder kernel against its reference: `Cert.Claim`.
  Both programs batch-normalise the node features and then twice gather the rows of each edge's two end points, send
  `[xi, xj - xi]` through a three-layer network, and average the messages per target node. The kernel program runs each
  network as a Pallas region over 320 tiles of 10000 edges (its bf16 casts are the identity at the extended reals); the
  reference runs it with host operations on the whole edge table. The three frames are the generated frame certificates
  and the reference's run; nothing was rewritten by the ideal pass; and at the extended reals the two results are equal
  (`Cert.Assembly.result_eq`).
-/
import proofs.«152291_j60387240181866_2_alg».proof.Defs
import proofs.«152291_j60387240181866_2_alg».proof.Proof.Gen.Kernel
import proofs.«152291_j60387240181866_2_alg».proof.Proof.Gen.Kernel.Frame
import proofs.«152291_j60387240181866_2_alg».proof.Proof.Gen.KernelIdeal
import proofs.«152291_j60387240181866_2_alg».proof.Proof.Gen.KernelIdeal.Frame
import proofs.«152291_j60387240181866_2_alg».proof.Proof.Gen.ReferenceIdeal
import proofs.«152291_j60387240181866_2_alg».proof.Proof.Gen.Pre_finite_inputs
import proofs.«152291_j60387240181866_2_alg».proof.Proof.KRun
import proofs.«152291_j60387240181866_2_alg».proof.Proof.RefRun
import proofs.«152291_j60387240181866_2_alg».proof.Proof.Assembly
import Idealize.ShloMosaic.Adequacy
import Idealize.ShloMosaic.Init

noncomputable section

open Idealize.ShloMosaic Idealize.ShloMosaic.TcCoe Idealize.SL.Sem Idealize.ShloMosaic.StableHlo

namespace Cert.Proof.Claims

/-- The word-level kernel program's frame, and the idealized one's: the generated frame certificates. -/
theorem frame_p : Cert.frame_Kernel := fun m ρ _ => Cert.Kernel.Gen.frame m ρ
theorem frame_pi : Cert.frame_KernelIdeal := fun m ρ _ => Cert.KernelIdeal.Gen.frame m ρ

/-- The reference's frame: its run leaves every buffer at the fold of its operations over the launch contents, and no
    operation of its five stretches writes an argument. -/
theorem frame_ri : Cert.frame_ReferenceIdeal := fun m ρ _ =>
  (θ_run (Cert.ReferenceIdeal.defs (F := Ideal)) _ _).mono (fun r h c => by
    refine ⟨?_, ?_, ?_, ?_, ?_, ?_, ?_, ?_, ?_, ?_, ?_, ?_, ?_, ?_, ?_, ?_⟩
    · rw [h c Cert.ReferenceIdeal.main_arg0, Cert.ReferenceIdeal.Hand.after_ops, Cert.ReferenceIdeal.Hand.keptE_arg0, Cert.ReferenceIdeal.Hand.keptD_arg0, Cert.ReferenceIdeal.Hand.keptC_arg0, Cert.ReferenceIdeal.Hand.keptB_arg0, Cert.ReferenceIdeal.Hand.keptA_arg0]
    · rw [h c Cert.ReferenceIdeal.main_arg1, Cert.ReferenceIdeal.Hand.after_ops, Cert.ReferenceIdeal.Hand.keptE_arg1, Cert.ReferenceIdeal.Hand.keptD_arg1, Cert.ReferenceIdeal.Hand.keptC_arg1, Cert.ReferenceIdeal.Hand.keptB_arg1, Cert.ReferenceIdeal.Hand.keptA_arg1]
    · rw [h c Cert.ReferenceIdeal.main_arg2, Cert.ReferenceIdeal.Hand.after_ops, Cert.ReferenceIdeal.Hand.keptE_arg2, Cert.ReferenceIdeal.Hand.keptD_arg2, Cert.ReferenceIdeal.Hand.keptC_arg2, Cert.ReferenceIdeal.Hand.keptB_arg2, Cert.ReferenceIdeal.Hand.keptA_arg2]
    · rw [h c Cert.ReferenceIdeal.main_arg3, Cert.ReferenceIdeal.Hand.after_ops, Cert.ReferenceIdeal.Hand.keptE_arg3, Cert.ReferenceIdeal.Hand.keptD_arg3, Cert.ReferenceIdeal.Hand.keptC_arg3, Cert.ReferenceIdeal.Hand.keptB_arg3, Cert.ReferenceIdeal.Hand.keptA_arg3]
    · rw [h c Cert.ReferenceIdeal.main_arg4, Cert.ReferenceIdeal.Hand.after_ops, Cert.ReferenceIdeal.Hand.keptE_arg4, Cert.ReferenceIdeal.Hand.keptD_arg4, Cert.ReferenceIdeal.Hand.keptC_arg4, Cert.ReferenceIdeal.Hand.keptB_arg4, Cert.ReferenceIdeal.Hand.keptA_arg4]
    · rw [h c Cert.ReferenceIdeal.main_arg5, Cert.ReferenceIdeal.Hand.after_ops, Cert.ReferenceIdeal.Hand.keptE_arg5, Cert.ReferenceIdeal.Hand.keptD_arg5, Cert.ReferenceIdeal.Hand.keptC_arg5, Cert.ReferenceIdeal.Hand.keptB_arg5, Cert.ReferenceIdeal.Hand.keptA_arg5]
    · rw [h c Cert.ReferenceIdeal.main_arg6, Cert.ReferenceIdeal.Hand.after_ops, Cert.ReferenceIdeal.Hand.keptE_arg6, Cert.ReferenceIdeal.Hand.keptD_arg6, Cert.ReferenceIdeal.Hand.keptC_arg6, Cert.ReferenceIdeal.Hand.keptB_arg6, Cert.ReferenceIdeal.Hand.keptA_arg6]
    · rw [h c Cert.ReferenceIdeal.main_arg7, Cert.ReferenceIdeal.Hand.after_ops, Cert.ReferenceIdeal.Hand.keptE_arg7, Cert.ReferenceIdeal.Hand.keptD_arg7, Cert.ReferenceIdeal.Hand.keptC_arg7, Cert.ReferenceIdeal.Hand.keptB_arg7, Cert.ReferenceIdeal.Hand.keptA_arg7]
    · rw [h c Cert.ReferenceIdeal.main_arg8, Cert.ReferenceIdeal.Hand.after_ops, Cert.ReferenceIdeal.Hand.keptE_arg8, Cert.ReferenceIdeal.Hand.keptD_arg8, Cert.ReferenceIdeal.Hand.keptC_arg8, Cert.ReferenceIdeal.Hand.keptB_arg8, Cert.ReferenceIdeal.Hand.keptA_arg8]
    · rw [h c Cert.ReferenceIdeal.main_arg9, Cert.ReferenceIdeal.Hand.after_ops, Cert.ReferenceIdeal.Hand.keptE_arg9, Cert.ReferenceIdeal.Hand.keptD_arg9, Cert.ReferenceIdeal.Hand.keptC_arg9, Cert.ReferenceIdeal.Hand.keptB_arg9, Cert.ReferenceIdeal.Hand.keptA_arg9]
    · rw [h c Cert.ReferenceIdeal.main_arg10, Cert.ReferenceIdeal.Hand.after_ops, Cert.ReferenceIdeal.Hand.keptE_arg10, Cert.ReferenceIdeal.Hand.keptD_arg10, Cert.ReferenceIdeal.Hand.keptC_arg10, Cert.ReferenceIdeal.Hand.keptB_arg10, Cert.ReferenceIdeal.Hand.keptA_arg10]
    · rw [h c Cert.ReferenceIdeal.main_arg11, Cert.ReferenceIdeal.Hand.after_ops, Cert.ReferenceIdeal.Hand.keptE_arg11, Cert.ReferenceIdeal.Hand.keptD_arg11, Cert.ReferenceIdeal.Hand.keptC_arg11, Cert.ReferenceIdeal.Hand.keptB_arg11, Cert.ReferenceIdeal.Hand.keptA_arg11]
    · rw [h c Cert.ReferenceIdeal.main_arg12, Cert.ReferenceIdeal.Hand.after_ops, Cert.ReferenceIdeal.Hand.keptE_arg12, Cert.ReferenceIdeal.Hand.keptD_arg12, Cert.ReferenceIdeal.Hand.keptC_arg12, Cert.ReferenceIdeal.Hand.keptB_arg12, Cert.ReferenceIdeal.Hand.keptA_arg12]
    · rw [h c Cert.ReferenceIdeal.main_arg13, Cert.ReferenceIdeal.Hand.after_ops, Cert.ReferenceIdeal.Hand.keptE_arg13, Cert.ReferenceIdeal.Hand.keptD_arg13, Cert.ReferenceIdeal.Hand.keptC_arg13, Cert.ReferenceIdeal.Hand.keptB_arg13, Cert.ReferenceIdeal.Hand.keptA_arg13]
    · rw [h c Cert.ReferenceIdeal.main_arg14, Cert.ReferenceIdeal.Hand.after_ops, Cert.ReferenceIdeal.Hand.keptE_arg14, Cert.ReferenceIdeal.Hand.keptD_arg14, Cert.ReferenceIdeal.Hand.keptC_arg14, Cert.ReferenceIdeal.Hand.keptB_arg14, Cert.ReferenceIdeal.Hand.keptA_arg14]
    · rw [h c Cert.ReferenceIdeal.main_arg15, Cert.ReferenceIdeal.Hand.after_ops, Cert.ReferenceIdeal.Hand.keptE_arg15, Cert.ReferenceIdeal.Hand.keptD_arg15, Cert.ReferenceIdeal.Hand.keptC_arg15, Cert.ReferenceIdeal.Hand.keptB_arg15, Cert.ReferenceIdeal.Hand.keptA_arg15])
    (Cert.ReferenceIdeal.Hand.run (F := Ideal) m ρ)

/-- The ideal pass rewrote no operation of the kernel program: nothing to preserve. -/
theorem preserves : Cert.preserves_Kernel_KernelIdeal := trivial

/-- At the extended reals the two programs, run from memories that agree on the arguments, end with the same result:
    the kernel program's result buffer holds its last boundary's contents, the reference's the fold of its operations,
    and the two are equal (`Cert.Assembly.result_eq`); the arguments end as launched on both sides. -/
theorem algebraic : Cert.algebraic_KernelIdeal_ReferenceIdeal := by
  intro m ρ m' ρ' _ hagree
  refine ⟨fun c => Cert.KernelIdeal.Gen.W7 m ρ c (Proc.devRef .tc Cert.KernelIdeal.main_v82), Cert.KernelIdeal.KRun.run (F := Ideal) m ρ, ?_⟩
  refine (θ_run (Cert.ReferenceIdeal.defs (F := Ideal)) _ _).mono (fun r h c => ?_) (Cert.ReferenceIdeal.Hand.run (F := Ideal) m' ρ')
  refine ⟨?_, ?_, ?_, ?_, ?_, ?_, ?_, ?_, ?_, ?_, ?_, ?_, ?_, ?_, ?_, ?_, ?_⟩
  · rw [h c Cert.ReferenceIdeal.main_v107, Cert.ReferenceIdeal.Hand.after_ops]
    exact Cert.Assembly.result_eq m ρ m' c (hagree c)
  · rw [h c Cert.ReferenceIdeal.main_arg0, Cert.ReferenceIdeal.Hand.after_ops, Cert.ReferenceIdeal.Hand.keptE_arg0, Cert.ReferenceIdeal.Hand.keptD_arg0, Cert.ReferenceIdeal.Hand.keptC_arg0, Cert.ReferenceIdeal.Hand.keptB_arg0, Cert.ReferenceIdeal.Hand.keptA_arg0]
  · rw [h c Cert.ReferenceIdeal.main_arg1, Cert.ReferenceIdeal.Hand.after_ops, Cert.ReferenceIdeal.Hand.keptE_arg1, Cert.ReferenceIdeal.Hand.keptD_arg1, Cert.ReferenceIdeal.Hand.keptC_arg1, Cert.ReferenceIdeal.Hand.keptB_arg1, Cert.ReferenceIdeal.Hand.keptA_arg1]
  · rw [h c Cert.ReferenceIdeal.main_arg2, Cert.ReferenceIdeal.Hand.after_ops, Cert.ReferenceIdeal.Hand.keptE_arg2, Cert.ReferenceIdeal.Hand.keptD_arg2, Cert.ReferenceIdeal.Hand.keptC_arg2, Cert.ReferenceIdeal.Hand.keptB_arg2, Cert.ReferenceIdeal.Hand.keptA_arg2]
  · rw [h c Cert.ReferenceIdeal.main_arg3, Cert.ReferenceIdeal.Hand.after_ops, Cert.ReferenceIdeal.Hand.keptE_arg3, Cert.ReferenceIdeal.Hand.keptD_arg3, Cert.ReferenceIdeal.Hand.keptC_arg3, Cert.ReferenceIdeal.Hand.keptB_arg3, Cert.ReferenceIdeal.Hand.keptA_arg3]
  · rw [h c Cert.ReferenceIdeal.main_arg4, Cert.ReferenceIdeal.Hand.after_ops, Cert.ReferenceIdeal.Hand.keptE_arg4, Cert.ReferenceIdeal.Hand.keptD_arg4, Cert.ReferenceIdeal.Hand.keptC_arg4, Cert.ReferenceIdeal.Hand.keptB_arg4, Cert.ReferenceIdeal.Hand.keptA_arg4]
  · rw [h c Cert.ReferenceIdeal.main_arg5, Cert.ReferenceIdeal.Hand.after_ops, Cert.ReferenceIdeal.Hand.keptE_arg5, Cert.ReferenceIdeal.Hand.keptD_arg5, Cert.ReferenceIdeal.Hand.keptC_arg5, Cert.ReferenceIdeal.Hand.keptB_arg5, Cert.ReferenceIdeal.Hand.keptA_arg5]
  · rw [h c Cert.ReferenceIdeal.main_arg6, Cert.ReferenceIdeal.Hand.after_ops, Cert.ReferenceIdeal.Hand.keptE_arg6, Cert.ReferenceIdeal.Hand.keptD_arg6, Cert.ReferenceIdeal.Hand.keptC_arg6, Cert.ReferenceIdeal.Hand.keptB_arg6, Cert.ReferenceIdeal.Hand.keptA_arg6]
  · rw [h c Cert.ReferenceIdeal.main_arg7, Cert.ReferenceIdeal.Hand.after_ops, Cert.ReferenceIdeal.Hand.keptE_arg7, Cert.ReferenceIdeal.Hand.keptD_arg7, Cert.ReferenceIdeal.Hand.keptC_arg7, Cert.ReferenceIdeal.Hand.keptB_arg7, Cert.ReferenceIdeal.Hand.keptA_arg7]
  · rw [h c Cert.ReferenceIdeal.main_arg8, Cert.ReferenceIdeal.Hand.after_ops, Cert.ReferenceIdeal.Hand.keptE_arg8, Cert.ReferenceIdeal.Hand.keptD_arg8, Cert.ReferenceIdeal.Hand.keptC_arg8, Cert.ReferenceIdeal.Hand.keptB_arg8, Cert.ReferenceIdeal.Hand.keptA_arg8]
  · rw [h c Cert.ReferenceIdeal.main_arg9, Cert.ReferenceIdeal.Hand.after_ops, Cert.ReferenceIdeal.Hand.keptE_arg9, Cert.ReferenceIdeal.Hand.keptD_arg9, Cert.ReferenceIdeal.Hand.keptC_arg9, Cert.ReferenceIdeal.Hand.keptB_arg9, Cert.ReferenceIdeal.Hand.keptA_arg9]
  · rw [h c Cert.ReferenceIdeal.main_arg10, Cert.ReferenceIdeal.Hand.after_ops, Cert.ReferenceIdeal.Hand.keptE_arg10, Cert.ReferenceIdeal.Hand.keptD_arg10, Cert.ReferenceIdeal.Hand.keptC_arg10, Cert.ReferenceIdeal.Hand.keptB_arg10, Cert.ReferenceIdeal.Hand.keptA_arg10]
  · rw [h c Cert.ReferenceIdeal.main_arg11, Cert.ReferenceIdeal.Hand.after_ops, Cert.ReferenceIdeal.Hand.keptE_arg11, Cert.ReferenceIdeal.Hand.keptD_arg11, Cert.ReferenceIdeal.Hand.keptC_arg11, Cert.ReferenceIdeal.Hand.keptB_arg11, Cert.ReferenceIdeal.Hand.keptA_arg11]
  · rw [h c Cert.ReferenceIdeal.main_arg12, Cert.ReferenceIdeal.Hand.after_ops, Cert.ReferenceIdeal.Hand.keptE_arg12, Cert.ReferenceIdeal.Hand.keptD_arg12, Cert.ReferenceIdeal.Hand.keptC_arg12, Cert.ReferenceIdeal.Hand.keptB_arg12, Cert.ReferenceIdeal.Hand.keptA_arg12]
  · rw [h c Cert.ReferenceIdeal.main_arg13, Cert.ReferenceIdeal.Hand.after_ops, Cert.ReferenceIdeal.Hand.keptE_arg13, Cert.ReferenceIdeal.Hand.keptD_arg13, Cert.ReferenceIdeal.Hand.keptC_arg13, Cert.ReferenceIdeal.Hand.keptB_arg13, Cert.ReferenceIdeal.Hand.keptA_arg13]
  · rw [h c Cert.ReferenceIdeal.main_arg14, Cert.ReferenceIdeal.Hand.after_ops, Cert.ReferenceIdeal.Hand.keptE_arg14, Cert.ReferenceIdeal.Hand.keptD_arg14, Cert.ReferenceIdeal.Hand.keptC_arg14, Cert.ReferenceIdeal.Hand.keptB_arg14, Cert.ReferenceIdeal.Hand.keptA_arg14]
  · rw [h c Cert.ReferenceIdeal.main_arg15, Cert.ReferenceIdeal.Hand.after_ops, Cert.ReferenceIdeal.Hand.keptE_arg15, Cert.ReferenceIdeal.Hand.keptD_arg15, Cert.ReferenceIdeal.Hand.keptC_arg15, Cert.ReferenceIdeal.Hand.keptB_arg15, Cert.ReferenceIdeal.Hand.keptA_arg15]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
